-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S256x64x1024 : Shape := ⟨3, ![256, 64, 1024]⟩
abbrev S1024x1024 : Shape := ⟨2, ![1024, 1024]⟩
abbrev S1x1024 : Shape := ⟨2, ![1, 1024]⟩
abbrev S1x1 : Shape := ⟨2, ![1, 1]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S256x64x1024 : S_.BroadcastsInDim S256x64x1024 (![] : Fin 0 → Fin S256x64x1024.rank)
  reducesTo_S256x64x1024_S_d0_1_2 : S256x64x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_arg4 : FVec F S1x1 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1 .f32 := Host.absf main_arg4
  let main_cst_6 : FVec F S_ .f32 := constant S_ .f32 0x7F800000#32
  let main_v20 : FVec F S1x1 .f32 := broadcastInDim S1x1 ![] bcast_S_S1x1 main_cst_6
  let main_v21 : IVec S1x1 1 := cmpf .olt main_v19 main_v20
  let main_c_7 : IVec S_ 1 := constantI S_ 1 1#1
  let main_v22 : IVec S_ 1 := (fun x v => Host.reduce IntOp.andi x v reducesTo_S1x1_S_d0_1 h_S_) main_v21 main_c_7
  let main_v23 : IVec S_ 1 := andi main_v18 main_v22
  main_v23

def fn {F : FTy → Type} [FloatOps F] (main_arg0 : FVec F S256x1024 .f32) (main_arg1 : FVec F S256x64x1024 .f32) (main_arg2 : FVec F S1024x1024 .f32) (main_arg3 : FVec F S1x1024 .f32) (main_arg4 : FVec F S1x1 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S256x64x1024 .f32 := Host.absf main_arg1
  let main_cst_0 : FVec F S_ .f32 := constant S_ .f32 0x7F800000#32
  let main_v5 : FVec F S256x64x1024 .f32 := broadcastInDim S256x64x1024 ![] bcast_S_S256x64x1024 main_cst_0
  let main_v6 : IVec S256x64x1024 1 := cmpf .olt main_v4 main_v5
  let main_c_1 : IVec S_ 1 := constantI S_ 1 1#1
  let main_v7 : IVec S_ 1 := (fun x v => Host.reduce IntOp.andi x v reducesTo_S256x64x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v13 main_v16
-- ==== Kernel.lean ====
abbrev S256x1024 : Shape := ⟨2, ![256, 1024]⟩
abbrev S256x64x1024 : Shape := ⟨3, ![256, 64, 1024]⟩
abbrev S1024x1024 : Shape := ⟨2, ![1024, 1024]⟩
abbrev S1x1024 : Shape := ⟨2, ![1, 1024]⟩
abbrev S1x1 : Shape := ⟨2, ![1, 1]⟩
abbrev S128x1024 : Shape := ⟨2, ![128, 1024]⟩
abbrev S1x128 : Shape := ⟨2, ![1, 128]⟩
abbrev S128 : Shape := ⟨1, ![128]⟩
abbrev S128x1 : Shape := ⟨2, ![128, 1]⟩
abbrev S8x1x1024 : Shape := ⟨3, ![8, 1, 1024]⟩
abbrev S1x1x1024 : Shape := ⟨3, ![1, 1, 1024]⟩
abbrev S1024 : Shape := ⟨1, ![1024]⟩
abbrev S64x64x1024 : Shape := ⟨3, ![64, 64, 1024]⟩
abbrev S64x1024 : Shape := ⟨2, ![64, 1024]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 20
  | .smem => 0
  | _ => 0

abbrev bufTy : (tb : Table) → Fin (tcTables nBuf tb) → BufTy
  | .hbm, ⟨0, _⟩ => ⟨S256x1024, .f32⟩
  | .hbm, ⟨1, _⟩ => ⟨S256x64x1024, .f32⟩
  | .hbm, ⟨2, _⟩ => ⟨S1024x1024, .f32⟩
  | .hbm, ⟨3, _⟩ => ⟨S1x1024, .f32⟩
  | .hbm, ⟨4, _⟩ => ⟨S1x1, .f32⟩
  | .hbm, ⟨5, _⟩ => ⟨S1x1024, .f32⟩
  | .hbm, ⟨6, _⟩ => ⟨S8x1x1024, .f32⟩
  | .hbm, ⟨7, _⟩ => ⟨S256x1024, .f32⟩
  | .hbm, ⟨8, _⟩ => ⟨S256x256, .f32⟩
  | .local _ .vmem, ⟨0, _⟩ => ⟨S128x1024, .f32⟩
  | .local _ .vmem, ⟨1, _⟩ => ⟨S128x1024, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | .local _ .vmem, ⟨9, _⟩ => ⟨S1x1, .f32⟩
  | .local _ .vmem, ⟨10, _⟩ => ⟨S1x1x1024, .f32⟩
  | .local _ .vmem, ⟨11, _⟩ => ⟨S1x1x1024, .f32⟩
  | .local _ .vmem, ⟨12, _⟩ => ⟨S64x64x1024, .f32⟩
  | .local _ .vmem, ⟨13, _⟩ => ⟨S64x64x1024, .f32⟩
  | .local _ .vmem, ⟨14, _⟩ => ⟨S64x1024, .f32⟩
  | .local _ .vmem, ⟨15, _⟩ => ⟨S64x1024, .f32⟩
  | .local _ .vmem, ⟨16, _⟩ => ⟨S256x1024, .f32⟩
  | .local _ .vmem, ⟨17, _⟩ => ⟨S8x1x1024, .f32⟩
  | .local _ .vmem, ⟨18, _⟩ => ⟨S256x1024, .f32⟩
  | .local _ .vmem, ⟨19, _⟩ => ⟨S256x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc3_sem0_0 : DmaSem sig := 16
abbrev cc3_sem1_0 : DmaSem sig := 17
abbrev cc3_sem2_0 : DmaSem sig := 18
abbrev cc3_sem3_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x64x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S8x1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  inb_S128x1024_S128x1024_0_0 : ∀ a, (![0, 0] : Fin 2 → Nat) a + S128x1024.size a ≤ S128x1024.size a
  h_S128x1024 : 0 < S128x1024.numel
  reduces_S128x1024_S128 : S128x1024.Reduces [1] S128
  shapeCasts_S128_S128x1 : S128.ShapeCasts S128x1
  broadcasts_S128x1_S128x1024 : S128x1.Broadcasts S128x1024
  inb_S1x128_S1x128_0_0 : ∀ a, (![0, 0] : Fin 2 → Nat) a + S1x128.size a ≤ S1x128.size a
  h_S1x128 : 0 < S1x128.numel
  transposes_S1x128_p1_0_S128x1 : S1x128.Transposes [1, 0] S128x1
  transposes_S128x1_p1_0_S1x128 : S128x1.Transposes [1, 0] S1x128
  inb_S1x1_S1x1_0_0 : ∀ a, (![0, 0] : Fin 2 → Nat) a + S1x1.size a ≤ S1x1.size a
  h_S1x1 : 0 < S1x1.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  broadcasts_S1x1_S128x1024 : S1x1.Broadcasts S128x1024
  reduces_S128x1024_S1024 : S128x1024.Reduces [0] S1024
  shapeCasts_S1024_S1x1024 : S1024.ShapeCasts S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  inb_S64x64x1024_S64x64x1024_0_0_0 : ∀ a, (![0, 0, 0] : Fin 3 → Nat) a + S64x64x1024.size a ≤ S64x64x1024.size a
  h_S64x64x1024 : 0 < S64x64x1024.numel
  reduces_S64x64x1024_S64x1024 : S64x64x1024.Reduces [1] S64x1024
  inb_S64x1024_S64x1024_0_0 : ∀ a, (![0, 0] : Fin 2 → Nat) a + S64x1024.size a ≤ S64x1024.size a
  h_S64x1024 : 0 < S64x1024.numel
  inb_S8x1x1024_S8x1x1024_0_0_0 : ∀ a, (![0, 0, 0] : Fin 3 → Nat) a + S8x1x1024.size a ≤ S8x1x1024.size a
  h_S8x1x1024 : 0 < S8x1x1024.numel
  shapeCasts_S8x1x1024_S8x1x1024 : S8x1x1024.ShapeCasts S8x1x1024
  reduces_S8x1x1024_S1x1024 : S8x1x1024.Reduces [0] S1x1024
  inb_S256x1024_S256x1024_0_0 : ∀ a, (![0, 0] : Fin 2 → Nat) a + S256x1024.size a ≤ S256x1024.size a
  h_S256x1024 : 0 < S256x1024.numel
  broadcasts_S1x1024_S256x1024 : S1x1024.Broadcasts S256x1024
  bitsLt_bf16_f32 : FTy.bits .bf16 < FTy.bits .f32
  shapeCasts_S256x1024_S256x1024 : S256x1024.ShapeCasts S256x1024
  reduces_S256x256_S256 : S256x256.Reduces [1] S256
  shapeCasts_S256_S256x1 : S256.ShapeCasts S256x1
  broadcasts_S256x1_S256x256 : S256x1.Broadcasts S256x256
  inb_S256x256_S256x256_0_0 : ∀ a, (![0, 0] : Fin 2 → Nat) a + S256x256.size a ≤ S256x256.size a
  h_S256x256 : 0 < S256x256.numel
  dot_S256x1024_S256x1024_S256x256_1_1_0_0_n_n_wf : DotDims.WF S256x1024 S256x1024 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S1024x1024.size a
  hwx0_0 : ∀ i : grid0.Coords, EltTy.bits .f32 = 32 ∨ (Rect.block (s := S1024x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x1024.size a
  hwx0_1 : ∀ i : grid0.Coords, EltTy.bits .f32 = 32 ∨ (Rect.block (s := S1x1024) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .f32 = 32 ∨ (Rect.block (s := S1x1024) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S1024x1024.size a
  hwx1_0 : ∀ i : grid1.Coords, EltTy.bits .f32 = 32 ∨ (Rect.block (s := S1024x1024) S128x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S8x1x1024.size a
  hwx1_3 : ∀ i : grid1.Coords, EltTy.bits .f32 = 32 ∨ (Rect.block (s := S8x1x1024) S1x1x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x64x1024.size a ≤ S256x64x1024.size a
  hwx2_0 : ∀ i : grid2.Coords, EltTy.bits .f32 = 32 ∨ (Rect.block (s := S256x64x1024) S64x64x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x1024.size a ≤ S256x1024.size a
  hwx2_1 : ∀ i : grid2.Coords, EltTy.bits .f32 = 32 ∨ (Rect.block (s := S256x1024) S64x1024.size (cc2_transform_1 i) (hinb2_1 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x1024.size a ≤ S256x1024.size a
  hwx3_0 : ∀ i : grid3.Coords, EltTy.bits .f32 = 32 ∨ (Rect.block (s := S256x1024) S256x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8x1x1024.size a ≤ S8x1x1024.size a
  hwx3_1 : ∀ i : grid3.Coords, EltTy.bits .f32 = 32 ∨ (Rect.block (s := S8x1x1024) S8x1x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x1024.size a ≤ S256x1024.size a
  hwx3_2 : ∀ i : grid3.Coords, EltTy.bits .f32 = 32 ∨ (Rect.block (s := S256x1024) S256x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)

variable [Facts₀]

def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf

abbrev win0_0 : Pipeline.Window sig grid0 :=
  Pipeline.Window.ofSpec (Memref.whole main_arg2) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S64x64x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S64x1024.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg0) S256x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v1) S8x1x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2) S256x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3) S256x256.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S256x1024 : Shape := ⟨2, ![256, 1024]⟩
abbrev S256x64x1024 : Shape := ⟨3, ![256, 64, 1024]⟩
abbrev S1024x1024 : Shape := ⟨2, ![1024, 1024]⟩
abbrev S1x1024 : Shape := ⟨2, ![1, 1024]⟩
abbrev S1x1 : Shape := ⟨2, ![1, 1]⟩
abbrev S_ : Shape := ⟨0, ![]⟩
abbrev S1024 : Shape := ⟨1, ![1024]⟩
abbrev S1024x1 : Shape := ⟨2, ![1024, 1]⟩
abbrev S256x256x64 : Shape := ⟨3, ![256, 256, 64]⟩
abbrev S256x256 : Shape := ⟨2, ![256, 256]⟩
abbrev S256 : Shape := ⟨1, ![256]⟩
abbrev S256x1 : Shape := ⟨2, ![256, 1]⟩

abbrev nBuf : Space → Nat
  | .hbm => 86
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x64x1024, .f32⟩
  | .hbm, ⟨2, _⟩ => ⟨S1024x1024, .f32⟩
  | .hbm, ⟨3, _⟩ => ⟨S1x1024, .f32⟩
  | .hbm, ⟨4, _⟩ => ⟨S1x1, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .i32⟩
  | .hbm, ⟨19, _⟩ => ⟨S_, .f32⟩
  | .hbm, ⟨20, _⟩ => ⟨S1024, .f32⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S_, .f32⟩
  | .hbm, ⟨46, _⟩ => ⟨S_, .f32⟩
  | .hbm, ⟨47, _⟩ => ⟨S1x1024, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S1024x1024, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S_, .f32⟩
  | .hbm, ⟨57, _⟩ => ⟨S1024, .f32⟩
  | .hbm, ⟨58, _⟩ => ⟨S1024x1, .f32⟩
  | .hbm, ⟨59, _⟩ => ⟨S1024x1, .f32⟩
  | .hbm, ⟨60, _⟩ => ⟨S_, .f32⟩
  | .hbm, ⟨61, _⟩ => ⟨S1024x1, .f32⟩
  | .hbm, ⟨62, _⟩ => ⟨S1024x1, .f32⟩
  | .hbm, ⟨63, _⟩ => ⟨S1024x1024, .f32⟩
  | .hbm, ⟨64, _⟩ => ⟨S1024x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S256x1024, .f32⟩
  | .hbm, ⟨69, _⟩ => ⟨S256x1024, .f32⟩
  | .hbm, ⟨70, _⟩ => ⟨S256x256x64, .f32⟩
  | .hbm, ⟨71, _⟩ => ⟨S_, .f32⟩
  | .hbm, ⟨72, _⟩ => ⟨S256x256, .f32⟩
  | .hbm, ⟨73, _⟩ => ⟨S_, .f32⟩
  | .hbm, ⟨74, _⟩ => ⟨S256x256, .f32⟩
  | .hbm, ⟨75, _⟩ => ⟨S256x256, .f32⟩
  | .hbm, ⟨76, _⟩ => ⟨S256x256, .f32⟩
  | .hbm, ⟨77, _⟩ => ⟨S_, .f32⟩
  | .hbm, ⟨78, _⟩ => ⟨S256, .f32⟩
  | .hbm, ⟨79, _⟩ => ⟨S256x1, .f32⟩
  | .hbm, ⟨80, _⟩ => ⟨S256x1, .f32⟩
  | .hbm, ⟨81, _⟩ => ⟨S_, .f32⟩
  | .hbm, ⟨82, _⟩ => ⟨S256x1, .f32⟩
  | .hbm, ⟨83, _⟩ => ⟨S256x1, .f32⟩
  | .hbm, ⟨84, _⟩ => ⟨S256x256, .f32⟩
  | .hbm, ⟨85, _⟩ => ⟨S256x256, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_cst_0 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_cst_1 : Ref sig .tc := ⟨.hbm, 29, rfl⟩
abbrev main_call0_call0_v8 : Ref sig .tc := ⟨.hbm, 30, rfl⟩
abbrev main_call0_call0_cst_2 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_call0_cst_3 : Ref sig .tc := ⟨.hbm, 35, rfl⟩
abbrev main_call0_call0_v12 : Ref sig .tc := ⟨.hbm, 36, rfl⟩
abbrev main_call0_call0_cst_4 : Ref sig .tc := ⟨.hbm, 37, rfl⟩
abbrev main_call0_call0_call0_v0 : Ref sig .tc := ⟨.hbm, 38, rfl⟩
abbrev main_call0_call0_call0_v1 : Ref sig .tc := ⟨.hbm, 39, rfl⟩
abbrev main_call0_v0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_call1_v0 : Ref sig .tc := ⟨.hbm, 55, rfl⟩
abbrev main_call1_cst : Ref sig .tc := ⟨.hbm, 56, rfl⟩
abbrev main_call1_v1 : Ref sig .tc := ⟨.hbm, 57, rfl⟩
abbrev main_call1_v2 : Ref sig .tc := ⟨.hbm, 58, rfl⟩
abbrev main_v23 : Ref sig .tc := ⟨.hbm, 59, rfl⟩
abbrev main_cst_3 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_4 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_5 : Ref sig .tc := ⟨.hbm, 71, rfl⟩
abbrev main_v33 : Ref sig .tc := ⟨.hbm, 72, rfl⟩
abbrev main_cst_6 : Ref sig .tc := ⟨.hbm, 73, rfl⟩
abbrev main_v34 : Ref sig .tc := ⟨.hbm, 74, rfl⟩
abbrev main_v35 : Ref sig .tc := ⟨.hbm, 75, rfl⟩
abbrev main_call2_v0 : Ref sig .tc := ⟨.hbm, 76, rfl⟩
abbrev main_call2_cst : Ref sig .tc := ⟨.hbm, 77, rfl⟩
abbrev main_call2_v1 : Ref sig .tc := ⟨.hbm, 78, rfl⟩
abbrev main_call2_v2 : Ref sig .tc := ⟨.hbm, 79, rfl⟩
abbrev main_v36 : Ref sig .tc := ⟨.hbm, 80, rfl⟩
abbrev main_cst_7 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  reducesTo_S1024x1024_S1024_d1 : S1024x1024.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  shapeCasts_S1x1024_S1024 : S1x1024.ShapeCasts S1024
  shapeCasts_S1x1_S_ : S1x1.ShapeCasts S_
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  reducesTo_S1024x1024_S1024_d0 : S1024x1024.ReducesTo [0] S1024
  bcast_S1x1024_S256x1024_0_1 : S1x1024.BroadcastsInDim S256x1024 (![0, 1] : Fin 2 → Fin S256x1024.rank)
  reducesTo_S256x256x64_S256x256_d2 : S256x256x64.ReducesTo [2] S256x256
  bcast_S_S256x256 : S_.BroadcastsInDim S256x256 (![] : Fin 0 → Fin S256x256.rank)
  reducesTo_S256x256_S256_d1 : S256x256.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x256_0_1 : S256x1.BroadcastsInDim S256x256 (![0, 1] : Fin 2 → Fin S256x256.rank)
  dot_S256x1024_S256x64x1024_S256x256x64_1_2_0_01_n_n_wf : DotDims.WF S256x1024 S256x64x1024 S256x256x64 [1] [2] [0] [0, 1] [] []

variable [Facts₀]

def dot_S256x1024_S256x64x1024_S256x256x64_1_2_0_01_n_n : DotDims S256x1024 S256x64x1024 S256x256x64 where
  lhsContracting := [1]
  rhsContracting := [2]
  lhsNonContracting := [0]
  rhsNonContracting := [0, 1]
  lhsBatch := []
  rhsBatch := []
  wf := dot_S256x1024_S256x64x1024_S256x256x64_1_2_0_01_n_n_wf

class Facts : Prop extends Facts₀ where

variable [Facts]
-- ==== Proof.KRun.lean ====
/-
  The idealized kernel's run with its RESULT named. The program is four kernel regions in a row; between two regions
  the TensorCore's buffers hold what the earlier region's write-backs left. The last boundary's contents are
  `Gen.W4`: region 3's arrays at what its pipeline leaves, every other buffer as region 3 found it. Every weakly
  fair execution terminates with every unscoped buffer at those contents; read at the result buffer and at the five
  argument buffers this is the statement below. (The frame claim keeps only the arguments; this keeps the result too.)
-/
import proofs.«136278_j8443905704308_2_alg».proof.Proof.Gen.KernelIdeal.Frame

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution of the program terminates, nothing faulting, with the result buffer at the last
    boundary's contents and the five arguments as launched. -/
theorem run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KRun

end
-- ==== Proof.Spec.lean ====
/-
  The mathematics both programs compute, as functions of the five argument arrays over the extended reals,
  index by index.

  With W = logistic(emb) (a 1024 x 1024 matrix):
    mean r   = (sum_d W r d) / 1024                      the mean of row r
    var r    = (sum_d (W r d - mean r)^2) / 1023         the unbiased variance of row r
    thres d  = mean d + simw d * sqrt (var d)            a threshold per COLUMN d, from the statistics of ROW d
    mw r d   = tanh (exp (exp temp * (W r d - thres d))) * W r d
    dlw r d  = mw r d / (sqrt (sum_d (mw r d)^2) + eps)  each row scaled to unit length
    diag d   = sum_r dlw r d                             the column sums
  (mwT, rnormT, dlwT below take the threshold vector as a parameter)
  and then the similarity of text row i and video j, the mean over the 64 frames f of
  sum_d (txt i d * diag d) * vid j f d, scaled to unit length along j.

  The two programs differ in ONE place: where the mean over frames is taken. One takes the mean of the video
  frames first and contracts over d afterwards (simK); the other contracts over d for every frame and takes the
  mean of the 64 products afterwards (simR). The two agree when every number involved is finite (Bridge).
-/
import Idealize.ShloMosaic.PureOps.Ideal
import Idealize.ShloMosaic.Lib.ValueIdx

noncomputable section

namespace Cert.Spec

open Idealize.ShloMosaic Idealize.ShloMosaic.ValueIdx

/-- A matrix of extended reals. -/
abbrev A2 (a b : Nat) := (⟨2, ![a, b]⟩ : Shape).Idx → EReal
/-- A rank-3 array of extended reals. -/
abbrev A3 (a b c : Nat) := (⟨3, ![a, b, c]⟩ : Shape).Idx → EReal

/-- The float 1e-8 as both programs spell it (one binary word, the same on both sides). -/
def eps : EReal := Ideal.ofBits .f32 0x322BCC77#32
/-- The float 1024. -/
def c1024 : EReal := Ideal.ofBits .f32 0x44800000#32
/-- The float 1023. -/
def c1023 : EReal := Ideal.ofBits .f32 0x447FC000#32
/-- The float 64. -/
def c64 : EReal := Ideal.ofBits .f32 0x42800000#32

variable (emb : A2 1024 1024) (simw : A2 1 1024) (temp : A2 1 1)

/-- The gate weights: the logistic function of the embedding table. -/
def w (r d : Fin 1024) : EReal := Ideal.logistic (emb (ix2 r d))
/-- The mean of row r of the weights. -/
def mean (r : Fin 1024) : EReal := Ideal.div (∑ d : Fin 1024, w emb r d) c1024
/-- The unbiased variance of row r of the weights. -/
def var (r : Fin 1024) : EReal :=
  Ideal.div (∑ d : Fin 1024, (w emb r d - mean emb r) * (w emb r d - mean emb r)) c1023
/-- The threshold of column d: the mean of ROW d plus simw d standard deviations of ROW d. -/
def thres (d : Fin 1024) : EReal := mean emb d + simw (ix2 0 d) * Ideal.sqrt (var emb d)
/-- The masked weight against a threshold vector th. -/
def mwT (th : Fin 1024 → EReal) (r d : Fin 1024) : EReal :=
  Ideal.tanh (Ideal.exp (Ideal.exp (temp (ix2 0 0)) * (w emb r d - th d))) * w emb r d
/-- The length of row r of the masked weights, plus eps. -/
def rnormT (th : Fin 1024 → EReal) (r : Fin 1024) : EReal :=
  Ideal.sqrt (∑ d : Fin 1024, mwT emb temp th r d * mwT emb temp th r d) + eps
/-- The masked weights with every row scaled to unit length. -/
def dlwT (th : Fin 1024 → EReal) (r d : Fin 1024) : EReal := Ideal.div (mwT emb temp th r d) (rnormT emb temp th r)
/-- The column sums of the scaled masked weights, at the thresholds `thres`. -/
def diag (d : Fin 1024) : EReal := ∑ r : Fin 1024, dlwT emb temp (thres emb simw) r d

/-- Row r of band b: the 1024 rows are 8 bands of 128. -/
def band (b : Fin 8) (r : Fin 128) : Fin 1024 := ⟨128 * b.val + r.val, by omega⟩

variable (txt : A2 256 1024) (vid : A3 256 64 1024)

/-- The mean over the 64 frames of video j at feature d. -/
def vmean (j : Fin 256) (d : Fin 1024) : EReal := Ideal.div (∑ f : Fin 64, vid (ix3 j f d)) c64

/-- The similarity with the frame mean taken FIRST (text row i scaled by g, against the mean frame of video j). -/
def simK (g : Fin 1024 → EReal) (i j : Fin 256) : EReal :=
  ∑ d : Fin 1024, (txt (ix2 i d) * g d) * vmean vid j d
/-- The similarity with the frame mean taken LAST (the mean over frames of the 64 contractions over d). -/
def simR (g : Fin 1024 → EReal) (i j : Fin 256) : EReal :=
  Ideal.div (∑ f : Fin 64, ∑ d : Fin 1024, (txt (ix2 i d) * g d) * vid (ix3 j f d)) c64

/-- Each row of S scaled to unit length (its length plus eps). -/
def normalize (S : Fin 256 → Fin 256 → EReal) (i j : Fin 256) : EReal :=
  Ideal.div (S i j) (Ideal.sqrt (∑ j' : Fin 256, S i j' * S i j') + eps)

/-- The result with the frame mean taken first. -/
def outK : A2 256 256 := fun y => normalize (simK txt vid (diag emb simw temp)) (y 0) (y 1)
/-- The result with the frame mean taken last. -/
def outR : A2 256 256 := fun y => normalize (simR txt vid (diag emb simw temp)) (y 0) (y 1)

/-- The thresholds as the [1, 1024] array the first stage writes. -/
def thresArr : A2 1 1024 := fun y => thres emb simw (y 1)
/-- Partial column sums: band b (rows 128 b .. 128 b + 127) of the scaled masked weights, given the thresholds as a
    [1, 1024] array th. The second stage writes these as an [8, 1, 1024] array. -/
def diagPartArr (th : A2 1 1024) : A3 8 1 1024 := fun y =>
  ∑ r : Fin 128, dlwT emb temp (fun d => th (ix2 0 d)) (band (y 0) r) (y 2)
/-- The frame means as the [256, 1024] array the third stage writes. -/
def vmeanArr : A2 256 1024 := fun y => vmean vid (y 0) (y 1)
/-- What the fourth stage computes from the text rows, the partial column sums dp and a [256, 1024] array vm of
    frame means: the eight partial sums added up, the text rows scaled, contracted against vm, rows normalized. -/
def simArr (dp : A3 8 1 1024) (vm : A2 256 1024) : A2 256 256 := fun y =>
  normalize (fun i j => ∑ d : Fin 1024, (txt (ix2 i d) * ∑ b : Fin 8, dp (ix3 b 0 d)) * vm (ix2 j d)) (y 0) (y 1)

end Cert.Spec

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.KThresPay.lean ====
/-
  The first stage's arithmetic, read at one entry.

  The body of the first stage takes a block of 128 rows of the embedding table (all 1024 columns) and the matching 128
  entries of the row of multipliers. For each of its rows it forms the gate weights (the logistic function of the row),
  their mean over the 1024 columns, their unbiased variance (the squared deviations summed and divided by 1023), and writes
  mean + multiplier · standard deviation. The multipliers arrive as a row [1, 128] and are turned into a column [128, 1];
  the result is formed as a column and turned back into a row. So entry (0, q) of what the body stores depends on row q of
  the block and on entry (0, q) of the multipliers only, and is the threshold of that row.
-/
import proofs.«136278_j8443905704308_2_alg».proof.Proof.Gen.KernelIdeal.Skeleton
import proofs.«136278_j8443905704308_2_alg».proof.Proof.LibKeepdims
import proofs.«136278_j8443905704308_2_alg».proof.Proof.Spec
import Idealize.ShloMosaic.Lib.ValueLayout

noncomputable section

open scoped BigOperators

namespace Cert.KVal

open Idealize.ShloMosaic Idealize.ShloMosaic.ValueIdx Cert.KernelIdeal Cert.KernelIdeal.Gen Cert.Lib

/-- The mean of 1024 weights. -/
def rowMean (w : Fin 1024 → EReal) : EReal := Ideal.div (∑ d : Fin 1024, w d) Cert.Spec.c1024

/-- Their unbiased variance. -/
def rowVar (w : Fin 1024 → EReal) : EReal :=
  Ideal.div (∑ d : Fin 1024, (w d - rowMean w) * (w d - rowMean w)) Cert.Spec.c1023

/-- The threshold of a row of weights with multiplier s: the mean plus s standard deviations. -/
def rowThres (w : Fin 1024 → EReal) (s : EReal) : EReal := rowMean w + s * Ideal.sqrt (rowVar w)

/-- The sum over the columns of a [128, 1024] block kept as a column [128, 1]: at (q, 0) the sum of row q. -/
theorem colOfRowSums_apply (src : FVec Ideal S128x1024 .f32) (h : S128x1024.Reduces [1] S128) (hφ : FKind.Formats .f32)
    (hacc : (0x00000000#32 : BitVec 32) = FKind.add.neutral .f32 hφ) (h2 : S128.ShapeCasts S128x1) (q : Fin 128) (u : Fin 1) :
    shapeCast S128x1 (multiReduction .add [1] S128 src 0x00000000#32 h hφ hacc) h2 (ix2 q u) = ∑ k : Fin 1024, src (ix2 q k) :=
  (shapeCast_a_a1_apply _ h2 q u).trans (rowSum_apply src _ h hφ hacc q)

/-- The column of row means of the gate weights of a block. -/
def meanCol (x0 : Vec Ideal S128x1024 .f32) : FVec Ideal S128x1 .f32 :=
  divf (shapeCast S128x1 (multiReduction .add [1] S128 (logistic x0) 0x00000000#32 reduces_S128x1024_S128 (.inl rfl) rfl) shapeCasts_S128_S128x1)
    (broadcast S128x1 (Scalar.ofBits (F := Ideal) .f32 0x44800000#32))

/-- The deviations of the gate weights of a block from their row means. -/
def devBlock (x0 : Vec Ideal S128x1024 .f32) : FVec Ideal S128x1024 .f32 :=
  subf (logistic x0) (broadcastTo S128x1024 (meanCol x0) broadcasts_S128x1_S128x1024)

/-- The column of unbiased row variances of the gate weights of a block. -/
def varCol (x0 : Vec Ideal S128x1024 .f32) : FVec Ideal S128x1 .f32 :=
  divf (shapeCast S128x1 (multiReduction .add [1] S128 (mulf (devBlock x0) (devBlock x0)) 0x00000000#32 reduces_S128x1024_S128 (.inl rfl) rfl) shapeCasts_S128_S128x1)
    (broadcast S128x1 (Scalar.ofBits (F := Ideal) .f32 0x447FC000#32))

/-- The body's stored value as those pieces. -/
theorem k0_pay1_eq (x0 : Vec Ideal S128x1024 .f32) (x1 : Vec Ideal S1x128 .f32) :
    k0_pay1 (F := Ideal) x0 x1
      = transpose S1x128 [1, 0] (addf (meanCol x0) (mulf (transpose S128x1 [1, 0] x1 transposes_S1x128_p1_0_S128x1) (sqrt (varCol x0))))
          transposes_S128x1_p1_0_S1x128 := rfl

/-- Entry (q, 0) of the column of means is the mean of row q's weights. -/
theorem meanCol_apply (x0 : Vec Ideal S128x1024 .f32) (q : Fin 128) (u : Fin 1) :
    meanCol x0 (ix2 q u) = rowMean (fun k => Ideal.logistic (x0 (ix2 q k))) := by
  unfold meanCol rowMean
  show Ideal.div _ _ = _
  refine congrArg₂ Ideal.div ?_ rfl
  exact colOfRowSums_apply _ _ _ _ _ q u

/-- Entry (q, k) of the deviations. -/
theorem devBlock_apply (x0 : Vec Ideal S128x1024 .f32) (q : Fin 128) (k : Fin 1024) :
    devBlock x0 (ix2 q k) = Ideal.logistic (x0 (ix2 q k)) - rowMean (fun k => Ideal.logistic (x0 (ix2 q k))) := by
  unfold devBlock
  show Ideal.logistic (x0 (ix2 q k)) - _ = _
  refine congrArg₂ (· - ·) rfl ?_
  exact (broadcastTo_a1_ab_apply _ broadcasts_S128x1_S128x1024 q k).trans (meanCol_apply x0 q 0)

/-- Entry (q, 0) of the column of variances is the unbiased variance of row q's weights. -/
theorem varCol_apply (x0 : Vec Ideal S128x1024 .f32) (q : Fin 128) (u : Fin 1) :
    varCol x0 (ix2 q u) = rowVar (fun k => Ideal.logistic (x0 (ix2 q k))) := by
  unfold varCol rowVar
  show Ideal.div _ _ = _
  refine congrArg₂ Ideal.div ?_ rfl
  refine (colOfRowSums_apply _ _ _ _ _ q u).trans ?_
  refine Finset.sum_congr rfl fun k _ => ?_
  show devBlock x0 (ix2 q k) * devBlock x0 (ix2 q k) = _
  rw [devBlock_apply]

/-- Entry (0, q) of what the first stage's body stores: the threshold of row q of its block of the table, with the
    multiplier at (0, q). -/
theorem thresPay_apply (x0 : Vec Ideal S128x1024 .f32) (x1 : Vec Ideal S1x128 .f32) (u : Fin 1) (q : Fin 128) :
    k0_pay1 (F := Ideal) x0 x1 (ix2 u q)
      = rowThres (fun k => Ideal.logistic (x0 (ix2 q k))) (x1 (ix2 (0 : Fin 1) q)) := by
  rw [k0_pay1_eq]
  refine (transpose_ix2_apply _ transposes_S128x1_p1_0_S1x128 u q).trans ?_
  unfold rowThres
  show meanCol x0 (ix2 q u) + transpose S128x1 [1, 0] x1 transposes_S1x128_p1_0_S128x1 (ix2 q u) * Ideal.sqrt (varCol x0 (ix2 q u)) = _
  rw [meanCol_apply, varCol_apply]
  refine congrArg₂ (· + ·) rfl (congrArg₂ (· * ·) ?_ rfl)
  have hu : u = 0 := Subsingleton.elim _ _
  subst hu
  exact transpose_ix2_apply x1 transposes_S1x128_p1_0_S128x1 q 0

end Cert.KVal

end
-- ==== Proof.KThres.lean ====
/-
  The first stage's output array: the row of 1024 thresholds.

  The first stage runs over 8 grid points. At point t it reads rows 128 t .. 128 t + 127 of the embedding table (all 1024
  columns) and entries (0, 128 t ..) of the row of multipliers, and writes entries (0, 128 t ..) of the result. What it
  writes at (0, q) of its block is the threshold of row q of its block of the table, that is of row 128 t + q of the table,
  with the multiplier at column 128 t + q: entry (0, 128 t + q) of the row of thresholds. Every column d lies in the block
  of point d / 128, so when the stage ends its result array is the whole row of thresholds.
-/
import proofs.«136278_j8443905704308_2_alg».proof.Proof.Gen.KernelIdeal.Frame
import proofs.«136278_j8443905704308_2_alg».proof.Proof.KThresPay
import Idealize.ShloMosaic.Lib.Pipeline.Value

noncomputable section

open scoped BigOperators

namespace Cert.KVal

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- Two zero offsets, however spelt. -/
theorem thres_zeros2 : (![0, 0] : Fin 2 → Nat) = fun _ => 0 := funext fun a => by fin_cases a <;> rfl

/-- The block indices of the three windows at grid point t: the table's block is block t of rows, the multipliers' and the
    result's block is block t of columns. -/
theorem thres_index : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Entry (p, k) of the table's block at point t is entry (128 t + p, k) of the table. -/
theorem thres_table_block (c : Dev nD) (t : Fin cfg0.N) (p : Fin 128) (k : Fin 1024) (r : Fin 1024) (hr : r.val = 128 * t.val + p.val) :
    (iblk0 V c 0 t : Vec Ideal S128x1024 .f32) (ix2 p k) = (V c main_arg2 : S1024x1024.Idx → EReal) (ix2 r k) := by
  obtain ⟨e0, e1, -⟩ := thres_index t
  unfold iblk0
  rw [View.read_apply]
  show V c main_arg2 _ = V c main_arg2 _
  refine congrArg (V c main_arg2) ?_
  funext a
  apply Fin.ext
  match a with
  | ⟨0, _⟩ => show win0_0.index t 0 * 128 + 1 * p.val = r.val; rw [e0, hr]; omega
  | ⟨1, _⟩ => show win0_0.index t 1 * 1024 + 1 * k.val = k.val; rw [e1]; omega

/-- Entry (0, q) of the multipliers' block at point t is entry (0, 128 t + q) of the multipliers. -/
theorem thres_mult_block (c : Dev nD) (t : Fin cfg0.N) (q : Fin 128) (r : Fin 1024) (hr : r.val = 128 * t.val + q.val) :
    (iblk0 V c 1 t : Vec Ideal S1x128 .f32) (ix2 (0 : Fin 1) q) = (V c main_arg3 : S1x1024.Idx → EReal) (ix2 (0 : Fin 1) r) := by
  obtain ⟨-, -, e2, e3, -⟩ := thres_index t
  unfold iblk0
  rw [View.read_apply]
  show V c main_arg3 _ = V c main_arg3 _
  refine congrArg (V c main_arg3) ?_
  funext a
  apply Fin.ext
  match a with
  | ⟨0, _⟩ => show win0_1.index t 0 * 1 + 1 * 0 = 0; rw [e2]
  | ⟨1, _⟩ => show win0_1.index t 1 * 128 + 1 * q.val = r.val; rw [e3, hr]; omega

/-- What the body stores at an entry of its block is the threshold at the array entry the block's entry lands on, whenever
    the block of the table holds the rows from `base` on and the block of multipliers the columns from `base` on. -/
theorem thres_block_entry (x0 : Vec Ideal S128x1024 .f32) (x1 : Vec Ideal S1x128 .f32)
    (emb : Cert.Spec.A2 1024 1024) (simw : Cert.Spec.A2 1 1024) (j : S1x128.Idx) (i : S1x1024.Idx) (base : Nat)
    (hi : (i 1).val = base + (j 1).val)
    (h0 : ∀ (p : Fin 128) (k : Fin 1024) (r : Fin 1024), r.val = base + p.val → x0 (ix2 p k) = emb (ix2 r k))
    (h1 : ∀ (q : Fin 128) (r : Fin 1024), r.val = base + q.val → x1 (ix2 (0 : Fin 1) q) = simw (ix2 (0 : Fin 1) r)) :
    k0_pay1 (F := Ideal) x0 x1 j = Cert.Spec.thresArr emb simw i := by
  obtain ⟨u, q, rfl⟩ : ∃ (u : Fin 1) (q : Fin 128), j = ix2 u q := ⟨j 0, j 1, eq_ix2 j⟩
  rw [thresPay_apply]
  show _ = rowThres (fun k => Ideal.logistic (emb (ix2 (i 1) k))) (simw (ix2 (0 : Fin 1) (i 1)))
  rw [h1 q (i 1) hi]
  refine congrArg (fun w => rowThres w _) (funext fun k => ?_)
  rw [h0 q k (i 1) hi]

/-- What grid point t writes back is its block of the row of thresholds. -/
theorem thres_flushed_eq (c : Dev nD) (t : Fin cfg0.N) :
    (dat0 (F := Ideal) V c).flushed 2 t
      = ((cfg0.win 2).blk t).view.read (Elt Ideal) (Cert.Spec.thresArr (V c main_arg2) (V c main_arg3)) := by
  show (cfg0.win 2).cut (grid0.coords t) ((dat0 (F := Ideal) V c).after 2 t) = _
  rw [after0_2]
  unfold out0_2
  rw [View.canon_unit_zero thres_zeros2]
  simp only [View.ld_unit_zero (S := S128x1024) thres_zeros2, View.ld_unit_zero (S := S1x128) thres_zeros2]
  obtain ⟨-, -, -, -, -, e5⟩ := thres_index t
  funext j
  show k0_pay1 (F := Ideal) (iblk0 V c 0 t) (iblk0 V c 1 t) j
    = Cert.Spec.thresArr (V c main_arg2) (V c main_arg3) (((cfg0.win 2).blk t).view.emb j)
  refine thres_block_entry (iblk0 V c 0 t) (iblk0 V c 1 t) (V c main_arg2) (V c main_arg3) j (((cfg0.win 2).blk t).view.emb j)
    (128 * t.val) ?_ (fun p k r hr => thres_table_block V c t p k r hr) (fun q r hr => thres_mult_block V c t q r hr)
  show win0_2.index t 1 * 128 + 1 * (j 1).val = 128 * t.val + (j 1).val
  rw [e5]; omega

/-- An entry of the result array is in point t's block iff each coordinate is in the block's range on its axis. -/
theorem thres_mem_blk (t : Fin cfg0.N) (i : S1x1024.Idx) :
    i ∈ ((cfg0.win 2).blk t).view.set ↔ ∀ a : Fin 2, win0_2.index t a * S1x128.size a ≤ (i a).val ∧ (i a).val < win0_2.index t a * S1x128.size a + S1x128.size a := by
  show i ∈ ((View.whole main_v0).slice (win0_2.rect t)).set ↔ _
  rw [View.set_slice_whole, Rect.mem_set_unit]
  exact Iff.rfl

/-- Column d of the result lies in the block of point d / 128. -/
theorem thres_cover (i : S1x1024.Idx) :
    ∃ t : Fin cfg0.N, (cfg0.win 2).flush t = true ∧ i ∈ ((cfg0.win 2).blk t).view.set := by
  have hi0 : (i 0).val < 1 := (i 0).isLt
  have hi1 : (i 1).val < 1024 := (i 1).isLt
  have hN : grid0.N = 8 := N_0
  obtain ⟨t, ht⟩ : ∃ t : Fin cfg0.N, t.val = (i 1).val / 128 := ⟨⟨(i 1).val / 128, by show _ < grid0.N; rw [hN]; omega⟩, rfl⟩
  obtain ⟨-, -, -, -, e4, e5⟩ := thres_index t
  refine ⟨t, flush0_2 t, ?_⟩
  rw [thres_mem_blk]
  intro a
  match a with
  | ⟨0, _⟩ => show win0_2.index t 0 * 1 ≤ (i 0).val ∧ (i 0).val < win0_2.index t 0 * 1 + 1; rw [e4]; omega
  | ⟨1, _⟩ => show win0_2.index t 1 * 128 ≤ (i 1).val ∧ (i 1).val < win0_2.index t 1 * 128 + 128; rw [e5, ht]; omega

/-- When the first stage ends, its result array is the row of thresholds of the table it found and the multipliers it
    found. -/
theorem final0 (c : Dev nD) :
    (dat0 (F := Ideal) V c).arrAt 2 cfg0.N = Cert.Spec.thresArr (V c main_arg2) (V c main_arg3) :=
  (dat0 (F := Ideal) V c).arrAt_eq_of_cover 2 (Cert.Spec.thresArr (V c main_arg2) (V c main_arg3))
    (fun t _ => thres_flushed_eq V c t) thres_cover

end Cert.KVal

end
-- ==== Proof.KDiagPay.lean ====
/-
  The second stage's arithmetic, read at one entry.

  The body of the second stage takes a block of 128 rows of the embedding table (all 1024 columns), the temperature [1, 1]
  and the row of 1024 thresholds [1, 1024]. It forms the gate weights of the block, masks each by
  tanh(exp(exp(temperature) · (weight − threshold of its column))), scales each row of masked weights by its length plus a
  small constant, and sums the scaled block over its 128 rows. So entry (0, 0, q) of what it stores is the sum, over the
  rows of the block, of the scaled masked weight in column q.
-/
import proofs.«136278_j8443905704308_2_alg».proof.Proof.Gen.KernelIdeal.Skeleton
import proofs.«136278_j8443905704308_2_alg».proof.Proof.LibKeepdims
import proofs.«136278_j8443905704308_2_alg».proof.Proof.Spec
import Idealize.ShloMosaic.Lib.ValueLayout

noncomputable section

open scoped BigOperators

namespace Cert.KVal

open Idealize.ShloMosaic Idealize.ShloMosaic.ValueIdx Cert.KernelIdeal Cert.KernelIdeal.Gen Cert.Lib

/-- The masked weight in column d of a row of weights w, at temperature tmp against thresholds th. -/
def mwOf (tmp : EReal) (w th : Fin 1024 → EReal) (d : Fin 1024) : EReal :=
  Ideal.tanh (Ideal.exp (Ideal.exp tmp * (w d - th d))) * w d

/-- The masked weight scaled by the length of its row plus the small constant. -/
def dlwOf (tmp : EReal) (w th : Fin 1024 → EReal) (d : Fin 1024) : EReal :=
  Ideal.div (mwOf tmp w th d) (Ideal.sqrt (∑ d' : Fin 1024, mwOf tmp w th d' * mwOf tmp w th d') + Cert.Spec.eps)

/-- The index of a [128, 1024] block that reduces along axis 0 to column q, at coordinate k, is (k, q). -/
theorem lift_col (h : S128x1024.Reduces [0] S1024) (q : Fin 1024) (k : Fin 128) : h.lift (ix1 q) k = ix2 k q := by
  funext d; apply Fin.ext
  match d with | ⟨0, _⟩ => rfl | ⟨1, _⟩ => rfl

/-- The sum over the rows of a [128, 1024] block, read at column q. -/
theorem colSum_apply (src : FVec Ideal S128x1024 .f32) (h : S128x1024.Reduces [0] S1024) (hφ : FKind.Formats .f32)
    (hacc : (0x00000000#32 : BitVec 32) = FKind.add.neutral .f32 hφ) (q : Fin 1024) :
    multiReduction .add [0] S1024 src 0x00000000#32 h hφ hacc (ix1 q) = ∑ k : Fin 128, src (ix2 k q) :=
  (Ideal.multiReduction_add_single src _ h hφ hacc (ix1 q)).trans
    (Finset.sum_congr rfl fun k _ => congrArg src (lift_col h q k))

/-- The one entry of a [1, 1] array broadcast to [128, 1024]. -/
theorem broadcastTo_11_ab_apply {α : Type} (v : S1x1.Idx → α) (h : S1x1.Broadcasts S128x1024) (p : Fin 128) (c : Fin 1024) :
    broadcastTo S128x1024 v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The sum over the columns of a [128, 1024] block kept as a column [128, 1]: at (k, 0) the sum of row k. -/
theorem colOfRowSums_apply' (src : FVec Ideal S128x1024 .f32) (h : S128x1024.Reduces [1] S128) (hφ : FKind.Formats .f32)
    (hacc : (0x00000000#32 : BitVec 32) = FKind.add.neutral .f32 hφ) (h2 : S128.ShapeCasts S128x1) (k : Fin 128) (u : Fin 1) :
    shapeCast S128x1 (multiReduction .add [1] S128 src 0x00000000#32 h hφ hacc) h2 (ix2 k u) = ∑ d : Fin 1024, src (ix2 k d) :=
  (shapeCast_a_a1_apply _ h2 k u).trans (rowSum_apply src _ h hφ hacc k)

/-- The exponential of the temperature, spread over the block. -/
def tempBlock (x2 : Vec Ideal S1x1 .f32) : FVec Ideal S128x1024 .f32 :=
  broadcastTo S128x1024 (exp (F := Ideal) (φ := .f32) x2) broadcasts_S1x1_S128x1024

/-- The row of thresholds, repeated on every row of the block. -/
def thBlock (x4 : Vec Ideal S1x1024 .f32) : FVec Ideal S128x1024 .f32 :=
  broadcastTo S128x1024 (shapeCast S1x1024 x4 shapeCasts_S1x1024_S1x1024) broadcasts_S1x1024_S128x1024

/-- The block of masked weights. -/
def maskedW (x0 : Vec Ideal S128x1024 .f32) (x2 : Vec Ideal S1x1 .f32) (x4 : Vec Ideal S1x1024 .f32) : FVec Ideal S128x1024 .f32 :=
  mulf (tanh (exp (mulf (tempBlock x2) (subf (logistic x0) (thBlock x4))))) (logistic x0)

/-- Every entry of the spread temperature is the exponential of the one temperature. -/
theorem tempBlock_apply (x2 : Vec Ideal S1x1 .f32) (k : Fin 128) (d : Fin 1024) :
    tempBlock x2 (ix2 k d) = Ideal.exp (x2 (ix2 (0 : Fin 1) (0 : Fin 1))) :=
  broadcastTo_11_ab_apply _ broadcasts_S1x1_S128x1024 k d

/-- Entry (k, d) of the repeated thresholds is threshold d. -/
theorem thBlock_apply (x4 : Vec Ideal S1x1024 .f32) (k : Fin 128) (d : Fin 1024) :
    thBlock x4 (ix2 k d) = x4 (ix2 (0 : Fin 1) d) := by
  unfold thBlock
  rw [shapeCast_self]
  exact broadcastTo_1b_ab_apply x4 broadcasts_S1x1024_S128x1024 k d

/-- The column of row lengths of the masked weights, plus the small constant. -/
def normCol (x0 : Vec Ideal S128x1024 .f32) (x2 : Vec Ideal S1x1 .f32) (x4 : Vec Ideal S1x1024 .f32) : FVec Ideal S128x1 .f32 :=
  addf (sqrt (shapeCast S128x1 (multiReduction .add [1] S128 (mulf (maskedW x0 x2 x4) (maskedW x0 x2 x4)) 0x00000000#32
      reduces_S128x1024_S128 (.inl rfl) rfl) shapeCasts_S128_S128x1))
    (broadcast S128x1 (Scalar.ofBits (F := Ideal) .f32 0x322BCC77#32))

/-- The block of masked weights, each row scaled. -/
def scaledW (x0 : Vec Ideal S128x1024 .f32) (x2 : Vec Ideal S1x1 .f32) (x4 : Vec Ideal S1x1024 .f32) : FVec Ideal S128x1024 .f32 :=
  divf (maskedW x0 x2 x4) (broadcastTo S128x1024 (normCol x0 x2 x4) broadcasts_S128x1_S128x1024)

/-- The body's stored value as those pieces. -/
theorem k1_pay1_eq (x0 : Vec Ideal S128x1024 .f32) (x2 : Vec Ideal S1x1 .f32) (x4 : Vec Ideal S1x1024 .f32) :
    k1_pay1 (F := Ideal) x0 x2 x4
      = shapeCast S1x1x1024 (shapeCast S1x1024 (multiReduction .add [0] S1024 (scaledW x0 x2 x4) 0x00000000#32
          reduces_S128x1024_S1024 (.inl rfl) rfl) shapeCasts_S1024_S1x1024) shapeCasts_S1x1024_S1x1x1024 := rfl

/-- Entry (k, d) of the masked weights. -/
theorem maskedW_apply (x0 : Vec Ideal S128x1024 .f32) (x2 : Vec Ideal S1x1 .f32) (x4 : Vec Ideal S1x1024 .f32) (k : Fin 128) (d : Fin 1024) :
    maskedW x0 x2 x4 (ix2 k d)
      = mwOf (x2 (ix2 (0 : Fin 1) (0 : Fin 1))) (fun d => Ideal.logistic (x0 (ix2 k d))) (fun d => x4 (ix2 (0 : Fin 1) d)) d := by
  unfold maskedW mwOf
  show Ideal.tanh (Ideal.exp (tempBlock x2 (ix2 k d) * (Ideal.logistic (x0 (ix2 k d)) - thBlock x4 (ix2 k d))))
      * Ideal.logistic (x0 (ix2 k d)) = _
  rw [tempBlock_apply, thBlock_apply]

/-- Entry (k, 0) of the column of lengths. -/
theorem normCol_apply (x0 : Vec Ideal S128x1024 .f32) (x2 : Vec Ideal S1x1 .f32) (x4 : Vec Ideal S1x1024 .f32) (k : Fin 128) (u : Fin 1) :
    normCol x0 x2 x4 (ix2 k u)
      = Ideal.sqrt (∑ d' : Fin 1024,
            mwOf (x2 (ix2 (0 : Fin 1) (0 : Fin 1))) (fun d => Ideal.logistic (x0 (ix2 k d))) (fun d => x4 (ix2 (0 : Fin 1) d)) d'
          * mwOf (x2 (ix2 (0 : Fin 1) (0 : Fin 1))) (fun d => Ideal.logistic (x0 (ix2 k d))) (fun d => x4 (ix2 (0 : Fin 1) d)) d')
        + Cert.Spec.eps := by
  unfold normCol
  show Ideal.sqrt _ + _ = _
  refine congrArg₂ (· + ·) (congrArg Ideal.sqrt ?_) rfl
  refine (colOfRowSums_apply' _ _ _ _ _ k u).trans ?_
  refine Finset.sum_congr rfl fun d _ => ?_
  show maskedW x0 x2 x4 (ix2 k d) * maskedW x0 x2 x4 (ix2 k d) = _
  rw [maskedW_apply]

/-- Entry (k, d) of the scaled masked weights. -/
theorem scaledW_apply (x0 : Vec Ideal S128x1024 .f32) (x2 : Vec Ideal S1x1 .f32) (x4 : Vec Ideal S1x1024 .f32) (k : Fin 128) (d : Fin 1024) :
    scaledW x0 x2 x4 (ix2 k d)
      = dlwOf (x2 (ix2 (0 : Fin 1) (0 : Fin 1))) (fun d => Ideal.logistic (x0 (ix2 k d))) (fun d => x4 (ix2 (0 : Fin 1) d)) d := by
  unfold scaledW dlwOf
  show Ideal.div (maskedW x0 x2 x4 (ix2 k d)) (broadcastTo S128x1024 (normCol x0 x2 x4) broadcasts_S128x1_S128x1024 (ix2 k d)) = _
  rw [maskedW_apply, broadcastTo_a1_ab_apply, normCol_apply]

/-- Entry (0, 0, q) of what the second stage's body stores: the sum over the block's rows of the scaled masked weight in
    column q. -/
theorem diagPay_apply (x0 : Vec Ideal S128x1024 .f32) (x2 : Vec Ideal S1x1 .f32) (x4 : Vec Ideal S1x1024 .f32)
    (u v : Fin 1) (q : Fin 1024) :
    k1_pay1 (F := Ideal) x0 x2 x4 (ix3 u v q)
      = ∑ k : Fin 128, dlwOf (x2 (ix2 (0 : Fin 1) (0 : Fin 1))) (fun d => Ideal.logistic (x0 (ix2 k d))) (fun d => x4 (ix2 (0 : Fin 1) d)) q := by
  rw [k1_pay1_eq]
  refine (shapeCast_ab_1ab_apply _ shapeCasts_S1x1024_S1x1x1024 u v q).trans ?_
  refine (shapeCast_a_1a_apply _ shapeCasts_S1024_S1x1024 v q).trans ?_
  refine (colSum_apply _ _ _ _ q).trans ?_
  exact Finset.sum_congr rfl fun k _ => scaledW_apply x0 x2 x4 k q

end Cert.KVal

end
-- ==== Proof.KDiag.lean ====
/-
  The second stage's output array: the eight partial column sums.

  The second stage runs over 8 grid points. At point t it reads rows 128 t .. 128 t + 127 of the embedding table (all 1024
  columns), the whole row of thresholds and the temperature (the same at every point), and writes row (t, 0, ·) of the
  [8, 1, 1024] result. What it writes at (0, 0, q) is the sum over the 128 rows of its block of the scaled masked weight in
  column q; row k of the block is row 128 t + k of the table, that is row k of band t. So row (t, 0, ·) of the result is the
  partial column sum over band t, and since band b of the result is the block of point b, when the stage ends the result
  array holds all eight partial column sums.
-/
import proofs.«136278_j8443905704308_2_alg».proof.Proof.Gen.KernelIdeal.Frame
import proofs.«136278_j8443905704308_2_alg».proof.Proof.KDiagPay
import Idealize.ShloMosaic.Lib.Pipeline.Value

noncomputable section

open scoped BigOperators

namespace Cert.KVal

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- Two zero offsets, however spelt. -/
theorem diag_zeros2 : (![0, 0] : Fin 2 → Nat) = fun _ => 0 := funext fun a => by fin_cases a <;> rfl

/-- Three zero offsets, however spelt. -/
theorem diag_zeros3 : (![0, 0, 0] : Fin 3 → Nat) = fun _ => 0 := funext fun a => by fin_cases a <;> rfl

/-- The block indices of the four windows at grid point t: the table's block is block t of rows, the thresholds and the
    temperature are whole, the result's block is row t. -/
theorem diag_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- Entry (k, d) of the table's block at point t is entry (128 t + k, d) of the table. -/
theorem diag_table_block (c : Dev nD) (t : Fin cfg1.N) (k : Fin 128) (d : Fin 1024) (r : Fin 1024) (hr : r.val = 128 * t.val + k.val) :
    (iblk1 V c 0 t : Vec Ideal S128x1024 .f32) (ix2 k d) = (V c main_arg2 : S1024x1024.Idx → EReal) (ix2 r d) := by
  obtain ⟨e0, e1, -⟩ := diag_index t
  unfold iblk1
  rw [View.read_apply]
  show V c main_arg2 _ = V c main_arg2 _
  refine congrArg (V c main_arg2) ?_
  funext a
  apply Fin.ext
  match a with
  | ⟨0, _⟩ => show win1_0.index t 0 * 128 + 1 * k.val = r.val; rw [e0, hr]; omega
  | ⟨1, _⟩ => show win1_0.index t 1 * 1024 + 1 * d.val = d.val; rw [e1]; omega

/-- The thresholds' block at any point is the whole row of thresholds. -/
theorem diag_thres_block (c : Dev nD) (t : Fin cfg1.N) (d : Fin 1024) :
    (iblk1 V c 1 t : Vec Ideal S1x1024 .f32) (ix2 (0 : Fin 1) d) = (V c main_v0 : S1x1024.Idx → EReal) (ix2 (0 : Fin 1) d) := by
  obtain ⟨-, -, e2, e3, -⟩ := diag_index t
  unfold iblk1
  rw [View.read_apply]
  show V c main_v0 _ = V c main_v0 _
  refine congrArg (V c main_v0) ?_
  funext a
  apply Fin.ext
  match a with
  | ⟨0, _⟩ => show win1_1.index t 0 * 1 + 1 * 0 = 0; rw [e2]
  | ⟨1, _⟩ => show win1_1.index t 1 * 1024 + 1 * d.val = d.val; rw [e3]; omega

/-- The temperature's block at any point is the temperature. -/
theorem diag_temp_block (c : Dev nD) (t : Fin cfg1.N) :
    (iblk1 V c 2 t : Vec Ideal S1x1 .f32) (ix2 (0 : Fin 1) (0 : Fin 1)) = (V c main_arg4 : S1x1.Idx → EReal) (ix2 (0 : Fin 1) (0 : Fin 1)) := by
  obtain ⟨-, -, -, -, e4, e5, -⟩ := diag_index t
  unfold iblk1
  rw [View.read_apply]
  show V c main_arg4 _ = V c main_arg4 _
  refine congrArg (V c main_arg4) ?_
  funext a
  apply Fin.ext
  match a with
  | ⟨0, _⟩ => show win1_2.index t 0 * 1 + 1 * 0 = 0; rw [e4]
  | ⟨1, _⟩ => show win1_2.index t 1 * 1 + 1 * 0 = 0; rw [e5]

/-- What the body stores at an entry of its block is the partial column sum at the array entry the block's entry lands on,
    whenever the block of the table holds the rows of that entry's band and the other two blocks are the whole arrays. -/
theorem diag_block_entry (x0 : Vec Ideal S128x1024 .f32) (x2 : Vec Ideal S1x1 .f32) (x4 : Vec Ideal S1x1024 .f32)
    (emb : Cert.Spec.A2 1024 1024) (temp : Cert.Spec.A2 1 1) (th : Cert.Spec.A2 1 1024) (j : S1x1x1024.Idx) (i : S8x1x1024.Idx)
    (hi2 : (i 2).val = (j 2).val)
    (h0 : ∀ (k : Fin 128) (d : Fin 1024), x0 (ix2 k d) = emb (ix2 (Cert.Spec.band (i 0) k) d))
    (h2 : x2 (ix2 (0 : Fin 1) (0 : Fin 1)) = temp (ix2 (0 : Fin 1) (0 : Fin 1)))
    (h4 : ∀ d : Fin 1024, x4 (ix2 (0 : Fin 1) d) = th (ix2 (0 : Fin 1) d)) :
    k1_pay1 (F := Ideal) x0 x2 x4 j = Cert.Spec.diagPartArr emb temp th i := by
  obtain ⟨u, v, q, rfl⟩ : ∃ (u v : Fin 1) (q : Fin 1024), j = ix3 u v q := ⟨j 0, j 1, j 2, eq_ix3 j⟩
  rw [diagPay_apply]
  show _ = ∑ r : Fin 128, Cert.Spec.dlwT emb temp (fun d => th (ix2 (0 : Fin 1) d)) (Cert.Spec.band (i 0) r) (i 2)
  refine Finset.sum_congr rfl fun k _ => ?_
  show _ = dlwOf (temp (ix2 (0 : Fin 1) (0 : Fin 1))) (fun d => Ideal.logistic (emb (ix2 (Cert.Spec.band (i 0) k) d)))
      (fun d => th (ix2 (0 : Fin 1) d)) (i 2)
  have hq : (i 2 : Fin 1024) = q := Fin.ext hi2
  have e0 : (fun d => Ideal.logistic (x0 (ix2 k d))) = fun d => Ideal.logistic (emb (ix2 (Cert.Spec.band (i 0) k) d)) :=
    funext fun d => congrArg Ideal.logistic (h0 k d)
  have e4 : (fun d => x4 (ix2 (0 : Fin 1) d)) = fun d => th (ix2 (0 : Fin 1) d) := funext h4
  rw [h2, e0, e4, hq]

/-- What grid point t writes back is its block of the partial column sums. -/
theorem diag_flushed_eq (c : Dev nD) (t : Fin cfg1.N) :
    (dat1 (F := Ideal) V c).flushed 3 t
      = ((cfg1.win 3).blk t).view.read (Elt Ideal) (Cert.Spec.diagPartArr (V c main_arg2) (V c main_arg4) (V c main_v0)) := by
  show (cfg1.win 3).cut (grid1.coords t) ((dat1 (F := Ideal) V c).after 3 t) = _
  rw [after1_3]
  unfold out1_3
  rw [View.canon_unit_zero diag_zeros3]
  simp only [View.ld_unit_zero (S := S128x1024) diag_zeros2, View.ld_unit_zero (S := S1x1) diag_zeros2,
    View.ld_unit_zero (S := S1x1024) diag_zeros2]
  obtain ⟨-, -, -, -, -, -, e6, -, e8⟩ := diag_index t
  funext j
  show k1_pay1 (F := Ideal) (iblk1 V c 0 t) (iblk1 V c 2 t) (iblk1 V c 1 t) j
    = Cert.Spec.diagPartArr (V c main_arg2) (V c main_arg4) (V c main_v0) (((cfg1.win 3).blk t).view.emb j)
  have hj0 : (j 0).val < 1 := (j 0).isLt
  have hb : ((((cfg1.win 3).blk t).view.emb j) 0).val = t.val := by
    show win1_3.index t 0 * 1 + 1 * (j 0).val = t.val
    rw [e6]; omega
  refine diag_block_entry (iblk1 V c 0 t) (iblk1 V c 2 t) (iblk1 V c 1 t) (V c main_arg2) (V c main_arg4) (V c main_v0) j
    (((cfg1.win 3).blk t).view.emb j) ?_
    (fun k d => diag_table_block V c t k d (Cert.Spec.band ((((cfg1.win 3).blk t).view.emb j) 0) k) ?_)
    (diag_temp_block V c t) (fun d => diag_thres_block V c t d)
  · show win1_3.index t 2 * 1024 + 1 * (j 2).val = (j 2).val
    rw [e8]; omega
  · show 128 * ((((cfg1.win 3).blk t).view.emb j) 0).val + k.val = 128 * t.val + k.val
    rw [hb]

/-- An entry of the result array is in point t's block iff each coordinate is in the block's range on its axis. -/
theorem diag_mem_blk (t : Fin cfg1.N) (i : S8x1x1024.Idx) :
    i ∈ ((cfg1.win 3).blk t).view.set ↔ ∀ a : Fin 3, win1_3.index t a * S1x1x1024.size a ≤ (i a).val ∧ (i a).val < win1_3.index t a * S1x1x1024.size a + S1x1x1024.size a := by
  show i ∈ ((View.whole main_v1).slice (win1_3.rect t)).set ↔ _
  rw [View.set_slice_whole, Rect.mem_set_unit]
  exact Iff.rfl

/-- Band b of the result is the block of point b. -/
theorem diag_cover (i : S8x1x1024.Idx) :
    ∃ t : Fin cfg1.N, (cfg1.win 3).flush t = true ∧ i ∈ ((cfg1.win 3).blk t).view.set := by
  have hi0 : (i 0).val < 8 := (i 0).isLt
  have hi1 : (i 1).val < 1 := (i 1).isLt
  have hi2 : (i 2).val < 1024 := (i 2).isLt
  have hN : grid1.N = 8 := N_1
  obtain ⟨t, ht⟩ : ∃ t : Fin cfg1.N, t.val = (i 0).val := ⟨⟨(i 0).val, by show _ < grid1.N; rw [hN]; omega⟩, rfl⟩
  obtain ⟨-, -, -, -, -, -, e6, e7, e8⟩ := diag_index t
  refine ⟨t, flush1_3 t, ?_⟩
  rw [diag_mem_blk]
  intro a
  match a with
  | ⟨0, _⟩ => show win1_3.index t 0 * 1 ≤ (i 0).val ∧ (i 0).val < win1_3.index t 0 * 1 + 1; rw [e6, ht]; omega
  | ⟨1, _⟩ => show win1_3.index t 1 * 1 ≤ (i 1).val ∧ (i 1).val < win1_3.index t 1 * 1 + 1; rw [e7]; omega
  | ⟨2, _⟩ => show win1_3.index t 2 * 1024 ≤ (i 2).val ∧ (i 2).val < win1_3.index t 2 * 1024 + 1024; rw [e8]; omega

/-- When the second stage ends, its result array holds the eight partial column sums of the table, the temperature and
    the thresholds it found. -/
theorem final1 (c : Dev nD) :
    (dat1 (F := Ideal) V c).arrAt 3 cfg1.N = Cert.Spec.diagPartArr (V c main_arg2) (V c main_arg4) (V c main_v0) :=
  (dat1 (F := Ideal) V c).arrAt_eq_of_cover 3 (Cert.Spec.diagPartArr (V c main_arg2) (V c main_arg4) (V c main_v0))
    (fun t _ => diag_flushed_eq V c t) diag_cover

end Cert.KVal

end
-- ==== Proof.KVmeanPay.lean ====
/-
  The mean over the frames of a block of videos, read at an index.

  The body of the frame-mean stage holds a block of 64 videos, each of 64 frames of 1024 features, as a [64, 64, 1024]
  array.  It adds the frames up — a sum over the MIDDLE axis, which leaves a [64, 1024] matrix — and divides every entry
  by the float 64.  Read at (video p, feature d) the result is the sum over the 64 frames f of the block at (p, f, d),
  divided by 64: the mean frame of video p at feature d.
-/
import proofs.«136278_j8443905704308_2_alg».proof.Proof.Gen.KernelIdeal.Skeleton
import proofs.«136278_j8443905704308_2_alg».proof.Proof.Spec
import Idealize.ShloMosaic.Lib.ValueIdx
import Idealize.ShloMosaic.PureOps.Ideal.Laws

noncomputable section

namespace Cert.KVal

open Idealize.ShloMosaic Idealize.ShloMosaic.ValueIdx Cert.KernelIdeal Cert.KernelIdeal.Gen

/-- Over the middle axis of an [a, b, n] array, the index above (p, k) with coordinate f inserted is (p, f, k). -/
theorem lift_mid_ix2 {a b n : ℕ} (h : (⟨3, ![a, b, n]⟩ : Shape).Reduces [1] ⟨2, ![a, n]⟩) (p : Fin a) (k : Fin n) (f : Fin b) :
    h.lift (ix2 p k) f = ix3 p f k := by
  funext c
  apply Fin.ext
  match c with
  | ⟨0, _⟩ => rfl
  | ⟨1, _⟩ => rfl
  | ⟨2, _⟩ => rfl

/-- At the ideal values, a sum over the middle axis of an [a, b, n] array, read at (p, k), is the sum over f of the
    array at (p, f, k). -/
theorem midSum_apply {a b n : ℕ} {φ : FTy} (src : FVec Ideal ⟨3, ![a, b, n]⟩ φ) (acc : BitVec φ.bits)
    (h : (⟨3, ![a, b, n]⟩ : Shape).Reduces [1] ⟨2, ![a, n]⟩) (hφ : FKind.Formats φ) (hacc : acc = FKind.add.neutral φ hφ)
    (p : Fin a) (k : Fin n) :
    multiReduction .add [1] ⟨2, ![a, n]⟩ src acc h hφ hacc (ix2 p k) = ∑ f : Fin b, src (ix3 p f k) := by
  refine (Ideal.multiReduction_add_single src acc h hφ hacc (ix2 p k)).trans ?_
  exact Finset.sum_congr rfl fun f _ => congrArg src (lift_mid_ix2 h p k f)

/-- The frame-mean body at (video p, feature d): the sum of the block's 64 frames there, divided by 64. -/
theorem k2_pay1_apply (x0 : Vec Ideal S64x64x1024 .f32) (p : Fin 64) (d : Fin 1024) :
    k2_pay1 (F := Ideal) x0 (ix2 p d) = Ideal.div (∑ f : Fin 64, x0 (ix3 p f d)) Cert.Spec.c64 := by
  unfold k2_pay1
  refine (divf_apply _ _ (ix2 p d)).trans ?_
  exact congrArg (fun s => Ideal.div s Cert.Spec.c64) (midSum_apply x0 _ _ _ _ p d)

end Cert.KVal

end
-- ==== Proof.KVmeanArr.lean ====
/-
  The array of frame means after the frame-mean stage.

  The stage runs over four grid points.  At point t it reads the block of videos 64 t .. 64 t + 63 of the video array
  ([256, 64, 1024]: all 64 frames and all 1024 features of each) and writes the block of rows 64 t .. 64 t + 63 of the
  [256, 1024] array of frame means.  Element (p, f, d) of the input block is element (64 t + p, f, d) of the video array,
  and element (p, d) of the output block is element (64 t + p, d) of the result; so what point t writes back is the block
  at t of the function "mean over the frames of video j at feature d", and since the four blocks tile the 256 rows (row r
  is in the block of point r / 64) the whole array ends holding that function.
-/
import proofs.«136278_j8443905704308_2_alg».proof.Proof.Gen.KernelIdeal.Frame
import proofs.«136278_j8443905704308_2_alg».proof.Proof.Spec
import proofs.«136278_j8443905704308_2_alg».proof.Proof.KVmeanPay
import Idealize.ShloMosaic.Lib.Pipeline.Value

noncomputable section

namespace Cert.KVal

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block indices of the two windows at point t, decided over the four points: both windows move with t along the
    videos and stay at block 0 on the other axes. -/
theorem vmean_blockIndex : ∀ t : Fin cfg2.N, win2_0.index t (0 : Fin 3) = t.val ∧ win2_0.index t (1 : Fin 3) = 0
    ∧ win2_0.index t (2 : Fin 3) = 0 ∧ win2_1.index t (0 : Fin 2) = t.val ∧ win2_1.index t (1 : Fin 2) = 0 ∧ t.val < 4 :=
  (by decide +kernel : ∀ t : Fin grid2.N, _)

/-- Element x of the video block at point t is element (64 t + x₀, x₁, x₂) of the video array. -/
theorem vmean_videoBlock (c : Dev nD) (t : Fin cfg2.N) (x : S64x64x1024.Idx) (k : S256x64x1024.Idx)
    (h0 : (k 0).val = 64 * t.val + (x 0).val) (h1 : (k 1).val = (x 1).val) (h2 : (k 2).val = (x 2).val) :
    (iblk2 V c 0 t : Vec Ideal S64x64x1024 .f32) x = (V c main_arg1 : S256x64x1024.Idx → Elt Ideal .f32) k := by
  obtain ⟨e0, e1, e2, -, -, -⟩ := vmean_blockIndex t
  unfold iblk2
  rw [View.read_apply]
  show V c main_arg1 _ = V c main_arg1 _
  refine congrArg (V c main_arg1) ?_
  funext a
  apply Fin.ext
  match a with
  | ⟨0, _⟩ => show win2_0.index t (0 : Fin 3) * 64 + 1 * (x 0).val = (k 0).val; rw [e0, h0]; omega
  | ⟨1, _⟩ => show win2_0.index t (1 : Fin 3) * 64 + 1 * (x 1).val = (k 1).val; rw [e1, h1]; omega
  | ⟨2, _⟩ => show win2_0.index t (2 : Fin 3) * 1024 + 1 * (x 2).val = (k 2).val; rw [e2, h2]; omega

/-- What point t writes back is the block at t of the frame means of the video array. -/
theorem vmean_flushed (c : Dev nD) (t : Fin cfg2.N) :
    (dat2 (F := Ideal) V c).flushed 1 t
      = ((cfg2.win 1).blk t).view.read (Elt Ideal) (Cert.Spec.vmeanArr (V c main_arg1)) := by
  show (cfg2.win 1).cut (grid2.coords t) ((dat2 V c).after 1 t) = _
  rw [after2_1]
  unfold out2_1
  rw [View.canon_unit_zero zeros2]
  simp only [View.ld_unit_zero (S := S64x64x1024) zeros3]
  obtain ⟨-, -, -, e3, e4, -⟩ := vmean_blockIndex t
  funext j
  have hp : (j 0).val < 64 := (j 0).isLt
  have hd : (j 1).val < 1024 := (j 1).isLt
  have hj : (cfg2.win 1).xinj (grid2.coords t) j = ix2 (⟨(j 0).val, hp⟩ : Fin 64) (⟨(j 1).val, hd⟩ : Fin 1024) :=
    funext fun a => Fin.ext (by match a with | ⟨0, _⟩ => rfl | ⟨1, _⟩ => rfl)
  show k2_pay1 (F := Ideal) (iblk2 V c 0 t) ((cfg2.win 1).xinj (grid2.coords t) j) = _
  rw [hj]
  refine (k2_pay1_apply _ _ _).trans ?_
  show _ = Ideal.div (∑ f : Fin 64, V c main_arg1 (ix3 (((cfg2.win 1).blk t).view.emb j 0) f (((cfg2.win 1).blk t).view.emb j 1))) Cert.Spec.c64
  refine congrArg (fun s => Ideal.div s Cert.Spec.c64) (Finset.sum_congr rfl fun f _ => ?_)
  refine vmean_videoBlock V c t _ _ ?_ ?_ ?_
  · show win2_1.index t (0 : Fin 2) * 64 + 1 * (j 0).val = 64 * t.val + (j 0).val
    rw [e3]; omega
  · rfl
  · show win2_1.index t (1 : Fin 2) * 1024 + 1 * (j 1).val = (j 1).val
    rw [e4]; omega

/-- An index of the result is in point t's block iff each coordinate is in the block's range on its axis. -/
theorem vmean_mem_block (t : Fin cfg2.N) (i : S256x1024.Idx) :
    i ∈ ((cfg2.win 1).blk t).view.set ↔ ∀ a : Fin 2, win2_1.index t a * S64x1024.size a ≤ (i a).val ∧ (i a).val < win2_1.index t a * S64x1024.size a + S64x1024.size a := by
  show i ∈ ((View.whole main_v2).slice (win2_1.rect t)).set ↔ _
  rw [View.set_slice_whole, Rect.mem_set_unit]
  exact Iff.rfl

/-- Every block of the result is some point's: rows 64 q .. 64 q + 63 are the block of point q. -/
theorem vmean_pointOf : ∀ q : Fin 4, ∃ t : Fin cfg2.N, win2_1.index t = ![q.val, 0] :=
  (by decide +kernel : ∀ q : Fin 4, ∃ t : Fin grid2.N, win2_1.index t = ![q.val, 0])

/-- The four blocks cover the result: row r is in the block of point r / 64. -/
theorem vmean_cover (i : S256x1024.Idx) :
    ∃ t : Fin cfg2.N, (cfg2.win 1).flush t = true ∧ i ∈ ((cfg2.win 1).blk t).view.set := by
  have hi0 : (i 0).val < 256 := (i 0).isLt
  have hi1 : (i 1).val < 1024 := (i 1).isLt
  obtain ⟨t, ht⟩ := vmean_pointOf ⟨(i 0).val / 64, by omega⟩
  have q0 : win2_1.index t (0 : Fin 2) = (i 0).val / 64 := congrFun ht 0
  have q1 : win2_1.index t (1 : Fin 2) = 0 := congrFun ht 1
  refine ⟨t, flush2_1 t, ?_⟩
  rw [vmean_mem_block]
  intro a
  match a with
  | ⟨0, _⟩ => show win2_1.index t (0 : Fin 2) * 64 ≤ (i 0).val ∧ (i 0).val < win2_1.index t (0 : Fin 2) * 64 + 64; omega
  | ⟨1, _⟩ => show win2_1.index t (1 : Fin 2) * 1024 ≤ (i 1).val ∧ (i 1).val < win2_1.index t (1 : Fin 2) * 1024 + 1024; omega

/-- The array of frame means after the stage: entry (j, d) is the mean over the 64 frames of video j at feature d. -/
theorem final2 (c : Dev nD) :
    (dat2 (F := Ideal) V c).arrAt 1 cfg2.N = Cert.Spec.vmeanArr (V c main_arg1) :=
  (dat2 (F := Ideal) V c).arrAt_eq_of_cover 1 (Cert.Spec.vmeanArr (V c main_arg1)) (fun t _ => vmean_flushed V c t) vmean_cover

end Cert.KVal

end
-- ==== Proof.LibMatmulRows.lean ====
/-
  A matrix product of the rows of two matrices, read at an index.

  A `tpu.matmul` whose dimension numbers contract axis 1 of the left operand with axis 1 of the right one, with no
  batch axes — an [A, K] matrix against a [B, K] matrix, every row of the first against every row of the second, the
  product a kernel writes as "x · yᵀ" without forming the transpose — into the zero accumulator is, at the ideal values
  and at output position (p, q), the sum over k < K of left(p, k) · right(q, k): the contraction shape has the one axis
  of extent K, and the operand indices at output (p, q) and contraction position k are (p, k) and (q, k).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a product of rows with rows: rows × contraction against rows × contraction. -/
abbrev rows2 (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ := ⟨[1], [1], [0], [0], [], [], wf⟩

/-- Its contraction shape has one axis, -/
theorem rows2_rank (wf : DotDims.WF ⟨2, ![A, K]⟩ ⟨2, ![B, K]⟩ ⟨2, ![A, B]⟩ [1] [1] [0] [0] [] []) :
    (rows2 wf).contr.rank = 1 := rfl

/-- of extent `K`. -/
theorem rows2_size (wf : DotDims.WF ⟨2, ![A, K]⟩ ⟨2, ![B, K]⟩ ⟨2, ![A, B]⟩ [1] [1] [0] [0] [] []) :
    (rows2 wf).contr.size ⟨0, by rw [rows2_rank]; exact Nat.one_pos⟩ = K := rfl

/-- The product into the zero accumulator at (p, q) is `∑ k, l (p, k) * r (q, k)`. -/
theorem matmulRows_zero_apply (wf : DotDims.WF ⟨2, ![A, K]⟩ ⟨2, ![B, K]⟩ ⟨2, ![A, B]⟩ [1] [1] [0] [0] [] [])
    (l : FVec Ideal ⟨2, ![A, K]⟩ φ₁) (r : FVec Ideal ⟨2, ![B, K]⟩ φ₂) (p : Fin A) (q : Fin B) :
    matmul (rows2 wf) none l r (constant ⟨2, ![A, B]⟩ .f32 0x00000000#32) (ix2 p q)
      = ∑ k : Fin K, l (ix2 p k) * r (ix2 q k) := by
  refine (Ideal.matmul_constant_zero_apply (rows2 wf) none l r (ix2 p q)).trans ?_
  refine (Equiv.sum_comp (contrEquiv1 (rows2 wf) K (rows2_rank wf) (rows2_size wf)).symm _).symm.trans ?_
  refine Finset.sum_congr rfl fun k _ => ?_
  have hk := contrEquiv1_symm_val (rows2 wf) K (rows2_rank wf) (rows2_size wf) k
  have hl : (rows2 wf).lhsIdx (ix2 p q) ((contrEquiv1 (rows2 wf) K (rows2_rank wf) (rows2_size wf)).symm k) = ix2 p k := by
    funext a; apply Fin.ext
    match a with
    | ⟨0, _⟩ => simp [DotDims.lhsIdx]; rfl
    | ⟨1, _⟩ => exact (DotDims.lhsIdx_val_of_single (rows2 wf) (cl := 1) rfl (ix2 p q) _).trans hk
  have hr : (rows2 wf).rhsIdx (ix2 p q) ((contrEquiv1 (rows2 wf) K (rows2_rank wf) (rows2_size wf)).symm k) = ix2 q k := by
    funext a; apply Fin.ext
    match a with
    | ⟨0, _⟩ => simp [DotDims.rhsIdx]; rfl
    | ⟨1, _⟩ => exact (DotDims.rhsIdx_val_of_single (rows2 wf) (cr := 1) rfl (ix2 p q) _).trans hk
  show l _ * r _ = _
  rw [hl, hr]

end Cert.Lib

end
-- ==== Proof.KSimPay.lean ====
/-
  The similarity stage's body, read at an index.

  The body holds the eight partial column sums as an [8, 1, 1024] array, the text rows as a [256, 1024] matrix and the
  frame means as a [256, 1024] matrix.  It adds the eight partial sums into one row of 1024 scales, repeats that row over
  the 256 text rows and multiplies the text by it; it multiplies every scaled text row against every row of the frame
  means (a product of rows with rows into a zero accumulator; the change of float format on the way in is the identity
  on the ideal values), which gives the [256, 256] matrix S with

      S (i, j) = ∑ d, (text (i, d) · ∑ b, partial (b, 0, d)) · mean (j, d);

  and it scales every row of S to unit length: the row's sum of squares, its square root plus the small constant,
  and the entry divided by that.  Read at (i, j) this is the normalised similarity the specification names.
-/
import proofs.«136278_j8443905704308_2_alg».proof.Proof.Gen.KernelIdeal.Skeleton
import proofs.«136278_j8443905704308_2_alg».proof.Proof.Spec
import proofs.«136278_j8443905704308_2_alg».proof.Proof.LibKeepdims
import proofs.«136278_j8443905704308_2_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

noncomputable section

namespace Cert.KVal

open Idealize.ShloMosaic Idealize.ShloMosaic.ValueIdx Cert.KernelIdeal Cert.KernelIdeal.Gen

/-- Over the first axis of an [a, b, n] array, the index above (u, k) with coordinate f inserted is (f, u, k). -/
theorem lift_first_ix2 {a b n : ℕ} (h : (⟨3, ![a, b, n]⟩ : Shape).Reduces [0] ⟨2, ![b, n]⟩) (u : Fin b) (k : Fin n) (f : Fin a) :
    h.lift (ix2 u k) f = ix3 f u k := by
  funext c
  apply Fin.ext
  match c with
  | ⟨0, _⟩ => rfl
  | ⟨1, _⟩ => rfl
  | ⟨2, _⟩ => rfl

/-- At the ideal values, a sum over the first axis of an [a, b, n] array, read at (u, k), is the sum over f of the
    array at (f, u, k). -/
theorem firstSum_apply {a b n : ℕ} {φ : FTy} (src : FVec Ideal ⟨3, ![a, b, n]⟩ φ) (acc : BitVec φ.bits)
    (h : (⟨3, ![a, b, n]⟩ : Shape).Reduces [0] ⟨2, ![b, n]⟩) (hφ : FKind.Formats φ) (hacc : acc = FKind.add.neutral φ hφ)
    (u : Fin b) (k : Fin n) :
    multiReduction .add [0] ⟨2, ![b, n]⟩ src acc h hφ hacc (ix2 u k) = ∑ f : Fin a, src (ix3 f u k) := by
  refine (Ideal.multiReduction_add_single src acc h hφ hacc (ix2 u k)).trans ?_
  exact Finset.sum_congr rfl fun f _ => congrArg src (lift_first_ix2 h u k f)

/-- The row of scales repeated over the text rows, read at (i, d): the eight partial sums at feature d added up. -/
theorem colScale_apply (dp : FVec Ideal S8x1x1024 .f32) (h1 : S8x1x1024.ShapeCasts S8x1x1024)
    (h2 : S8x1x1024.Reduces [0] S1x1024) (hφ : FKind.Formats .f32) (hacc : (0x00000000#32 : BitVec 32) = FKind.add.neutral .f32 hφ)
    (h3 : S1x1024.Broadcasts S256x1024) (i : Fin 256) (d : Fin 1024) :
    broadcastTo S256x1024 (multiReduction .add [0] S1x1024 (shapeCast S8x1x1024 dp h1) 0x00000000#32 h2 hφ hacc) h3 (ix2 i d)
      = ∑ b : Fin 8, dp (ix3 b (0 : Fin 1) d) := by
  refine (broadcastTo_1b_ab_apply _ h3 i d).trans ?_
  refine (firstSum_apply _ _ h2 hφ hacc (0 : Fin 1) d).trans ?_
  rw [shapeCast_self]

/-- The matrix S as the body forms it: the scaled text rows against the rows of the frame means. -/
def simMat (dp : Vec Ideal S8x1x1024 .f32) (txt vm : Vec Ideal S256x1024 .f32) : FVec Ideal S256x256 .f32 :=
  matmul dot_S256x1024_S256x1024_S256x256_1_1_0_0_n_n none
    (truncf .bf16
      (mulf txt
        (broadcastTo S256x1024
          (multiReduction .add [0] S1x1024 (shapeCast S8x1x1024 dp Facts₀.shapeCasts_S8x1x1024_S8x1x1024) 0x00000000#32
            Facts₀.reduces_S8x1x1024_S1x1024 (.inl rfl) rfl)
          Facts₀.broadcasts_S1x1024_S256x1024))
      Facts₀.bitsLt_bf16_f32)
    (truncf .bf16 (shapeCast S256x1024 vm Facts₀.shapeCasts_S256x1024_S256x1024) Facts₀.bitsLt_bf16_f32)
    (constant S256x256 .f32 0x00000000#32)

/-- Every row of a [256, 256] matrix scaled to unit length, as the body does it. -/
def rowNormalize (S : FVec Ideal S256x256 .f32) : FVec Ideal S256x256 .f32 :=
  divf S
    (broadcastTo S256x256
      (addf
        (sqrt (shapeCast S256x1
          (multiReduction .add [1] S256 (mulf S S) 0x00000000#32 Facts₀.reduces_S256x256_S256 (.inl rfl) rfl)
          Facts₀.shapeCasts_S256_S256x1))
        (broadcast S256x1 (Scalar.ofBits .f32 0x322BCC77#32)))
      Facts₀.broadcasts_S256x1_S256x256)

/-- The body's value is the matrix S with its rows scaled to unit length. -/
theorem k3_pay1_eq (dp : Vec Ideal S8x1x1024 .f32) (txt vm : Vec Ideal S256x1024 .f32) :
    k3_pay1 (F := Ideal) dp txt vm = rowNormalize (simMat dp txt vm) := rfl

/-- The product's dimension numbers are those of rows against rows. -/
theorem simDot_eq : dot_S256x1024_S256x1024_S256x256_1_1_0_0_n_n
    = Cert.Lib.rows2 (A := 256) (K := 1024) (B := 256) Facts₀.dot_S256x1024_S256x1024_S256x256_1_1_0_0_n_n_wf := rfl

/-- Entry (i, j) of S: text row i scaled by the added partial sums, against frame-mean row j. -/
theorem simMat_apply (dp : Vec Ideal S8x1x1024 .f32) (txt vm : Vec Ideal S256x1024 .f32) (i j : Fin 256) :
    simMat dp txt vm (ix2 i j)
      = ∑ d : Fin 1024, (txt (ix2 i d) * ∑ b : Fin 8, dp (ix3 b (0 : Fin 1) d)) * vm (ix2 j d) := by
  unfold simMat
  rw [simDot_eq]
  refine (Cert.Lib.matmulRows_zero_apply _ _ _ i j).trans ?_
  refine Finset.sum_congr rfl fun d _ => ?_
  exact congrArg₂ (· * ·)
    (congrArg (txt (ix2 i d) * ·) (colScale_apply dp _ _ _ _ _ i d))
    (congrFun (shapeCast_self vm _) (ix2 j d))

/-- Entry (i, j) of a matrix with its rows scaled to unit length. -/
theorem rowNormalize_apply (S : FVec Ideal S256x256 .f32) (i j : Fin 256) :
    rowNormalize S (ix2 i j)
      = Ideal.div (S (ix2 i j)) (Ideal.sqrt (∑ k : Fin 256, S (ix2 i k) * S (ix2 i k)) + Cert.Spec.eps) := by
  unfold rowNormalize
  refine (divf_apply _ _ (ix2 i j)).trans ?_
  refine congrArg (Ideal.div (S (ix2 i j))) ?_
  refine (Cert.Lib.broadcastTo_a1_ab_apply _ _ i j).trans ?_
  refine congrArg (fun s => Ideal.sqrt s + Cert.Spec.eps) ?_
  refine (Cert.Lib.shapeCast_a_a1_apply _ _ i 0).trans ?_
  exact Cert.Lib.rowSum_apply _ _ _ _ _ i

/-- The body at (i, j) is the normalised similarity of the specification. -/
theorem k3_pay1_apply (dp : Vec Ideal S8x1x1024 .f32) (txt vm : Vec Ideal S256x1024 .f32) (i j : Fin 256) :
    k3_pay1 (F := Ideal) dp txt vm (ix2 i j) = Cert.Spec.simArr txt dp vm (ix2 i j) := by
  rw [k3_pay1_eq]
  refine (rowNormalize_apply _ i j).trans ?_
  have hS : (fun p q : Fin 256 => simMat dp txt vm (ix2 p q))
      = fun p q => ∑ d : Fin 1024, (txt (ix2 p d) * ∑ b : Fin 8, dp (ix3 b (0 : Fin 1) d)) * vm (ix2 q d) :=
    funext fun p => funext fun q => simMat_apply dp txt vm p q
  exact congrArg (fun S : Fin 256 → Fin 256 → EReal =>
    Ideal.div (S i j) (Ideal.sqrt (∑ k : Fin 256, S i k * S i k) + Cert.Spec.eps)) hS

end Cert.KVal

end
-- ==== Proof.KSimArr.lean ====
/-
  The similarity array after the similarity stage.

  The stage has a single grid point, and every window's block is its whole array: the text rows ([256, 1024]), the eight
  partial column sums ([8, 1, 1024]), the frame means ([256, 1024]) and the result ([256, 256]).  So each input block read
  at the point is the array itself, what the point writes back is the body's value of the three whole arrays, and that one
  block covers the result: the result array ends holding the normalised similarities of the specification.
-/
import proofs.«136278_j8443905704308_2_alg».proof.Proof.Gen.KernelIdeal.Frame
import proofs.«136278_j8443905704308_2_alg».proof.Proof.Spec
import proofs.«136278_j8443905704308_2_alg».proof.Proof.KSimPay
import Idealize.ShloMosaic.Lib.Pipeline.Value

noncomputable section

namespace Cert.KVal

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

theorem simZeros2 : (![0, 0] : Fin 2 → Nat) = fun _ => 0 := funext fun a => by fin_cases a <;> rfl
theorem simZeros3 : (![0, 0, 0] : Fin 3 → Nat) = fun _ => 0 := funext fun a => by fin_cases a <;> rfl

/-- Every window's block index at the stage's one point is zero on every axis (decided over the grid). -/
theorem sim_blockIndex : ∀ t : Fin cfg3.N,
    win3_0.index t (0 : Fin 2) = 0 ∧ win3_0.index t (1 : Fin 2) = 0
    ∧ win3_1.index t (0 : Fin 3) = 0 ∧ win3_1.index t (1 : Fin 3) = 0 ∧ win3_1.index t (2 : Fin 3) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The text window's block is the text array. -/
theorem sim_textBlock (c : Dev nD) (t : Fin cfg3.N) :
    (iblk3 V c 0 t : Vec Ideal S256x1024 .f32) = (V c main_arg0 : S256x1024.Idx → Elt Ideal .f32) := by
  obtain ⟨e0, e1, -, -, -, -, -, -, -⟩ := sim_blockIndex t
  funext x
  unfold iblk3
  rw [View.read_apply]
  show V c main_arg0 _ = V c main_arg0 x
  refine congrArg (V c main_arg0) ?_
  funext a
  apply Fin.ext
  match a with
  | ⟨0, _⟩ => show win3_0.index t (0 : Fin 2) * 256 + 1 * (x 0).val = (x 0).val; rw [e0]; omega
  | ⟨1, _⟩ => show win3_0.index t (1 : Fin 2) * 1024 + 1 * (x 1).val = (x 1).val; rw [e1]; omega

/-- The partial sums' window's block is the array of partial sums. -/
theorem sim_partialBlock (c : Dev nD) (t : Fin cfg3.N) :
    (iblk3 V c 1 t : Vec Ideal S8x1x1024 .f32) = (V c main_v1 : S8x1x1024.Idx → Elt Ideal .f32) := by
  obtain ⟨-, -, e2, e3, e4, -, -, -, -⟩ := sim_blockIndex t
  funext x
  unfold iblk3
  rw [View.read_apply]
  show V c main_v1 _ = V c main_v1 x
  refine congrArg (V c main_v1) ?_
  funext a
  apply Fin.ext
  match a with
  | ⟨0, _⟩ => show win3_1.index t (0 : Fin 3) * 8 + 1 * (x 0).val = (x 0).val; rw [e2]; omega
  | ⟨1, _⟩ => show win3_1.index t (1 : Fin 3) * 1 + 1 * (x 1).val = (x 1).val; rw [e3]; omega
  | ⟨2, _⟩ => show win3_1.index t (2 : Fin 3) * 1024 + 1 * (x 2).val = (x 2).val; rw [e4]; omega

/-- The frame means' window's block is the array of frame means. -/
theorem sim_meanBlock (c : Dev nD) (t : Fin cfg3.N) :
    (iblk3 V c 2 t : Vec Ideal S256x1024 .f32) = (V c main_v2 : S256x1024.Idx → Elt Ideal .f32) := by
  obtain ⟨-, -, -, -, -, e5, e6, -, -⟩ := sim_blockIndex t
  funext x
  unfold iblk3
  rw [View.read_apply]
  show V c main_v2 _ = V c main_v2 x
  refine congrArg (V c main_v2) ?_
  funext a
  apply Fin.ext
  match a with
  | ⟨0, _⟩ => show win3_2.index t (0 : Fin 2) * 256 + 1 * (x 0).val = (x 0).val; rw [e5]; omega
  | ⟨1, _⟩ => show win3_2.index t (1 : Fin 2) * 1024 + 1 * (x 1).val = (x 1).val; rw [e6]; omega

/-- What the point writes back is the block (the whole) of the normalised similarities of the three arrays. -/
theorem sim_flushed (c : Dev nD) (t : Fin cfg3.N) :
    (dat3 (F := Ideal) V c).flushed 3 t
      = ((cfg3.win 3).blk t).view.read (Elt Ideal) (Cert.Spec.simArr (V c main_arg0) (V c main_v1) (V c main_v2)) := by
  show (cfg3.win 3).cut (grid3.coords t) ((dat3 V c).after 3 t) = _
  rw [after3_3]
  unfold out3_3
  rw [View.canon_unit_zero simZeros2]
  simp only [View.ld_unit_zero (S := S8x1x1024) simZeros3, View.ld_unit_zero (S := S256x1024) simZeros2]
  rw [sim_textBlock V c t, sim_partialBlock V c t, sim_meanBlock V c t]
  obtain ⟨-, -, -, -, -, -, -, e7, e8⟩ := sim_blockIndex t
  funext j
  have hp : (j 0).val < 256 := (j 0).isLt
  have hq : (j 1).val < 256 := (j 1).isLt
  have hj : (cfg3.win 3).xinj (grid3.coords t) j = ix2 (⟨(j 0).val, hp⟩ : Fin 256) (⟨(j 1).val, hq⟩ : Fin 256) :=
    funext fun a => Fin.ext (by match a with | ⟨0, _⟩ => rfl | ⟨1, _⟩ => rfl)
  have hemb : ((cfg3.win 3).blk t).view.emb j = ix2 (⟨(j 0).val, hp⟩ : Fin 256) (⟨(j 1).val, hq⟩ : Fin 256) := by
    funext a
    apply Fin.ext
    match a with
    | ⟨0, _⟩ => show win3_3.index t (0 : Fin 2) * 256 + 1 * (j 0).val = (j 0).val; rw [e7]; omega
    | ⟨1, _⟩ => show win3_3.index t (1 : Fin 2) * 256 + 1 * (j 1).val = (j 1).val; rw [e8]; omega
  show k3_pay1 (F := Ideal) (V c main_v1) (V c main_arg0) (V c main_v2) ((cfg3.win 3).xinj (grid3.coords t) j)
    = Cert.Spec.simArr (V c main_arg0) (V c main_v1) (V c main_v2) (((cfg3.win 3).blk t).view.emb j)
  rw [hj, hemb]
  exact k3_pay1_apply _ _ _ _ _

/-- An index of the result is in point t's block iff each coordinate is in the block's range on its axis. -/
theorem sim_mem_block (t : Fin cfg3.N) (i : S256x256.Idx) :
    i ∈ ((cfg3.win 3).blk t).view.set ↔ ∀ a : Fin 2, win3_3.index t a * S256x256.size a ≤ (i a).val ∧ (i a).val < win3_3.index t a * S256x256.size a + S256x256.size a := by
  show i ∈ ((View.whole main_v3).slice (win3_3.rect t)).set ↔ _
  rw [View.set_slice_whole, Rect.mem_set_unit]
  exact Iff.rfl

/-- The one point's block covers the result. -/
theorem sim_cover (i : S256x256.Idx) :
    ∃ t : Fin cfg3.N, (cfg3.win 3).flush t = true ∧ i ∈ ((cfg3.win 3).blk t).view.set := by
  have hi0 : (i 0).val < 256 := (i 0).isLt
  have hi1 : (i 1).val < 256 := (i 1).isLt
  obtain ⟨-, -, -, -, -, -, -, e7, e8⟩ := sim_blockIndex t3_0
  refine ⟨t3_0, flush3_3 t3_0, ?_⟩
  rw [sim_mem_block]
  intro a
  match a with
  | ⟨0, _⟩ => show win3_3.index t3_0 (0 : Fin 2) * 256 ≤ (i 0).val ∧ (i 0).val < win3_3.index t3_0 (0 : Fin 2) * 256 + 256; omega
  | ⟨1, _⟩ => show win3_3.index t3_0 (1 : Fin 2) * 256 ≤ (i 1).val ∧ (i 1).val < win3_3.index t3_0 (1 : Fin 2) * 256 + 256; omega

/-- The result array after the stage: the normalised similarities of the text rows, scaled by the added partial column
    sums, against the frame means. -/
theorem final3 (c : Dev nD) :
    (dat3 (F := Ideal) V c).arrAt 3 cfg3.N = Cert.Spec.simArr (V c main_arg0) (V c main_v1) (V c main_v2) :=
  (dat3 (F := Ideal) V c).arrAt_eq_of_cover 3 (Cert.Spec.simArr (V c main_arg0) (V c main_v1) (V c main_v2))
    (fun t _ => sim_flushed V c t) sim_cover

end Cert.KVal

end
-- ==== Proof.KChain.lean ====
/-
  What the kernel's result buffer holds at the end, as one function of the five argument arrays.
  The four stages run one after another and each reads what earlier ones wrote: stage two reads the thresholds
  stage one left, stage four the partial column sums of stage two and the frame means of stage three. Between stages
  a buffer no stage writes keeps its contents, so each stage's inputs walk back to the arguments or to an earlier
  stage's output, and the result is the composition of the four stages' whole-array functions.
-/
import proofs.«136278_j8443905704308_2_alg».proof.Proof.Gen.KernelIdeal.Frame
import proofs.«136278_j8443905704308_2_alg».proof.Proof.Spec
import proofs.«136278_j8443905704308_2_alg».proof.Proof.KThres
import proofs.«136278_j8443905704308_2_alg».proof.Proof.KDiag
import proofs.«136278_j8443905704308_2_alg».proof.Proof.KVmeanArr
import proofs.«136278_j8443905704308_2_alg».proof.Proof.KSimArr

set_option maxRecDepth 16384

noncomputable section

namespace Cert.KChain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

open Cert.KVal (final0 final1 final2 final3)

/-! ## Stage one: the thresholds -/

/-- After stage one the threshold buffer holds the thresholds of the launch's embedding table and simw. -/
theorem W1_v0 (c : Dev nD) : W1 m ρ c (Proc.devRef .tc main_v0)
    = Cert.Spec.thresArr (m ((c : Thread nD τ).loc main_arg2)) (m ((c : Thread nD τ).loc main_arg3)) :=
  (W1_arr m ρ c 2).trans (final0 (V0 m ρ) c)

/-- Stage one leaves the embedding table as launched. -/
theorem W1_arg2 (c : Dev nD) : W1 m ρ c (Proc.devRef .tc main_arg2) = m ((c : Thread nD τ).loc main_arg2) :=
  (W1_arr m ρ c 0).trans (((dat0 (V0 m ρ) c).arrAt_in 0 rfl _).trans (A_eq0 (V0 m ρ) c 0))
theorem W1_arg4 (c : Dev nD) : W1 m ρ c (Proc.devRef .tc main_arg4) = m ((c : Thread nD τ).loc main_arg4) :=
  W1_of_ne m ρ c main_arg4 (by decide)
theorem W1_arg1 (c : Dev nD) : W1 m ρ c (Proc.devRef .tc main_arg1) = m ((c : Thread nD τ).loc main_arg1) :=
  W1_of_ne m ρ c main_arg1 (by decide)
theorem W1_arg0 (c : Dev nD) : W1 m ρ c (Proc.devRef .tc main_arg0) = m ((c : Thread nD τ).loc main_arg0) :=
  W1_of_ne m ρ c main_arg0 (by decide)

/-! ## Stage two: the partial column sums -/

/-- After stage two the partial-sum buffer holds the band sums at the thresholds of stage one. -/
theorem W2_v1 (c : Dev nD) : W2 m ρ c (Proc.devRef .tc main_v1)
    = Cert.Spec.diagPartArr (m ((c : Thread nD τ).loc main_arg2)) (m ((c : Thread nD τ).loc main_arg4))
        (Cert.Spec.thresArr (m ((c : Thread nD τ).loc main_arg2)) (m ((c : Thread nD τ).loc main_arg3))) := by
  refine (W2_arr m ρ c 3).trans ((final1 (V1 m ρ) c).trans ?_)
  rw [show V1 m ρ c main_arg2 = m ((c : Thread nD τ).loc main_arg2) from W1_arg2 m ρ c,
    show V1 m ρ c main_arg4 = m ((c : Thread nD τ).loc main_arg4) from W1_arg4 m ρ c,
    show V1 m ρ c main_v0 = _ from W1_v0 m ρ c]

theorem W2_arg1 (c : Dev nD) : W2 m ρ c (Proc.devRef .tc main_arg1) = m ((c : Thread nD τ).loc main_arg1) :=
  (W2_of_ne m ρ c main_arg1 (by decide)).trans (W1_arg1 m ρ c)
theorem W2_arg0 (c : Dev nD) : W2 m ρ c (Proc.devRef .tc main_arg0) = m ((c : Thread nD τ).loc main_arg0) :=
  (W2_of_ne m ρ c main_arg0 (by decide)).trans (W1_arg0 m ρ c)

/-! ## Stage three: the frame means -/

theorem W3_v2 (c : Dev nD) : W3 m ρ c (Proc.devRef .tc main_v2)
    = Cert.Spec.vmeanArr (m ((c : Thread nD τ).loc main_arg1)) := by
  refine (W3_arr m ρ c 1).trans ((final2 (V2 m ρ) c).trans ?_)
  rw [show V2 m ρ c main_arg1 = m ((c : Thread nD τ).loc main_arg1) from W2_arg1 m ρ c]
/-- Stage three leaves the partial sums where stage two put them. -/
theorem W3_v1 (c : Dev nD) : W3 m ρ c (Proc.devRef .tc main_v1)
    = Cert.Spec.diagPartArr (m ((c : Thread nD τ).loc main_arg2)) (m ((c : Thread nD τ).loc main_arg4))
        (Cert.Spec.thresArr (m ((c : Thread nD τ).loc main_arg2)) (m ((c : Thread nD τ).loc main_arg3))) :=
  (W3_of_ne m ρ c main_v1 (by decide)).trans (W2_v1 m ρ c)
theorem W3_arg0 (c : Dev nD) : W3 m ρ c (Proc.devRef .tc main_arg0) = m ((c : Thread nD τ).loc main_arg0) :=
  (W3_of_ne m ρ c main_arg0 (by decide)).trans (W2_arg0 m ρ c)

/-! ## Stage four: the result -/

/-- The result buffer at the end: stage four's function of the text rows, stage two's partial sums and stage
    three's frame means. -/
theorem W4_v3 (c : Dev nD) : W4 m ρ c (Proc.devRef .tc main_v3)
    = Cert.Spec.simArr (m ((c : Thread nD τ).loc main_arg0))
        (Cert.Spec.diagPartArr (m ((c : Thread nD τ).loc main_arg2)) (m ((c : Thread nD τ).loc main_arg4))
          (Cert.Spec.thresArr (m ((c : Thread nD τ).loc main_arg2)) (m ((c : Thread nD τ).loc main_arg3))))
        (Cert.Spec.vmeanArr (m ((c : Thread nD τ).loc main_arg1))) := by
  refine (W4_arr m ρ c 3).trans ((final3 (V3 m ρ) c).trans ?_)
  rw [show V3 m ρ c main_arg0 = m ((c : Thread nD τ).loc main_arg0) from W3_arg0 m ρ c,
    show V3 m ρ c main_v1 = _ from W3_v1 m ρ c,
    show V3 m ρ c main_v2 = _ from W3_v2 m ρ c]

end Cert.KChain

end
-- ==== Proof.LibBandSum.lean ====
/-
  A sum over 2048 consecutive indices, split into 8 bands of 256.

  A sum over the first m · n naturals is the sum, over the bands j < m, of the sums over the n naturals starting at
  n · j: one band more adds the n indices from n · m on. Both sides of the identity are such sums, a sum over `Fin k` of a
  function of the value being the sum over the first k naturals.
-/
import Mathlib.Data.Fintype.BigOperators
import Mathlib.Algebra.BigOperators.Intervals

namespace Cert.Lib

/-- The first m · n naturals, band by band: m bands of n consecutive indices, band j starting at n · j. -/
theorem sum_range_bands {M : Type*} [AddCommMonoid M] (f : ℕ → M) (n : ℕ) :
    ∀ m : ℕ, ∑ j ∈ Finset.range m, ∑ p ∈ Finset.range n, f (n * j + p) = ∑ q ∈ Finset.range (m * n), f q
  | 0 => by rw [Finset.sum_range_zero, Nat.zero_mul, Finset.sum_range_zero]
  | m + 1 => by
    rw [Finset.sum_range_succ, sum_range_bands f n m, Nat.add_one_mul, Finset.sum_range_add, Nat.mul_comm n m]

/-- Eight bands of 256 make up the first 2048 indices. -/
theorem sum_bands {M : Type*} [AddCommMonoid M] (f : ℕ → M) :
    ∑ j ∈ Finset.range 8, ∑ p : Fin 256, f (256 * j + p.val) = ∑ q : Fin 2048, f q.val := by
  have h : ∑ q : Fin 2048, f q.val = ∑ q ∈ Finset.range (8 * 256), f q := Fin.sum_univ_eq_sum_range f 2048
  rw [h, ← sum_range_bands f 256 8]
  exact Finset.sum_congr rfl fun j _ => Fin.sum_univ_eq_sum_range (fun p => f (256 * j + p)) 256

end Cert.Lib
-- ==== Proof.Regroup.lean ====
/-
  The four stages composed are the specification with the frame mean taken first.
  Stage two leaves the column sums in eight parts, one per band of 128 rows, and stage four adds the eight parts up:
  a sum over the 1024 rows taken band by band. Everything else is the same expression read at the same indices.
-/
import proofs.«136278_j8443905704308_2_alg».proof.Proof.Spec
import proofs.«136278_j8443905704308_2_alg».proof.Proof.LibBandSum

noncomputable section

namespace Cert.Regroup

open Idealize.ShloMosaic Idealize.ShloMosaic.ValueIdx Cert.Spec
open scoped BigOperators

/-- A sum over the 1024 rows is the sum over the 8 bands of the sums over each band's 128 rows. -/
theorem sum_bands8 {M : Type*} [AddCommMonoid M] (F : Fin 1024 → M) :
    ∑ b : Fin 8, ∑ r : Fin 128, F (band b r) = ∑ q : Fin 1024, F q := by
  let f : ℕ → M := fun q => if h : q < 1024 then F ⟨q, h⟩ else 0
  have h1 : ∑ q : Fin 1024, F q = ∑ q ∈ Finset.range (8 * 128), f q := by
    rw [show (8 * 128 : ℕ) = 1024 from rfl, ← Fin.sum_univ_eq_sum_range f 1024]
    refine Finset.sum_congr rfl fun q _ => ?_
    simp only [f, dif_pos q.isLt]
  have h2 : ∀ b : Fin 8, ∑ r : Fin 128, F (band b r) = ∑ p ∈ Finset.range 128, f (128 * b.val + p) := by
    intro b
    rw [← Fin.sum_univ_eq_sum_range (fun p => f (128 * b.val + p)) 128]
    refine Finset.sum_congr rfl fun r _ => ?_
    have hlt : 128 * b.val + r.val < 1024 := by omega
    simp only [f, dif_pos hlt]
    rfl
  rw [h1, ← Cert.Lib.sum_range_bands f 128 8,
    ← Fin.sum_univ_eq_sum_range (fun j => ∑ p ∈ Finset.range 128, f (128 * j + p)) 8]
  exact Finset.sum_congr rfl fun b _ => h2 b

/-- The eight partial column sums add up to the column sums. -/
theorem parts_sum (emb : A2 1024 1024) (simw : A2 1 1024) (temp : A2 1 1) (d : Fin 1024) :
    ∑ b : Fin 8, diagPartArr emb temp (thresArr emb simw) (ix3 b 0 d) = diag emb simw temp d := by
  unfold diag
  rw [← sum_bands8 (fun r => dlwT emb temp (thres emb simw) r d)]
  rfl

/-- Stage four applied to the outputs of stages one to three is the result with the frame mean taken first. -/
theorem simArr_eq (emb : A2 1024 1024) (simw : A2 1 1024) (temp : A2 1 1) (txt : A2 256 1024) (vid : A3 256 64 1024) :
    simArr txt (diagPartArr emb temp (thresArr emb simw)) (vmeanArr vid) = outK emb simw temp txt vid := by
  funext y
  unfold simArr outK
  refine congrArg (fun S => normalize S (y 0) (y 1)) ?_
  funext i j
  unfold simK
  refine Finset.sum_congr rfl fun d _ => ?_
  rw [parts_sum]
  rfl

end Cert.Regroup

end
-- ==== Proof.Consts.lean ====
/-
  The float constants of the two programs as the real numbers their binary words denote: 1024, 1023 and 64 exactly,
  and the small positive number both programs add to a row's length before dividing by it.
-/
import proofs.«136278_j8443905704308_2_alg».proof.Proof.Spec

noncomputable section

namespace Cert.Consts

open Idealize.ShloMosaic

theorem c1024_eq : Cert.Spec.c1024 = ((1024 : ℝ) : EReal) := by
  unfold Cert.Spec.c1024; simp [Ideal.ofBits, Ideal.ieee, -EReal.coe_mul]; norm_num

theorem c1023_eq : Cert.Spec.c1023 = ((1023 : ℝ) : EReal) := by
  unfold Cert.Spec.c1023; simp [Ideal.ofBits, Ideal.ieee, -EReal.coe_mul]; norm_num

theorem c64_eq : Cert.Spec.c64 = ((64 : ℝ) : EReal) := by
  unfold Cert.Spec.c64; simp [Ideal.ofBits, Ideal.ieee, -EReal.coe_mul]; norm_num

/-- The word 0x322BCC77 is a normal float: (2^23 + 2870391) * 2^(100 - 127 - 23), a positive real. -/
theorem eps_eq : Cert.Spec.eps = ((11258999 * (2 : ℝ) ^ (-50 : ℤ) : ℝ) : EReal) := by
  unfold Cert.Spec.eps; simp [Ideal.ofBits, Ideal.ieee, -EReal.coe_mul]

theorem eps_pos : ∃ e : ℝ, 0 < e ∧ Cert.Spec.eps = (e : EReal) :=
  ⟨_, by positivity, eps_eq⟩

end Cert.Consts

end
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.Bridge.lean ====
/-
  The one law that joins the two programs: the mean over frames may be taken before or after the contraction over
  features, when every number involved is finite.

  With a d = txt i d * diag d and v f d = vid j f d, one side is  sum_d a d * ((sum_f v f d) / 64)  and the other is
  (sum_f sum_d a d * v f d) / 64.  On the extended reals a product does not distribute over a sum in general (an
  infinite factor against summands of both signs), so the law is proved on the reals, and the work is to see that
  every a d and every v f d is a real number. The inputs are real by hypothesis. diag is real because every stage
  that leads to it keeps real numbers real: the logistic function, sums, differences and products, the exponential
  and the hyperbolic tangent always; a square root when its argument is a NONNEGATIVE real (a variance, a sum of
  squares); a quotient when its divisor is a POSITIVE real (1024, 1023, and a row's length plus eps).
-/
import proofs.«136278_j8443905704308_2_alg».proof.Proof.Spec
import proofs.«136278_j8443905704308_2_alg».proof.Proof.Consts
import proofs.«136278_j8443905704308_2_alg».proof.Proof.LibERealSum

noncomputable section

namespace Cert.Bridge

open Idealize.ShloMosaic Idealize.ShloMosaic.ValueIdx Cert.Spec
open scoped BigOperators

/-- x is a real number. -/
def IsR (x : EReal) : Prop := ∃ r : ℝ, x = (r : EReal)
/-- x is a nonnegative real number. -/
def IsNN (x : EReal) : Prop := ∃ r : ℝ, 0 ≤ r ∧ x = (r : EReal)
/-- x is a positive real number. -/
def IsPos (x : EReal) : Prop := ∃ r : ℝ, 0 < r ∧ x = (r : EReal)

theorem IsNN.isR {x : EReal} (h : IsNN x) : IsR x := let ⟨r, _, e⟩ := h; ⟨r, e⟩
theorem IsPos.isR {x : EReal} (h : IsPos x) : IsR x := let ⟨r, _, e⟩ := h; ⟨r, e⟩

section closure
variable {x y : EReal}

theorem isR_add (hx : IsR x) (hy : IsR y) : IsR (x + y) := by
  obtain ⟨a, rfl⟩ := hx; obtain ⟨b, rfl⟩ := hy; exact ⟨a + b, (EReal.coe_add a b).symm⟩
theorem isR_sub (hx : IsR x) (hy : IsR y) : IsR (x - y) := by
  obtain ⟨a, rfl⟩ := hx; obtain ⟨b, rfl⟩ := hy; exact ⟨a - b, (EReal.coe_sub a b).symm⟩
theorem isR_mul (hx : IsR x) (hy : IsR y) : IsR (x * y) := by
  obtain ⟨a, rfl⟩ := hx; obtain ⟨b, rfl⟩ := hy; exact ⟨a * b, (EReal.coe_mul a b).symm⟩
theorem isNN_mul_self (hx : IsR x) : IsNN (x * x) := by
  obtain ⟨a, rfl⟩ := hx; exact ⟨a * a, mul_self_nonneg a, (EReal.coe_mul a a).symm⟩
theorem isR_logistic (hx : IsR x) : IsR (Ideal.logistic x) := by
  obtain ⟨a, rfl⟩ := hx; exact ⟨_, Ideal.logistic_coe a⟩
theorem isR_exp (hx : IsR x) : IsR (Ideal.exp x) := by
  obtain ⟨a, rfl⟩ := hx; exact ⟨Real.exp a, rfl⟩
theorem isR_tanh (hx : IsR x) : IsR (Ideal.tanh x) := by
  obtain ⟨a, rfl⟩ := hx; exact ⟨Real.tanh a, rfl⟩
/-- The square root of a nonnegative real is a nonnegative real. -/
theorem isNN_sqrt (hx : IsNN x) : IsNN (Ideal.sqrt x) := by
  obtain ⟨a, ha, rfl⟩ := hx
  refine ⟨Real.sqrt a, Real.sqrt_nonneg a, ?_⟩
  rw [Ideal.sqrt_coe, if_neg (not_lt.2 ha)]
/-- A real over a positive real is a real. -/
theorem isR_div_pos (hx : IsR x) (hy : IsPos y) : IsR (Ideal.div x y) := by
  obtain ⟨a, rfl⟩ := hx; obtain ⟨b, hb, rfl⟩ := hy
  rw [Ideal.div_coe (ne_of_gt hb)]
  exact ⟨a * (1 / b), (EReal.coe_mul _ _).symm⟩
/-- A nonnegative real over a positive real is a nonnegative real. -/
theorem isNN_div_pos (hx : IsNN x) (hy : IsPos y) : IsNN (Ideal.div x y) := by
  obtain ⟨a, ha, rfl⟩ := hx; obtain ⟨b, hb, rfl⟩ := hy
  rw [Ideal.div_coe (ne_of_gt hb)]
  exact ⟨a * (1 / b), mul_nonneg ha (by positivity), (EReal.coe_mul _ _).symm⟩
theorem isPos_add (hx : IsNN x) (hy : IsPos y) : IsPos (x + y) := by
  obtain ⟨a, ha, rfl⟩ := hx; obtain ⟨b, hb, rfl⟩ := hy
  exact ⟨a + b, by linarith, (EReal.coe_add a b).symm⟩

end closure

theorem isR_sum {ι : Type*} (s : Finset ι) (f : ι → EReal) (h : ∀ i, IsR (f i)) : IsR (∑ i ∈ s, f i) := by
  choose g hg using h
  refine ⟨∑ i ∈ s, g i, ?_⟩
  rw [← Cert.Lib.sum_coe]; exact Finset.sum_congr rfl fun i _ => hg i
theorem isNN_sum {ι : Type*} (s : Finset ι) (f : ι → EReal) (h : ∀ i, IsNN (f i)) : IsNN (∑ i ∈ s, f i) := by
  choose g hg0 hg using h
  refine ⟨∑ i ∈ s, g i, Finset.sum_nonneg fun i _ => hg0 i, ?_⟩
  rw [← Cert.Lib.sum_coe]; exact Finset.sum_congr rfl fun i _ => hg i

theorem isPos_c1024 : IsPos c1024 := ⟨1024, by norm_num, Cert.Consts.c1024_eq⟩
theorem isPos_c1023 : IsPos c1023 := ⟨1023, by norm_num, Cert.Consts.c1023_eq⟩
theorem isPos_eps : IsPos eps := Cert.Consts.eps_pos

/-! ## Every stage up to the column sums keeps real numbers real -/

section chain
variable {emb : A2 1024 1024} {simw : A2 1 1024} {temp : A2 1 1}
variable (hemb : ∀ i, IsR (emb i)) (hsimw : ∀ i, IsR (simw i)) (htemp : ∀ i, IsR (temp i))
include hemb

theorem isR_w (r d : Fin 1024) : IsR (w emb r d) := isR_logistic (hemb _)
theorem isR_mean (r : Fin 1024) : IsR (mean emb r) :=
  isR_div_pos (isR_sum _ _ fun d => isR_w hemb r d) isPos_c1024
/-- A variance is a nonnegative real: a sum of squares over 1023. -/
theorem isNN_var (r : Fin 1024) : IsNN (var emb r) :=
  isNN_div_pos (isNN_sum _ _ fun d => isNN_mul_self (isR_sub (isR_w hemb r d) (isR_mean hemb r))) isPos_c1023
include hsimw in
theorem isR_thres (d : Fin 1024) : IsR (thres emb simw d) :=
  isR_add (isR_mean hemb d) (isR_mul (hsimw _) (isNN_sqrt (isNN_var hemb d)).isR)

include htemp
variable {th : Fin 1024 → EReal} (hth : ∀ d, IsR (th d))
include hth
theorem isR_mwT (r d : Fin 1024) : IsR (mwT emb temp th r d) :=
  isR_mul (isR_tanh (isR_exp (isR_mul (isR_exp (htemp _)) (isR_sub (isR_w hemb r d) (hth d))))) (isR_w hemb r d)
/-- A row's length plus eps is a positive real. -/
theorem isPos_rnormT (r : Fin 1024) : IsPos (rnormT emb temp th r) :=
  isPos_add (isNN_sqrt (isNN_sum _ _ fun d => isNN_mul_self (isR_mwT hemb htemp hth r d))) isPos_eps
theorem isR_dlwT (r d : Fin 1024) : IsR (dlwT emb temp th r d) :=
  isR_div_pos (isR_mwT hemb htemp hth r d) (isPos_rnormT hemb htemp hth r)

end chain

/-- The column sums are real numbers. -/
theorem isR_diag {emb : A2 1024 1024} {simw : A2 1 1024} {temp : A2 1 1}
    (hemb : ∀ i, IsR (emb i)) (hsimw : ∀ i, IsR (simw i)) (htemp : ∀ i, IsR (temp i)) (d : Fin 1024) :
    IsR (diag emb simw temp d) :=
  isR_sum _ _ fun r => isR_dlwT hemb htemp (isR_thres hemb hsimw) r d

/-! ## The law -/

/-- On the reals: scaling by 1/64 and summing over frames commute with the contraction over features. -/
theorem real_law (a : Fin 1024 → ℝ) (v : Fin 64 → Fin 1024 → ℝ) :
    ∑ d : Fin 1024, a d * ((∑ f : Fin 64, v f d) * (1 / 64))
      = (∑ f : Fin 64, ∑ d : Fin 1024, a d * v f d) * (1 / 64) := by
  rw [Finset.sum_comm, Finset.sum_mul]
  refine Finset.sum_congr rfl fun d _ => ?_
  rw [← Finset.mul_sum]; ring

/-- The similarity with the frame mean taken first is the similarity with it taken last, on real data. -/
theorem sim_eq {txt : A2 256 1024} {vid : A3 256 64 1024} {g : Fin 1024 → EReal}
    (htxt : ∀ i, IsR (txt i)) (hvid : ∀ i, IsR (vid i)) (hg : ∀ d, IsR (g d)) (i j : Fin 256) :
    simK txt vid g i j = simR txt vid g i j := by
  choose T hT using htxt
  choose Vv hV using hvid
  choose G hG using hg
  unfold simK simR vmean
  rw [Cert.Consts.c64_eq]
  simp only [Ideal.div_coe (by norm_num : (64 : ℝ) ≠ 0), hT, hV, hG]
  simp only [← EReal.coe_mul, Cert.Lib.sum_coe]
  exact congrArg _ (real_law (fun d => T (ix2 i d) * G d) (fun f d => Vv (ix3 j f d)))

/-- The two results agree on real data. -/
theorem out_eq {emb : A2 1024 1024} {simw : A2 1 1024} {temp : A2 1 1} {txt : A2 256 1024} {vid : A3 256 64 1024}
    (hemb : ∀ i, IsR (emb i)) (hsimw : ∀ i, IsR (simw i)) (htemp : ∀ i, IsR (temp i))
    (htxt : ∀ i, IsR (txt i)) (hvid : ∀ i, IsR (vid i)) :
    outK emb simw temp txt vid = outR emb simw temp txt vid := by
  have h : simK txt vid (diag emb simw temp) = simR txt vid (diag emb simw temp) :=
    funext fun i => funext fun j => sim_eq htxt hvid (isR_diag hemb hsimw htemp) i j
  unfold outK outR
  rw [h]

end Cert.Bridge

end
-- ==== Proof.Finite.lean ====
/-
  From the precondition to real numbers. The precondition says, of each of the five argument arrays, that every
  entry's absolute value is below the float +infinity. On the extended reals +infinity is the top element, and
  |x| = max x (-x) is below it exactly when x is neither infinity: x is a real number.
-/
import proofs.«136278_j8443905704308_2_alg».proof.Pre_finite_inputs
import proofs.«136278_j8443905704308_2_alg».proof.Proof.Gen.Pre_finite_inputs
import proofs.«136278_j8443905704308_2_alg».proof.Proof.Bridge
import Idealize.ShloMosaic.Lib.ReduceAll
import Idealize.ShloMosaic.Lib.Affine

noncomputable section

namespace Cert.Finite

open Idealize.ShloMosaic Cert.Bridge Cert.Pre_finite_inputs

/-- The rank-0 shape has one index. -/
instance : Subsingleton S_.Idx := ⟨fun a b => funext fun d => d.elim0⟩

/-- An extended real whose absolute value is below the float +infinity is a real number. -/
theorem isR_of_abs_lt (x : EReal)
    (h : Ideal.cmp .olt (max x (-x)) (Ideal.ofBits .f32 0x7F800000#32) = 1#1) : IsR x := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- One conjunct of the precondition: all entries of an array below +infinity in absolute value. -/
theorem isR_of_all {s : Shape} (x : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf x) (broadcastInDim s ![] hb (constant (F := Ideal) S_ .f32 0x7F800000#32)))
          (constantI S_ 1 1#1) hr hu ValueIdx.ix0 = 1#1) (i : s.Idx) : IsR (x i) :=
  isR_of_abs_lt _ (Host.reduce_andi_all _ _ hr hu _ e i)

/-- Under the precondition every entry of every argument array is a real number. -/
theorem isR_of_pre (a0 : FVec Ideal S256x1024 .f32) (a1 : FVec Ideal S256x64x1024 .f32) (a2 : FVec Ideal S1024x1024 .f32)
    (a3 : FVec Ideal S1x1024 .f32) (a4 : FVec Ideal S1x1 .f32)
    (h : fn (F := Ideal) a0 a1 a2 a3 a4 = fun _ => 1#1) :
    (∀ i, IsR (a0 i)) ∧ (∀ i, IsR (a1 i)) ∧ (∀ i, IsR (a2 i)) ∧ (∀ i, IsR (a3 i)) ∧ (∀ i, IsR (a4 i)) := by
  have h0 := congrFun h ValueIdx.ix0
  dsimp only [fn, fn_part1] at h0
  simp only [andi, IntOp.andi_eq_one] at h0
  obtain ⟨⟨⟨⟨e0, e1⟩, e2⟩, e3⟩, e4⟩ := h0
  exact ⟨isR_of_all a0 _ _ _ e0, isR_of_all a1 _ _ _ e1, isR_of_all a2 _ _ _ e2, isR_of_all a3 _ _ _ e3,
    isR_of_all a4 _ _ _ e4⟩

end Cert.Finite

end
-- ==== Proof.RefRunOps.lean ====
import proofs.«136278_j8443905704308_2_alg».proof.Proof.Gen.ReferenceIdeal
import Idealize.ShloMosaic.Lib.StableHlo.Run

/-!
  The reference program as a straight line of host operations.

  Its three calls (the standard deviation of each row, through the variance and a select; the two row norms)
  are written out at the call sites over each call's own buffers, so the whole program is one list of 81
  operations. The list is cut at four intermediate values: the logistic weights, the thresholds, the column
  sums of the normalised masked weights and the frame-averaged similarities. Every weakly fair execution of the
  program terminates with each buffer holding the fold of the list over the launch contents.
-/

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The logistic weights: eight operations. -/
abbrev ops1 : List (HloOp τ sig (Elt F)) :=
  [ StableHlo.unary main_arg2 main_v0 (Host.negf : (⟨S1024x1024, .f32⟩ : BufTy).Contents (Elt F) → (⟨S1024x1024, .f32⟩ : BufTy).Contents (Elt F)),
    StableHlo.unary main_v0 main_v1 (Host.exp : (⟨S1024x1024, .f32⟩ : BufTy).Contents (Elt F) → (⟨S1024x1024, .f32⟩ : BufTy).Contents (Elt F)),
    StableHlo.nullary main_cst (constant S_ .f32 0x3F800000#32),
    StableHlo.unary main_cst main_v2 (broadcastInDim S1024x1024 ![] bcast_S_S1024x1024 : (⟨S_, .f32⟩ : BufTy).Contents (Elt F) → (⟨S1024x1024, .f32⟩ : BufTy).Contents (Elt F)),
    StableHlo.binary main_v2 main_v1 main_v3 (addf : (⟨S1024x1024, .f32⟩ : BufTy).Contents (Elt F) → (⟨S1024x1024, .f32⟩ : BufTy).Contents (Elt F) → (⟨S1024x1024, .f32⟩ : BufTy).Contents (Elt F)),
    StableHlo.nullary main_cst_0 (constant S_ .f32 0x3F800000#32),
    StableHlo.unary main_cst_0 main_v4 (broadcastInDim S1024x1024 ![] bcast_S_S1024x1024 : (⟨S_, .f32⟩ : BufTy).Contents (Elt F) → (⟨S1024x1024, .f32⟩ : BufTy).Contents (Elt F)),
    StableHlo.binary main_v4 main_v3 main_v5 (Host.divf : (⟨S1024x1024, .f32⟩ : BufTy).Contents (Elt F) → (⟨S1024x1024, .f32⟩ : BufTy).Contents (Elt F) → (⟨S1024x1024, .f32⟩ : BufTy).Contents (Elt F)) ]

/-- The row means, the row standard deviations (variance, the guard on its divisor, the square root) and the thresholds. -/
abbrev ops2 : List (HloOp τ sig (Elt F)) :=
  [ StableHlo.nullary main_cst_1 (constant S_ .f32 0x00000000#32),
    StableHlo.binary main_v5 main_cst_1 main_v6 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    StableHlo.nullary main_cst_2 (constant S_ .f32 0x44800000#32),
    StableHlo.unary main_cst_2 main_v7 (broadcastInDim S1024 ![] bcast_S_S1024 : (⟨S_, .f32⟩ : BufTy).Contents (Elt F) → (⟨S1024, .f32⟩ : BufTy).Contents (Elt F)),
    StableHlo.binary main_v6 main_v7 main_v8 (Host.divf : (⟨S1024, .f32⟩ : BufTy).Contents (Elt F) → (⟨S1024, .f32⟩ : BufTy).Contents (Elt F) → (⟨S1024, .f32⟩ : BufTy).Contents (Elt F)),
    StableHlo.nullary main_c (constantI S_ 32 1#32),
    StableHlo.TRef.nullary main_call0.call0.cst (constant S_ .f32 0x00000000#32),
    StableHlo.TRef.binary (.of main_v5 : TRef sig ⟨S1024x1024, .f32⟩) main_call0.call0.cst main_call0.call0.v0 (fun x v => Host.reduceAdd x v reducesTo_S1024x1024_S1024_d1 h_S_),
    StableHlo.TRef.unary main_call0.call0.v0 main_call0.call0.v1 (broadcastInDim S1024x1 ![0] bcast_S1024_S1024x1_0),
    StableHlo.TRef.nullary main_call0.call0.cst_0 (constant S_ .f32 0x44800000#32),
    StableHlo.TRef.unary main_call0.call0.cst_0 main_call0.call0.v2 (broadcastInDim S1024x1 ![] bcast_S_S1024x1),
    StableHlo.TRef.binary main_call0.call0.v1 main_call0.call0.v2 main_call0.call0.v3 Host.divf,
    StableHlo.TRef.unary main_call0.call0.v3 main_call0.call0.v4 (broadcastInDim S1024x1024 ![0, 1] bcast_S1024x1_S1024x1024_0_1),
    StableHlo.TRef.binary (.of main_v5 : TRef sig ⟨S1024x1024, .f32⟩) main_call0.call0.v4 main_call0.call0.v5 subf,
    StableHlo.TRef.binary main_call0.call0.v5 main_call0.call0.v5 main_call0.call0.v6 mulf,
    StableHlo.TRef.unary (.of main_c : TRef sig ⟨S_, .i32⟩) main_call0.call0.v7 (sitofp .f32),
    StableHlo.TRef.nullary main_call0.call0.cst_1 (constant S_ .f32 0x44800000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S1024x1024_S1024_d1 h_S_),
    StableHlo.TRef.unary main_call0.call0.v8 main_call0.call0.v10 (broadcastInDim S1024 ![] bcast_S_S1024),
    StableHlo.TRef.binary main_call0.call0.v9 main_call0.call0.v10 main_call0.call0.v11 Host.divf,
    StableHlo.TRef.nullary main_call0.call0.cst_3 (constant S_ .f32 0x00000000#32),
    StableHlo.TRef.binary main_call0.call0.v8 main_call0.call0.cst_3 main_call0.call0.v12 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S1024 ![] bcast_S_S1024),
    StableHlo.TRef.ternary main_call0.call0.v12 main_call0.call0.v11 main_call0.call0.call0.v1 main_call0.call0.call0.v2 (fun p a b => select (broadcastInDim S1024 ![] bcast_S_S1024 p) a b),
    StableHlo.TRef.unary main_call0.call0.call0.v2 main_call0.v1 Host.sqrt,
    StableHlo.reshape main_arg3 main_v10 rfl shapeCasts_S1x1024_S1024,
    StableHlo.binary main_v10 main_v9 main_v11 (mulf : (⟨S1024, .f32⟩ : BufTy).Contents (Elt F) → (⟨S1024, .f32⟩ : BufTy).Contents (Elt F) → (⟨S1024, .f32⟩ : BufTy).Contents (Elt F)),
    StableHlo.binary main_v8 main_v11 main_v12 (addf : (⟨S1024, .f32⟩ : BufTy).Contents (Elt F) → (⟨S1024, .f32⟩ : BufTy).Contents (Elt F) → (⟨S1024, .f32⟩ : BufTy).Contents (Elt F)) ]

/-- The masked weights, their row norms, the normalised rows and their column sums. -/
abbrev ops3 : List (HloOp τ sig (Elt F)) :=
  [ StableHlo.reshape main_arg4 main_v13 rfl shapeCasts_S1x1_S_,
    StableHlo.unary main_v13 main_v14 (Host.exp : (⟨S_, .f32⟩ : BufTy).Contents (Elt F) → (⟨S_, .f32⟩ : BufTy).Contents (Elt F)),
    StableHlo.unary main_v12 main_v15 (broadcastInDim S1x1024 ![1] bcast_S1024_S1x1024_1 : (⟨S1024, .f32⟩ : BufTy).Contents (Elt F) → (⟨S1x1024, .f32⟩ : BufTy).Contents (Elt F)),
    StableHlo.unary main_v15 main_v16 (broadcastInDim S1024x1024 ![0, 1] bcast_S1x1024_S1024x1024_0_1 : (⟨S1x1024, .f32⟩ : BufTy).Contents (Elt F) → (⟨S1024x1024, .f32⟩ : BufTy).Contents (Elt F)),
    StableHlo.binary main_v5 main_v16 main_v17 (subf : (⟨S1024x1024, .f32⟩ : BufTy).Contents (Elt F) → (⟨S1024x1024, .f32⟩ : BufTy).Contents (Elt F) → (⟨S1024x1024, .f32⟩ : BufTy).Contents (Elt F)),
    StableHlo.unary main_v14 main_v18 (broadcastInDim S1024x1024 ![] bcast_S_S1024x1024 : (⟨S_, .f32⟩ : BufTy).Contents (Elt F) → (⟨S1024x1024, .f32⟩ : BufTy).Contents (Elt F)),
    StableHlo.binary main_v18 main_v17 main_v19 (mulf : (⟨S1024x1024, .f32⟩ : BufTy).Contents (Elt F) → (⟨S1024x1024, .f32⟩ : BufTy).Contents (Elt F) → (⟨S1024x1024, .f32⟩ : BufTy).Contents (Elt F)),
    StableHlo.unary main_v19 main_v20 (Host.exp : (⟨S1024x1024, .f32⟩ : BufTy).Contents (Elt F) → (⟨S1024x1024, .f32⟩ : BufTy).Contents (Elt F)),
    StableHlo.unary main_v20 main_v21 (Host.tanh : (⟨S1024x1024, .f32⟩ : BufTy).Contents (Elt F) → (⟨S1024x1024, .f32⟩ : BufTy).Contents (Elt F)),
    StableHlo.binary main_v21 main_v5 main_v22 (mulf : (⟨S1024x1024, .f32⟩ : BufTy).Contents (Elt F) → (⟨S1024x1024, .f32⟩ : BufTy).Contents (Elt F) → (⟨S1024x1024, .f32⟩ : BufTy).Contents (Elt F)),
    StableHlo.TRef.binary (.of main_v22 : TRef sig ⟨S1024x1024, .f32⟩) (.of main_v22 : TRef sig ⟨S1024x1024, .f32⟩) main_call1.v0 mulf,
    StableHlo.TRef.nullary main_call1.cst (constant S_ .f32 0x00000000#32),
    StableHlo.TRef.binary main_call1.v0 main_call1.cst main_call1.v1 (fun x v => Host.reduceAdd x v reducesTo_S1024x1024_S1024_d1 h_S_),
    StableHlo.TRef.unary main_call1.v1 main_call1.v2 (broadcastInDim S1024x1 ![0] bcast_S1024_S1024x1_0),
    StableHlo.TRef.unary main_call1.v2 main_call1.v3 Host.sqrt,
    StableHlo.nullary main_cst_3 (constant S_ .f32 0x322BCC77#32),
    StableHlo.unary main_cst_3 main_v24 (broadcastInDim S1024x1 ![] bcast_S_S1024x1 : (⟨S_, .f32⟩ : BufTy).Contents (Elt F) → (⟨S1024x1, .f32⟩ : BufTy).Contents (Elt F)),
    StableHlo.binary main_v23 main_v24 main_v25 (addf : (⟨S1024x1, .f32⟩ : BufTy).Contents (Elt F) → (⟨S1024x1, .f32⟩ : BufTy).Contents (Elt F) → (⟨S1024x1, .f32⟩ : BufTy).Contents (Elt F)),
    StableHlo.unary main_v25 main_v26 (broadcastInDim S1024x1024 ![0, 1] bcast_S1024x1_S1024x1024_0_1 : (⟨S1024x1, .f32⟩ : BufTy).Contents (Elt F) → (⟨S1024x1024, .f32⟩ : BufTy).Contents (Elt F)),
    StableHlo.binary main_v22 main_v26 main_v27 (Host.divf : (⟨S1024x1024, .f32⟩ : BufTy).Contents (Elt F) → (⟨S1024x1024, .f32⟩ : BufTy).Contents (Elt F) → (⟨S1024x1024, .f32⟩ : BufTy).Contents (Elt F)),
    StableHlo.nullary main_cst_4 (constant S_ .f32 0x00000000#32),
    StableHlo.binary main_v27 main_cst_4 main_v28 ((fun x v => Host.reduceAdd x v reducesTo_S1024x1024_S1024_d0 h_S_) : (⟨S1024x1024, .f32⟩ : BufTy).Contents (Elt F) → (⟨S_, .f32⟩ : BufTy).Contents (Elt F) → (⟨S1024, .f32⟩ : BufTy).Contents (Elt F)) ]

/-- The scaled text rows, the contraction against every video frame and the mean over the frames. -/
abbrev ops4 : List (HloOp τ sig (Elt F)) :=
  [ StableHlo.unary main_v28 main_v29 (broadcastInDim S1x1024 ![1] bcast_S1024_S1x1024_1 : (⟨S1024, .f32⟩ : BufTy).Contents (Elt F) → (⟨S1x1024, .f32⟩ : BufTy).Contents (Elt F)),
    StableHlo.unary main_v29 main_v30 (broadcastInDim S256x1024 ![0, 1] bcast_S1x1024_S256x1024_0_1 : (⟨S1x1024, .f32⟩ : BufTy).Contents (Elt F) → (⟨S256x1024, .f32⟩ : BufTy).Contents (Elt F)),
    StableHlo.binary main_arg0 main_v30 main_v31 (mulf : (⟨S256x1024, .f32⟩ : BufTy).Contents (Elt F) → (⟨S256x1024, .f32⟩ : BufTy).Contents (Elt F) → (⟨S256x1024, .f32⟩ : BufTy).Contents (Elt F)),
    StableHlo.binary main_v31 main_arg1 main_v32 ((fun l r => Host.dotGeneral dot_S256x1024_S256x64x1024_S256x256x64_1_2_0_01_n_n none l r) : (⟨S256x1024, .f32⟩ : BufTy).Contents (Elt F) → (⟨S256x64x1024, .f32⟩ : BufTy).Contents (Elt F) → (⟨S256x256x64, .f32⟩ : BufTy).Contents (Elt F)),
    StableHlo.nullary main_cst_5 (constant S_ .f32 0x00000000#32),
    StableHlo.binary main_v32 main_cst_5 main_v33 ((fun x v => Host.reduceAdd x v reducesTo_S256x256x64_S256x256_d2 h_S_) : (⟨S256x256x64, .f32⟩ : BufTy).Contents (Elt F) → (⟨S_, .f32⟩ : BufTy).Contents (Elt F) → (⟨S256x256, .f32⟩ : BufTy).Contents (Elt F)),
    StableHlo.nullary main_cst_6 (constant S_ .f32 0x42800000#32),
    StableHlo.unary main_cst_6 main_v34 (broadcastInDim S256x256 ![] bcast_S_S256x256 : (⟨S_, .f32⟩ : BufTy).Contents (Elt F) → (⟨S256x256, .f32⟩ : BufTy).Contents (Elt F)),
    StableHlo.binary main_v33 main_v34 main_v35 (Host.divf : (⟨S256x256, .f32⟩ : BufTy).Contents (Elt F) → (⟨S256x256, .f32⟩ : BufTy).Contents (Elt F) → (⟨S256x256, .f32⟩ : BufTy).Contents (Elt F)) ]

/-- The similarities with each row scaled to unit length. -/
abbrev ops5 : List (HloOp τ sig (Elt F)) :=
  [ StableHlo.TRef.binary (.of main_v35 : TRef sig ⟨S256x256, .f32⟩) (.of main_v35 : TRef sig ⟨S256x256, .f32⟩) main_call2.v0 mulf,
    StableHlo.TRef.nullary main_call2.cst (constant S_ .f32 0x00000000#32),
    StableHlo.TRef.binary main_call2.v0 main_call2.cst main_call2.v1 (fun x v => Host.reduceAdd x v reducesTo_S256x256_S256_d1 h_S_),
    StableHlo.TRef.unary main_call2.v1 main_call2.v2 (broadcastInDim S256x1 ![0] bcast_S256_S256x1_0),
    StableHlo.TRef.unary main_call2.v2 main_call2.v3 Host.sqrt,
    StableHlo.nullary main_cst_7 (constant S_ .f32 0x322BCC77#32),
    StableHlo.unary main_cst_7 main_v37 (broadcastInDim S256x1 ![] bcast_S_S256x1 : (⟨S_, .f32⟩ : BufTy).Contents (Elt F) → (⟨S256x1, .f32⟩ : BufTy).Contents (Elt F)),
    StableHlo.binary main_v36 main_v37 main_v38 (addf : (⟨S256x1, .f32⟩ : BufTy).Contents (Elt F) → (⟨S256x1, .f32⟩ : BufTy).Contents (Elt F) → (⟨S256x1, .f32⟩ : BufTy).Contents (Elt F)),
    StableHlo.unary main_v38 main_v39 (broadcastInDim S256x256 ![0, 1] bcast_S256x1_S256x256_0_1 : (⟨S256x1, .f32⟩ : BufTy).Contents (Elt F) → (⟨S256x256, .f32⟩ : BufTy).Contents (Elt F)),
    StableHlo.binary main_v35 main_v39 main_v40 (Host.divf : (⟨S256x256, .f32⟩ : BufTy).Contents (Elt F) → (⟨S256x256, .f32⟩ : BufTy).Contents (Elt F) → (⟨S256x256, .f32⟩ : BufTy).Contents (Elt F)) ]

/-- All 81 operations, in order. -/
abbrev ops : List (HloOp τ sig (Elt F)) :=
  [ StableHlo.unary main_arg2 main_v0 (Host.negf : (⟨S1024x1024, .f32⟩ : BufTy).Contents (Elt F) → (⟨S1024x1024, .f32⟩ : BufTy).Contents (Elt F)),
    StableHlo.unary main_v0 main_v1 (Host.exp : (⟨S1024x1024, .f32⟩ : BufTy).Contents (Elt F) → (⟨S1024x1024, .f32⟩ : BufTy).Contents (Elt F)),
    StableHlo.nullary main_cst (constant S_ .f32 0x3F800000#32),
    StableHlo.unary main_cst main_v2 (broadcastInDim S1024x1024 ![] bcast_S_S1024x1024 : (⟨S_, .f32⟩ : BufTy).Contents (Elt F) → (⟨S1024x1024, .f32⟩ : BufTy).Contents (Elt F)),
    StableHlo.binary main_v2 main_v1 main_v3 (addf : (⟨S1024x1024, .f32⟩ : BufTy).Contents (Elt F) → (⟨S1024x1024, .f32⟩ : BufTy).Contents (Elt F) → (⟨S1024x1024, .f32⟩ : BufTy).Contents (Elt F)),
    StableHlo.nullary main_cst_0 (constant S_ .f32 0x3F800000#32),
    StableHlo.unary main_cst_0 main_v4 (broadcastInDim S1024x1024 ![] bcast_S_S1024x1024 : (⟨S_, .f32⟩ : BufTy).Contents (Elt F) → (⟨S1024x1024, .f32⟩ : BufTy).Contents (Elt F)),
    StableHlo.binary main_v4 main_v3 main_v5 (Host.divf : (⟨S1024x1024, .f32⟩ : BufTy).Contents (Elt F) → (⟨S1024x1024, .f32⟩ : BufTy).Contents (Elt F) → (⟨S1024x1024, .f32⟩ : BufTy).Contents (Elt F)),
    StableHlo.nullary main_cst_1 (constant S_ .f32 0x00000000#32),
    StableHlo.binary main_v5 main_cst_1 main_v6 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    StableHlo.nullary main_cst_2 (constant S_ .f32 0x44800000#32),
    StableHlo.unary main_cst_2 main_v7 (broadcastInDim S1024 ![] bcast_S_S1024 : (⟨S_, .f32⟩ : BufTy).Contents (Elt F) → (⟨S1024, .f32⟩ : BufTy).Contents (Elt F)),
    StableHlo.binary main_v6 main_v7 main_v8 (Host.divf : (⟨S1024, .f32⟩ : BufTy).Contents (Elt F) → (⟨S1024, .f32⟩ : BufTy).Contents (Elt F) → (⟨S1024, .f32⟩ : BufTy).Contents (Elt F)),
    StableHlo.nullary main_c (constantI S_ 32 1#32),
    StableHlo.TRef.nullary main_call0.call0.cst (constant S_ .f32 0x00000000#32),
    StableHlo.TRef.binary (.of main_v5 : TRef sig ⟨S1024x1024, .f32⟩) main_call0.call0.cst main_call0.call0.v0 (fun x v => Host.reduceAdd x v reducesTo_S1024x1024_S1024_d1 h_S_),
    StableHlo.TRef.unary main_call0.call0.v0 main_call0.call0.v1 (broadcastInDim S1024x1 ![0] bcast_S1024_S1024x1_0),
    StableHlo.TRef.nullary main_call0.call0.cst_0 (constant S_ .f32 0x44800000#32),
    StableHlo.TRef.unary main_call0.call0.cst_0 main_call0.call0.v2 (broadcastInDim S1024x1 ![] bcast_S_S1024x1),
    StableHlo.TRef.binary main_call0.call0.v1 main_call0.call0.v2 main_call0.call0.v3 Host.divf,
    StableHlo.TRef.unary main_call0.call0.v3 main_call0.call0.v4 (broadcastInDim S1024x1024 ![0, 1] bcast_S1024x1_S1024x1024_0_1),
    StableHlo.TRef.binary (.of main_v5 : TRef sig ⟨S1024x1024, .f32⟩) main_call0.call0.v4 main_call0.call0.v5 subf,
    StableHlo.TRef.binary main_call0.call0.v5 main_call0.call0.v5 main_call0.call0.v6 mulf,
    StableHlo.TRef.unary (.of main_c : TRef sig ⟨S_, .i32⟩) main_call0.call0.v7 (sitofp .f32),
    StableHlo.TRef.nullary main_call0.call0.cst_1 (constant S_ .f32 0x44800000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S1024x1024_S1024_d1 h_S_),
    StableHlo.TRef.unary main_call0.call0.v8 main_call0.call0.v10 (broadcastInDim S1024 ![] bcast_S_S1024),
    StableHlo.TRef.binary main_call0.call0.v9 main_call0.call0.v10 main_call0.call0.v11 Host.divf,
    StableHlo.TRef.nullary main_call0.call0.cst_3 (constant S_ .f32 0x00000000#32),
    StableHlo.TRef.binary main_call0.call0.v8 main_call0.call0.cst_3 main_call0.call0.v12 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S1024 ![] bcast_S_S1024),
    StableHlo.TRef.ternary main_call0.call0.v12 main_call0.call0.v11 main_call0.call0.call0.v1 main_call0.call0.call0.v2 (fun p a b => select (broadcastInDim S1024 ![] bcast_S_S1024 p) a b),
    StableHlo.TRef.unary main_call0.call0.call0.v2 main_call0.v1 Host.sqrt,
    StableHlo.reshape main_arg3 main_v10 rfl shapeCasts_S1x1024_S1024,
    StableHlo.binary main_v10 main_v9 main_v11 (mulf : (⟨S1024, .f32⟩ : BufTy).Contents (Elt F) → (⟨S1024, .f32⟩ : BufTy).Contents (Elt F) → (⟨S1024, .f32⟩ : BufTy).Contents (Elt F)),
    StableHlo.binary main_v8 main_v11 main_v12 (addf : (⟨S1024, .f32⟩ : BufTy).Contents (Elt F) → (⟨S1024, .f32⟩ : BufTy).Contents (Elt F) → (⟨S1024, .f32⟩ : BufTy).Contents (Elt F)),
    StableHlo.reshape main_arg4 main_v13 rfl shapeCasts_S1x1_S_,
    StableHlo.unary main_v13 main_v14 (Host.exp : (⟨S_, .f32⟩ : BufTy).Contents (Elt F) → (⟨S_, .f32⟩ : BufTy).Contents (Elt F)),
    StableHlo.unary main_v12 main_v15 (broadcastInDim S1x1024 ![1] bcast_S1024_S1x1024_1 : (⟨S1024, .f32⟩ : BufTy).Contents (Elt F) → (⟨S1x1024, .f32⟩ : BufTy).Contents (Elt F)),
    StableHlo.unary main_v15 main_v16 (broadcastInDim S1024x1024 ![0, 1] bcast_S1x1024_S1024x1024_0_1 : (⟨S1x1024, .f32⟩ : BufTy).Contents (Elt F) → (⟨S1024x1024, .f32⟩ : BufTy).Contents (Elt F)),
    StableHlo.binary main_v5 main_v16 main_v17 (subf : (⟨S1024x1024, .f32⟩ : BufTy).Contents (Elt F) → (⟨S1024x1024, .f32⟩ : BufTy).Contents (Elt F) → (⟨S1024x1024, .f32⟩ : BufTy).Contents (Elt F)),
    StableHlo.unary main_v14 main_v18 (broadcastInDim S1024x1024 ![] bcast_S_S1024x1024 : (⟨S_, .f32⟩ : BufTy).Contents (Elt F) → (⟨S1024x1024, .f32⟩ : BufTy).Contents (Elt F)),
    StableHlo.binary main_v18 main_v17 main_v19 (mulf : (⟨S1024x1024, .f32⟩ : BufTy).Contents (Elt F) → (⟨S1024x1024, .f32⟩ : BufTy).Contents (Elt F) → (⟨S1024x1024, .f32⟩ : BufTy).Contents (Elt F)),
    StableHlo.unary main_v19 main_v20 (Host.exp : (⟨S1024x1024, .f32⟩ : BufTy).Contents (Elt F) → (⟨S1024x1024, .f32⟩ : BufTy).Contents (Elt F)),
    StableHlo.unary main_v20 main_v21 (Host.tanh : (⟨S1024x1024, .f32⟩ : BufTy).Contents (Elt F) → (⟨S1024x1024, .f32⟩ : BufTy).Contents (Elt F)),
    StableHlo.binary main_v21 main_v5 main_v22 (mulf : (⟨S1024x1024, .f32⟩ : BufTy).Contents (Elt F) → (⟨S1024x1024, .f32⟩ : BufTy).Contents (Elt F) → (⟨S1024x1024, .f32⟩ : BufTy).Contents (Elt F)),
    StableHlo.TRef.binary (.of main_v22 : TRef sig ⟨S1024x1024, .f32⟩) (.of main_v22 : TRef sig ⟨S1024x1024, .f32⟩) main_call1.v0 mulf,
    StableHlo.TRef.nullary main_call1.cst (constant S_ .f32 0x00000000#32),
    StableHlo.TRef.binary main_call1.v0 main_call1.cst main_call1.v1 (fun x v => Host.reduceAdd x v reducesTo_S1024x1024_S1024_d1 h_S_),
    StableHlo.TRef.unary main_call1.v1 main_call1.v2 (broadcastInDim S1024x1 ![0] bcast_S1024_S1024x1_0),
    StableHlo.TRef.unary main_call1.v2 main_call1.v3 Host.sqrt,
    StableHlo.nullary main_cst_3 (constant S_ .f32 0x322BCC77#32),
    StableHlo.unary main_cst_3 main_v24 (broadcastInDim S1024x1 ![] bcast_S_S1024x1 : (⟨S_, .f32⟩ : BufTy).Contents (Elt F) → (⟨S1024x1, .f32⟩ : BufTy).Contents (Elt F)),
    StableHlo.binary main_v23 main_v24 main_v25 (addf : (⟨S1024x1, .f32⟩ : BufTy).Contents (Elt F) → (⟨S1024x1, .f32⟩ : BufTy).Contents (Elt F) → (⟨S1024x1, .f32⟩ : BufTy).Contents (Elt F)),
    StableHlo.unary main_v25 main_v26 (broadcastInDim S1024x1024 ![0, 1] bcast_S1024x1_S1024x1024_0_1 : (⟨S1024x1, .f32⟩ : BufTy).Contents (Elt F) → (⟨S1024x1024, .f32⟩ : BufTy).Contents (Elt F)),
    StableHlo.binary main_v22 main_v26 main_v27 (Host.divf : (⟨S1024x1024, .f32⟩ : BufTy).Contents (Elt F) → (⟨S1024x1024, .f32⟩ : BufTy).Contents (Elt F) → (⟨S1024x1024, .f32⟩ : BufTy).Contents (Elt F)),
    StableHlo.nullary main_cst_4 (constant S_ .f32 0x00000000#32),
    StableHlo.binary main_v27 main_cst_4 main_v28 ((fun x v => Host.reduceAdd x v reducesTo_S1024x1024_S1024_d0 h_S_) : (⟨S1024x1024, .f32⟩ : BufTy).Contents (Elt F) → (⟨S_, .f32⟩ : BufTy).Contents (Elt F) → (⟨S1024, .f32⟩ : BufTy).Contents (Elt F)),
    StableHlo.unary main_v28 main_v29 (broadcastInDim S1x1024 ![1] bcast_S1024_S1x1024_1 : (⟨S1024, .f32⟩ : BufTy).Contents (Elt F) → (⟨S1x1024, .f32⟩ : BufTy).Contents (Elt F)),
    StableHlo.unary main_v29 main_v30 (broadcastInDim S256x1024 ![0, 1] bcast_S1x1024_S256x1024_0_1 : (⟨S1x1024, .f32⟩ : BufTy).Contents (Elt F) → (⟨S256x1024, .f32⟩ : BufTy).Contents (Elt F)),
    StableHlo.binary main_arg0 main_v30 main_v31 (mulf : (⟨S256x1024, .f32⟩ : BufTy).Contents (Elt F) → (⟨S256x1024, .f32⟩ : BufTy).Contents (Elt F) → (⟨S256x1024, .f32⟩ : BufTy).Contents (Elt F)),
    StableHlo.binary main_v31 main_arg1 main_v32 ((fun l r => Host.dotGeneral dot_S256x1024_S256x64x1024_S256x256x64_1_2_0_01_n_n none l r) : (⟨S256x1024, .f32⟩ : BufTy).Contents (Elt F) → (⟨S256x64x1024, .f32⟩ : BufTy).Contents (Elt F) → (⟨S256x256x64, .f32⟩ : BufTy).Contents (Elt F)),
    StableHlo.nullary main_cst_5 (constant S_ .f32 0x00000000#32),
    StableHlo.binary main_v32 main_cst_5 main_v33 ((fun x v => Host.reduceAdd x v reducesTo_S256x256x64_S256x256_d2 h_S_) : (⟨S256x256x64, .f32⟩ : BufTy).Contents (Elt F) → (⟨S_, .f32⟩ : BufTy).Contents (Elt F) → (⟨S256x256, .f32⟩ : BufTy).Contents (Elt F)),
    StableHlo.nullary main_cst_6 (constant S_ .f32 0x42800000#32),
    StableHlo.unary main_cst_6 main_v34 (broadcastInDim S256x256 ![] bcast_S_S256x256 : (⟨S_, .f32⟩ : BufTy).Contents (Elt F) → (⟨S256x256, .f32⟩ : BufTy).Contents (Elt F)),
    StableHlo.binary main_v33 main_v34 main_v35 (Host.divf : (⟨S256x256, .f32⟩ : BufTy).Contents (Elt F) → (⟨S256x256, .f32⟩ : BufTy).Contents (Elt F) → (⟨S256x256, .f32⟩ : BufTy).Contents (Elt F)),
    StableHlo.TRef.binary (.of main_v35 : TRef sig ⟨S256x256, .f32⟩) (.of main_v35 : TRef sig ⟨S256x256, .f32⟩) main_call2.v0 mulf,
    StableHlo.TRef.nullary main_call2.cst (constant S_ .f32 0x00000000#32),
    StableHlo.TRef.binary main_call2.v0 main_call2.cst main_call2.v1 (fun x v => Host.reduceAdd x v reducesTo_S256x256_S256_d1 h_S_),
    StableHlo.TRef.unary main_call2.v1 main_call2.v2 (broadcastInDim S256x1 ![0] bcast_S256_S256x1_0),
    StableHlo.TRef.unary main_call2.v2 main_call2.v3 Host.sqrt,
    StableHlo.nullary main_cst_7 (constant S_ .f32 0x322BCC77#32),
    StableHlo.unary main_cst_7 main_v37 (broadcastInDim S256x1 ![] bcast_S_S256x1 : (⟨S_, .f32⟩ : BufTy).Contents (Elt F) → (⟨S256x1, .f32⟩ : BufTy).Contents (Elt F)),
    StableHlo.binary main_v36 main_v37 main_v38 (addf : (⟨S256x1, .f32⟩ : BufTy).Contents (Elt F) → (⟨S256x1, .f32⟩ : BufTy).Contents (Elt F) → (⟨S256x1, .f32⟩ : BufTy).Contents (Elt F)),
    StableHlo.unary main_v38 main_v39 (broadcastInDim S256x256 ![0, 1] bcast_S256x1_S256x256_0_1 : (⟨S256x1, .f32⟩ : BufTy).Contents (Elt F) → (⟨S256x256, .f32⟩ : BufTy).Contents (Elt F)),
    StableHlo.binary main_v35 main_v39 main_v40 (Host.divf : (⟨S256x256, .f32⟩ : BufTy).Contents (Elt F) → (⟨S256x256, .f32⟩ : BufTy).Contents (Elt F) → (⟨S256x256, .f32⟩ : BufTy).Contents (Elt F)) ]

/-- The whole line is the five stretches one after the other. -/
theorem ops_split : (ops : List (HloOp τ sig (Elt F))) = ops1 ++ (ops2 ++ (ops3 ++ (ops4 ++ ops5))) := rfl

/-- The fold over two stretches is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_ops (V : Valuation τ sig (Elt F)) :
    after ops V = after ops5 (after ops4 (after ops3 (after ops2 (after ops1 V)))) := by
  rw [ops_split, after_app, after_app, after_app, after_app]

end Cert.RefRun

end
-- ==== Proof.RefRunMain.lean ====
import proofs.«136278_j8443905704308_2_alg».proof.Proof.RefRunOps

/-!
  The reference program IS the straight line of 81 host operations, and so it runs: from any memory with zero
  counters every weakly fair execution terminates with each buffer at the fold of the operations over the launch
  contents.
-/

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- The program is that straight line: a call is its callee's body over the call's buffers, and sequencing a
    sequence is sequencing its steps, both by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., binary_bufs_sub .., binary_bufs_sub .., reshape_bufs_sub .., unary_bufs_sub .., unary_bufs_sub .., unary_bufs_sub .., binary_bufs_sub .., unary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub .., nullary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- From any memory with zero counters, every weakly fair execution of the program terminates, and every final
    state has each buffer at the fold of the 81 operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.RefRun

end
-- ==== Proof.RefRunTerms.lean ====
import proofs.«136278_j8443905704308_2_alg».proof.Proof.Gen.ReferenceIdeal

/-!
  The reference program's five intermediate values as pure terms of the arrays they are computed from, for any
  float values: the logistic weights from the embedding table; the thresholds from the weights and the
  deviation multipliers; the column sums of the row-normalised masked weights from the weights, the thresholds
  and the temperature; the frame-averaged similarities from those column sums, the text rows and the video
  frames; and the similarities with every row scaled to unit length.
-/

noncomputable section

namespace Cert.RefRun

open Cert.ReferenceIdeal Cert.ReferenceIdeal.Gen Idealize.ShloMosaic

variable {F : FTy → Type} [FloatOps F]

/-- The logistic function of every entry, spelt 1 / (1 + exp (-e)). -/
def stW (e : FVec F S1024x1024 .f32) : FVec F S1024x1024 .f32 :=
  Host.divf (broadcastInDim S1024x1024 ![] bcast_S_S1024x1024 (constant S_ .f32 0x3F800000#32))
    (addf (broadcastInDim S1024x1024 ![] bcast_S_S1024x1024 (constant S_ .f32 0x3F800000#32)) (Host.exp (Host.negf e)))

/-- The sums of the rows of a 1024 x 1024 matrix, from zero. -/
def rowSums (x : FVec F S1024x1024 .f32) : FVec F S1024 .f32 :=
  Host.reduceAdd x (constant S_ .f32 0x00000000#32) reducesTo_S1024x1024_S1024_d1 h_S_

/-- The row means: the row sums over 1024. -/
def stMean (W : FVec F S1024x1024 .f32) : FVec F S1024 .f32 :=
  Host.divf (rowSums W) (broadcastInDim S1024 ![] bcast_S_S1024 (constant S_ .f32 0x44800000#32))

/-- The row means once more, kept as a column and repeated along each row. -/
def stMeanM (W : FVec F S1024x1024 .f32) : FVec F S1024x1024 .f32 :=
  broadcastInDim S1024x1024 ![0, 1] bcast_S1024x1_S1024x1024_0_1
    (Host.divf (broadcastInDim S1024x1 ![0] bcast_S1024_S1024x1_0 (rowSums W))
      (broadcastInDim S1024x1 ![] bcast_S_S1024x1 (constant S_ .f32 0x44800000#32)))

/-- The deviations from the row means. -/
def stDev (W : FVec F S1024x1024 .f32) : FVec F S1024x1024 .f32 := subf W (stMeanM W)

/-- The variance's divisor: 1024 minus the integer 1 converted to a float. -/
def stDivisor : FVec F S_ .f32 := subf (constant (F := F) S_ .f32 0x44800000#32) (sitofp (F := F) .f32 (constantI S_ 32 1#32))

/-- The sums of the squared deviations over the divisor. -/
def stVarQ (W : FVec F S1024x1024 .f32) : FVec F S1024 .f32 :=
  Host.divf (rowSums (mulf (stDev W) (stDev W))) (broadcastInDim S1024 ![] bcast_S_S1024 stDivisor)

/-- The variance: that quotient where the divisor is positive, a fixed constant otherwise. -/
def stVar (W : FVec F S1024x1024 .f32) : FVec F S1024 .f32 :=
  select (broadcastInDim S1024 ![] bcast_S_S1024 (cmpf .ogt (stDivisor (F := F)) (constant (F := F) S_ .f32 0x00000000#32)))
    (stVarQ W) (broadcastInDim S1024 ![] bcast_S_S1024 (constant S_ .f32 0x7FC00000#32))

/-- The thresholds: mean plus multiplier times standard deviation. -/
def stThr (W : FVec F S1024x1024 .f32) (sw : FVec F S1x1024 .f32) : FVec F S1024 .f32 :=
  addf (stMean W) (mulf (shapeCast S1024 sw shapeCasts_S1x1024_S1024) (Host.sqrt (stVar W)))

/-- The masked weights: tanh (exp (exp temp * (W - thr))) * W, the threshold vector repeated down the rows. -/
def stMw (W : FVec F S1024x1024 .f32) (thr : FVec F S1024 .f32) (tp : FVec F S1x1 .f32) : FVec F S1024x1024 .f32 :=
  mulf (Host.tanh (Host.exp (mulf
      (broadcastInDim S1024x1024 ![] bcast_S_S1024x1024 (Host.exp (shapeCast S_ tp shapeCasts_S1x1_S_)))
      (subf W (broadcastInDim S1024x1024 ![0, 1] bcast_S1x1024_S1024x1024_0_1
        (broadcastInDim S1x1024 ![1] bcast_S1024_S1x1024_1 thr))))))
    W

/-- The lengths of the rows, as a column, plus a small constant. -/
def stRnorm (mw : FVec F S1024x1024 .f32) : FVec F S1024x1 .f32 :=
  addf (Host.sqrt (broadcastInDim S1024x1 ![0] bcast_S1024_S1024x1_0 (rowSums (mulf mw mw))))
    (broadcastInDim S1024x1 ![] bcast_S_S1024x1 (constant S_ .f32 0x322BCC77#32))

/-- Every row over its length. -/
def stDlw (mw : FVec F S1024x1024 .f32) : FVec F S1024x1024 .f32 :=
  Host.divf mw (broadcastInDim S1024x1024 ![0, 1] bcast_S1024x1_S1024x1024_0_1 (stRnorm mw))

/-- The column sums of the normalised masked weights. -/
def stDiag (W : FVec F S1024x1024 .f32) (thr : FVec F S1024 .f32) (tp : FVec F S1x1 .f32) : FVec F S1024 .f32 :=
  Host.reduceAdd (stDlw (stMw W thr tp)) (constant S_ .f32 0x00000000#32) reducesTo_S1024x1024_S1024_d0 h_S_

/-- The text rows scaled by D, contracted against every frame of every video, summed over the 64 frames, over 64. -/
def stSim (D : FVec F S1024 .f32) (txt : FVec F S256x1024 .f32) (vid : FVec F S256x64x1024 .f32) : FVec F S256x256 .f32 :=
  Host.divf
    (Host.reduceAdd
      (Host.dotGeneral dot_S256x1024_S256x64x1024_S256x256x64_1_2_0_01_n_n none
        (mulf txt (broadcastInDim S256x1024 ![0, 1] bcast_S1x1024_S256x1024_0_1
          (broadcastInDim S1x1024 ![1] bcast_S1024_S1x1024_1 D)))
        vid)
      (constant S_ .f32 0x00000000#32) reducesTo_S256x256x64_S256x256_d2 h_S_)
    (broadcastInDim S256x256 ![] bcast_S_S256x256 (constant S_ .f32 0x42800000#32))

/-- Every row of a 256 x 256 matrix over its length plus a small constant. -/
def stNorm (S : FVec F S256x256 .f32) : FVec F S256x256 .f32 :=
  Host.divf S (broadcastInDim S256x256 ![0, 1] bcast_S256x1_S256x256_0_1
    (addf (Host.sqrt (broadcastInDim S256x1 ![0] bcast_S256_S256x1_0
            (Host.reduceAdd (mulf S S) (constant S_ .f32 0x00000000#32) reducesTo_S256x256_S256_d1 h_S_)))
      (broadcastInDim S256x1 ![] bcast_S_S256x1 (constant S_ .f32 0x322BCC77#32))))

end Cert.RefRun

end
-- ==== Proof.RefRunStages.lean ====
import proofs.«136278_j8443905704308_2_alg».proof.Proof.RefRunOps
import proofs.«136278_j8443905704308_2_alg».proof.Proof.RefRunTerms

/-!
  Each of the five stretches of the reference program leaves, at the buffer of its last value, the stretch's pure
  term of the buffers it reads, and leaves the arguments (and the weights, where they are read again later) as it
  found them. Chained, the whole program leaves at its result the five terms composed over the arguments.
-/

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

theorem st1_eq (V : Valuation τ sig (Elt F)) :
    after ops1 V (Proc.devRef .tc main_v5) = stW (V (Proc.devRef .tc main_arg2)) := by
  after_results_simp
  rfl

theorem st2_eq (V : Valuation τ sig (Elt F)) :
    after ops2 V (Proc.devRef .tc main_v12) = stThr (V (Proc.devRef .tc main_v5)) (V (Proc.devRef .tc main_arg3)) := by
  after_results_simp
  rfl

theorem st3_eq (V : Valuation τ sig (Elt F)) :
    after ops3 V (Proc.devRef .tc main_v28) = stDiag (V (Proc.devRef .tc main_v5)) (V (Proc.devRef .tc main_v12)) (V (Proc.devRef .tc main_arg4)) := by
  after_results_simp
  rfl

theorem st4_eq (V : Valuation τ sig (Elt F)) :
    after ops4 V (Proc.devRef .tc main_v35) = stSim (V (Proc.devRef .tc main_v28)) (V (Proc.devRef .tc main_arg0)) (V (Proc.devRef .tc main_arg1)) := by
  after_results_simp
  rfl

theorem st5_eq (V : Valuation τ sig (Elt F)) :
    after ops5 V (Proc.devRef .tc main_v40) = stNorm (V (Proc.devRef .tc main_v35)) := by
  after_results_simp
  rfl

theorem keep2_v5 (V : Valuation τ sig (Elt F)) : after ops2 V (Proc.devRef .tc main_v5) = V (Proc.devRef .tc main_v5) := by
  after_results_simp

theorem keep1_arg0 (V : Valuation τ sig (Elt F)) : after ops1 V (Proc.devRef .tc main_arg0) = V (Proc.devRef .tc main_arg0) := by
  after_results_simp
theorem keep1_arg1 (V : Valuation τ sig (Elt F)) : after ops1 V (Proc.devRef .tc main_arg1) = V (Proc.devRef .tc main_arg1) := by
  after_results_simp
theorem keep1_arg2 (V : Valuation τ sig (Elt F)) : after ops1 V (Proc.devRef .tc main_arg2) = V (Proc.devRef .tc main_arg2) := by
  after_results_simp
theorem keep1_arg3 (V : Valuation τ sig (Elt F)) : after ops1 V (Proc.devRef .tc main_arg3) = V (Proc.devRef .tc main_arg3) := by
  after_results_simp
theorem keep1_arg4 (V : Valuation τ sig (Elt F)) : after ops1 V (Proc.devRef .tc main_arg4) = V (Proc.devRef .tc main_arg4) := by
  after_results_simp
theorem keep2_arg0 (V : Valuation τ sig (Elt F)) : after ops2 V (Proc.devRef .tc main_arg0) = V (Proc.devRef .tc main_arg0) := by
  after_results_simp
theorem keep2_arg1 (V : Valuation τ sig (Elt F)) : after ops2 V (Proc.devRef .tc main_arg1) = V (Proc.devRef .tc main_arg1) := by
  after_results_simp
theorem keep2_arg2 (V : Valuation τ sig (Elt F)) : after ops2 V (Proc.devRef .tc main_arg2) = V (Proc.devRef .tc main_arg2) := by
  after_results_simp
theorem keep2_arg3 (V : Valuation τ sig (Elt F)) : after ops2 V (Proc.devRef .tc main_arg3) = V (Proc.devRef .tc main_arg3) := by
  after_results_simp
theorem keep2_arg4 (V : Valuation τ sig (Elt F)) : after ops2 V (Proc.devRef .tc main_arg4) = V (Proc.devRef .tc main_arg4) := by
  after_results_simp
theorem keep3_arg0 (V : Valuation τ sig (Elt F)) : after ops3 V (Proc.devRef .tc main_arg0) = V (Proc.devRef .tc main_arg0) := by
  after_results_simp
theorem keep3_arg1 (V : Valuation τ sig (Elt F)) : after ops3 V (Proc.devRef .tc main_arg1) = V (Proc.devRef .tc main_arg1) := by
  after_results_simp
theorem keep3_arg2 (V : Valuation τ sig (Elt F)) : after ops3 V (Proc.devRef .tc main_arg2) = V (Proc.devRef .tc main_arg2) := by
  after_results_simp
theorem keep3_arg3 (V : Valuation τ sig (Elt F)) : after ops3 V (Proc.devRef .tc main_arg3) = V (Proc.devRef .tc main_arg3) := by
  after_results_simp
theorem keep3_arg4 (V : Valuation τ sig (Elt F)) : after ops3 V (Proc.devRef .tc main_arg4) = V (Proc.devRef .tc main_arg4) := by
  after_results_simp
theorem keep4_arg0 (V : Valuation τ sig (Elt F)) : after ops4 V (Proc.devRef .tc main_arg0) = V (Proc.devRef .tc main_arg0) := by
  after_results_simp
theorem keep4_arg1 (V : Valuation τ sig (Elt F)) : after ops4 V (Proc.devRef .tc main_arg1) = V (Proc.devRef .tc main_arg1) := by
  after_results_simp
theorem keep4_arg2 (V : Valuation τ sig (Elt F)) : after ops4 V (Proc.devRef .tc main_arg2) = V (Proc.devRef .tc main_arg2) := by
  after_results_simp
theorem keep4_arg3 (V : Valuation τ sig (Elt F)) : after ops4 V (Proc.devRef .tc main_arg3) = V (Proc.devRef .tc main_arg3) := by
  after_results_simp
theorem keep4_arg4 (V : Valuation τ sig (Elt F)) : after ops4 V (Proc.devRef .tc main_arg4) = V (Proc.devRef .tc main_arg4) := by
  after_results_simp
theorem keep5_arg0 (V : Valuation τ sig (Elt F)) : after ops5 V (Proc.devRef .tc main_arg0) = V (Proc.devRef .tc main_arg0) := by
  after_results_simp
theorem keep5_arg1 (V : Valuation τ sig (Elt F)) : after ops5 V (Proc.devRef .tc main_arg1) = V (Proc.devRef .tc main_arg1) := by
  after_results_simp
theorem keep5_arg2 (V : Valuation τ sig (Elt F)) : after ops5 V (Proc.devRef .tc main_arg2) = V (Proc.devRef .tc main_arg2) := by
  after_results_simp
theorem keep5_arg3 (V : Valuation τ sig (Elt F)) : after ops5 V (Proc.devRef .tc main_arg3) = V (Proc.devRef .tc main_arg3) := by
  after_results_simp
theorem keep5_arg4 (V : Valuation τ sig (Elt F)) : after ops5 V (Proc.devRef .tc main_arg4) = V (Proc.devRef .tc main_arg4) := by
  after_results_simp

/-- The program leaves this argument as it found it. -/
theorem keep_arg0 (V : Valuation τ sig (Elt F)) : after ops V (Proc.devRef .tc main_arg0) = V (Proc.devRef .tc main_arg0) := by
  rw [after_ops, keep5_arg0, keep4_arg0, keep3_arg0, keep2_arg0, keep1_arg0]
/-- The program leaves this argument as it found it. -/
theorem keep_arg1 (V : Valuation τ sig (Elt F)) : after ops V (Proc.devRef .tc main_arg1) = V (Proc.devRef .tc main_arg1) := by
  rw [after_ops, keep5_arg1, keep4_arg1, keep3_arg1, keep2_arg1, keep1_arg1]
/-- The program leaves this argument as it found it. -/
theorem keep_arg2 (V : Valuation τ sig (Elt F)) : after ops V (Proc.devRef .tc main_arg2) = V (Proc.devRef .tc main_arg2) := by
  rw [after_ops, keep5_arg2, keep4_arg2, keep3_arg2, keep2_arg2, keep1_arg2]
/-- The program leaves this argument as it found it. -/
theorem keep_arg3 (V : Valuation τ sig (Elt F)) : after ops V (Proc.devRef .tc main_arg3) = V (Proc.devRef .tc main_arg3) := by
  rw [after_ops, keep5_arg3, keep4_arg3, keep3_arg3, keep2_arg3, keep1_arg3]
/-- The program leaves this argument as it found it. -/
theorem keep_arg4 (V : Valuation τ sig (Elt F)) : after ops V (Proc.devRef .tc main_arg4) = V (Proc.devRef .tc main_arg4) := by
  rw [after_ops, keep5_arg4, keep4_arg4, keep3_arg4, keep2_arg4, keep1_arg4]

/-- The result buffer after the whole program: the five terms composed over the arguments. -/
theorem out_eq (V : Valuation τ sig (Elt F)) :
    after ops V (Proc.devRef .tc main_v40)
      = stNorm (stSim (stDiag (stW (V (Proc.devRef .tc main_arg2))) (stThr (stW (V (Proc.devRef .tc main_arg2))) (V (Proc.devRef .tc main_arg3))) (V (Proc.devRef .tc main_arg4)))
          (V (Proc.devRef .tc main_arg0)) (V (Proc.devRef .tc main_arg1))) := by
  rw [after_ops, st5_eq, st4_eq, st3_eq, keep3_arg0, keep3_arg1, st2_eq, keep2_v5, keep2_arg4, keep2_arg0, keep2_arg1,
    st1_eq, keep1_arg3, keep1_arg4, keep1_arg0, keep1_arg1]

end Cert.RefRun

end
-- ==== Proof.LibHostReads.lean ====
/-
  The host's layout operations and row reductions read at one entry, and as whole arrays, at the extended reals.

  A vector repeated along the rows of a table reads, at (p, q), the vector at q; a scalar constant repeated over any
  shape reads the constant's value; a column (one value per row) repeated along the row reads, at (p, c), row p's value.
  A reduction along the last axis of a table with a maximum body, from a constant, is at row p the running maximum
  of the row's entries from that constant; the float sum from zero is the sum of the row's entries.
-/
import Idealize.ShloMosaic.Lib.Pipeline.Value
import Idealize.ShloMosaic.Lib.ValueIdx
import Idealize.ShloMosaic.PureOps.Ideal.Laws
import proofs.«136278_j8443905704308_2_alg».proof.Proof.LibKeepdims

noncomputable section

open scoped BigOperators

namespace Cert.Lib

open Idealize.ShloMosaic Idealize.ShloMosaic.ValueIdx

variable {A B n : ℕ} {α : Type}

/-- A vector of length B made a one-row matrix and repeated along A rows reads, at (p, q), the vector at q. -/
theorem bcast_vec_rows_apply (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    broadcastInDim ⟨2, ![A, B]⟩ ![0, 1] h2 (broadcastInDim ⟨2, ![1, B]⟩ ![1] h1 v) (ix2 p q) = v (ix1 q) := by
  refine (broadcastInDim_apply ![0, 1] h2 _ (ix2 p q) (ix2 (0 : Fin 1) q) fun a => ?_).trans
    (broadcastInDim_apply ![1] h1 v (ix2 (0 : Fin 1) q) (ix1 q) fun a => ?_)
  · match a with
    | ⟨0, _⟩ => show (0 : ℕ) = if (1 : ℕ) = 1 then 0 else p.val; rw [if_pos rfl]
    | ⟨1, _⟩ =>
      show q.val = if B = 1 then 0 else q.val
      split
      · have := q.isLt; omega
      · rfl
  · match a with
    | ⟨0, _⟩ =>
      show q.val = if B = 1 then 0 else q.val
      split
      · have := q.isLt; omega
      · rfl

/-- A scalar constant repeated over a shape reads the constant's value everywhere. -/
theorem bcast_scalar_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  (broadcastInDim_apply ![] h _ i ix0 fun a => a.elim0).trans rfl

/-- A vector of length A made a column reads, at (p, 0), the vector at p. -/
theorem bcast_col_apply (v : (⟨1, ![A]⟩ : Shape).Idx → α) (h1 : (⟨1, ![A]⟩ : Shape).BroadcastsInDim ⟨2, ![A, 1]⟩ ![0])
    (p : Fin A) (u : Fin 1) : broadcastInDim ⟨2, ![A, 1]⟩ ![0] h1 v (ix2 p u) = v (ix1 p) := by
  refine broadcastInDim_apply ![0] h1 v (ix2 p u) (ix1 p) fun a => ?_
  match a with
  | ⟨0, _⟩ =>
    show p.val = if A = 1 then 0 else p.val
    split
    · have := p.isLt; omega
    · rfl

/-- A column repeated along the row reads, at (p, c), the column at (p, 0). -/
theorem bcast_col_rows_apply (w : (⟨2, ![A, 1]⟩ : Shape).Idx → α)
    (h2 : (⟨2, ![A, 1]⟩ : Shape).BroadcastsInDim ⟨2, ![A, n]⟩ ![0, 1]) (p : Fin A) (c : Fin n) :
    broadcastInDim ⟨2, ![A, n]⟩ ![0, 1] h2 w (ix2 p c) = w (ix2 p (0 : Fin 1)) := by
  refine broadcastInDim_apply ![0, 1] h2 w (ix2 p c) (ix2 p (0 : Fin 1)) fun a => ?_
  match a with
  | ⟨0, _⟩ =>
    show p.val = if A = 1 then 0 else p.val
    split
    · have := p.isLt; omega
    · rfl
  | ⟨1, _⟩ => show (0 : ℕ) = if (1 : ℕ) = 1 then 0 else c.val; rw [if_pos rfl]

/-- The host's reduction with a maximum body along the last axis, from a constant, at row p. -/
theorem host_rowMax_apply (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) (p : Fin A) :
    Host.reduce FloatOps.maximumf x (constant (⟨0, ![]⟩ : Shape) .f32 w) h' hu (ix1 p)
      = (Finset.univ : Finset (Fin n)).fold max (Ideal.ofBits .f32 w) (fun k => x (ix2 p k)) := by
  rw [Host.reduce_eq_fold_single FloatOps.maximumf x _ h' h hu]
  have hf : (x ∘ h.lift (ix1 p)) = fun k : Fin n => x (ix2 p k) := funext fun k => congrArg x (Cert.Lib.lift_row h p k)
  exact congrArg (fun f => Finset.fold max (Ideal.ofBits .f32 w) f (Finset.univ : Finset (Fin n))) hf

/-- The host's float sum along the last axis, from zero, at row p. -/
theorem host_rowSum_apply (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) (p : Fin A) :
    Host.reduceAdd x (constant (⟨0, ![]⟩ : Shape) .f32 0x00000000#32) h' hu (ix1 p) = ∑ k : Fin n, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (Cert.Lib.lift_row h p k)

/-! ## The same readings for whole arrays

  Each of the layout operations and reductions above as ONE function of the result index. -/

theorem bcast_vec_rows_eq (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) :
    broadcastInDim ⟨2, ![A, B]⟩ ![0, 1] h2 (broadcastInDim ⟨2, ![1, B]⟩ ![1] h1 v)
      = fun i => v (ix1 (⟨(i 1).val, idx2_lt1 i⟩ : Fin B)) := by
  funext i
  obtain ⟨p, q, rfl⟩ : ∃ (p : Fin A) (q : Fin B), i = ix2 p q := ⟨i 0, i 1, eq_ix2 i⟩
  exact bcast_vec_rows_apply v h1 h2 p q

theorem bcast_scalar_eq {s : Shape} (h : (⟨0, ![]⟩ : Shape).BroadcastsInDim s ![]) (w : BitVec 32) :
    broadcastInDim s ![] h (constant (F := Ideal) ⟨0, ![]⟩ .f32 w) = fun _ => Ideal.ofBits .f32 w :=
  funext fun i => bcast_scalar_apply h w i

theorem bcast_col_eq (v : (⟨1, ![A]⟩ : Shape).Idx → α) (h1 : (⟨1, ![A]⟩ : Shape).BroadcastsInDim ⟨2, ![A, 1]⟩ ![0]) :
    broadcastInDim ⟨2, ![A, 1]⟩ ![0] h1 v = fun i => v (ix1 (⟨(i 0).val, idx2_lt0 i⟩ : Fin A)) := by
  funext i
  obtain ⟨p, u, rfl⟩ : ∃ (p : Fin A) (u : Fin 1), i = ix2 p u := ⟨i 0, i 1, eq_ix2 i⟩
  exact bcast_col_apply v h1 p u

theorem bcast_col_rows_eq (w : (⟨2, ![A, 1]⟩ : Shape).Idx → α)
    (h2 : (⟨2, ![A, 1]⟩ : Shape).BroadcastsInDim ⟨2, ![A, n]⟩ ![0, 1]) :
    broadcastInDim ⟨2, ![A, n]⟩ ![0, 1] h2 w = fun i => w (ix2 (⟨(i 0).val, idx2_lt0 i⟩ : Fin A) (0 : Fin 1)) := by
  funext i
  obtain ⟨p, c, rfl⟩ : ∃ (p : Fin A) (c : Fin n), i = ix2 p c := ⟨i 0, i 1, eq_ix2 i⟩
  exact bcast_col_rows_apply w h2 p c

theorem host_rowMax_eq (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) :
    Host.reduce FloatOps.maximumf x (constant (⟨0, ![]⟩ : Shape) .f32 w) h' hu
      = fun j => (Finset.univ : Finset (Fin n)).fold max (Ideal.ofBits .f32 w) (fun k => x (ix2 (⟨(j 0).val, (j 0).isLt⟩ : Fin A) k)) := by
  funext j
  obtain ⟨p, rfl⟩ : ∃ p : Fin A, j = ix1 p := ⟨j 0, eq_ix1 j⟩
  exact host_rowMax_apply h x w h' hu p

theorem host_rowSum_eq (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) :
    Host.reduceAdd x (constant (⟨0, ![]⟩ : Shape) .f32 0x00000000#32) h' hu
      = fun j => ∑ k : Fin n, x (ix2 (⟨(j 0).val, (j 0).isLt⟩ : Fin A) k) := by
  funext j
  obtain ⟨p, rfl⟩ : ∃ p : Fin A, j = ix1 p := ⟨j 0, eq_ix1 j⟩
  exact host_rowSum_apply h x h' hu p

end Cert.Lib

end
-- ==== Proof.RefReadParts.lean ====
import proofs.«136278_j8443905704308_2_alg».proof.Proof.RefRunTerms
import proofs.«136278_j8443905704308_2_alg».proof.Proof.Spec
import proofs.«136278_j8443905704308_2_alg».proof.Proof.LibHostReads
import Idealize.ShloMosaic.Lib.IdealHost
import Idealize.ShloMosaic.Lib.ValueLayout

/-!
  Three of the reference's stage terms read at one entry, at the extended reals: the logistic weights, the column
  sums of the row-normalised masked weights, and the rows scaled to unit length. Each pointwise operation reads
  entry by entry; a repeated scalar, row or column reads the value it repeats; a sum along an axis is the sum of
  the entries on that axis.
-/

noncomputable section

open scoped BigOperators

namespace Cert.RefRun

open Idealize.ShloMosaic Idealize.ShloMosaic.ValueIdx Cert.ReferenceIdeal Cert.ReferenceIdeal.Gen

section Pointwise
variable {s : Shape}

theorem hdivf_at (a b : FVec Ideal s .f32) (i : s.Idx) : Host.divf a b i = Ideal.div (a i) (b i) := rfl
theorem hexp_at (a : FVec Ideal s .f32) (i : s.Idx) : Host.exp a i = Ideal.exp (a i) := rfl
theorem hnegf_at (a : FVec Ideal s .f32) (i : s.Idx) : Host.negf a i = -(a i) := rfl
theorem hsqrt_at (a : FVec Ideal s .f32) (i : s.Idx) : Host.sqrt a i = Ideal.sqrt (a i) := rfl
theorem htanh_at (a : FVec Ideal s .f32) (i : s.Idx) : Host.tanh a i = Ideal.tanh (a i) := rfl

end Pointwise

/-- The logistic weights at (r, d). -/
theorem stW_apply (e : FVec Ideal S1024x1024 .f32) (r d : Fin 1024) :
    stW (F := Ideal) e (ix2 r d) = Cert.Spec.w e r d := by
  unfold stW
  rw [hdivf_at, addf_apply, hexp_at, hnegf_at, Cert.Lib.bcast_scalar_apply, Ideal.ofBits_one_f32]
  rfl

/-- A one-entry matrix reshaped to a scalar reads that entry. -/
theorem scalar_of_1x1 (tp : FVec Ideal S1x1 .f32) :
    shapeCast S_ tp shapeCasts_S1x1_S_ ix0 = tp (ix2 (0 : Fin 1) (0 : Fin 1)) := by
  refine shapeCast_apply tp shapeCasts_S1x1_S_ ix0 (ix2 (0 : Fin 1) (0 : Fin 1)) ?_
  have h0 : S_.numel = 1 := by decide
  have h1 := (S_.rowMajor ix0).isLt
  rw [Shape.rowMajor_val_two]
  show 0 * 1 + 0 = (S_.rowMajor ix0).val
  omega

/-- The masked weights at (r, d). -/
theorem stMw_apply (emb : Cert.Spec.A2 1024 1024) (temp : FVec Ideal S1x1 .f32) (W : FVec Ideal S1024x1024 .f32)
    (thr : FVec Ideal S1024 .f32) (hW : ∀ r d : Fin 1024, W (ix2 r d) = Cert.Spec.w emb r d) (r d : Fin 1024) :
    stMw (F := Ideal) W thr temp (ix2 r d) = Cert.Spec.mwT emb temp (fun d' => thr (ix1 d')) r d := by
  unfold stMw
  rw [mulf_apply, htanh_at, hexp_at, mulf_apply, broadcastInDim_scalar_apply, hexp_at, scalar_of_1x1, subf_apply,
    Cert.Lib.bcast_vec_rows_apply, hW]
  rfl

/-- The sum of the squares of a row. -/
theorem rowSums_sq_apply (x : FVec Ideal S1024x1024 .f32) (r : Fin 1024) :
    rowSums (F := Ideal) (mulf x x) (ix1 r) = ∑ k : Fin 1024, x (ix2 r k) * x (ix2 r k) := by
  unfold rowSums
  rw [Cert.Lib.host_rowSum_apply (by decide)]
  rfl

/-- The row lengths plus the small constant, at row r. -/
theorem stRnorm_apply (x : FVec Ideal S1024x1024 .f32) (r : Fin 1024) :
    stRnorm (F := Ideal) x (ix2 r (0 : Fin 1)) = Ideal.sqrt (∑ k : Fin 1024, x (ix2 r k) * x (ix2 r k)) + Cert.Spec.eps := by
  unfold stRnorm
  rw [addf_apply, hsqrt_at, Cert.Lib.bcast_col_apply, rowSums_sq_apply, Cert.Lib.bcast_scalar_apply]
  rfl

/-- The normalised rows at (r, d). -/
theorem stDlw_apply (x : FVec Ideal S1024x1024 .f32) (r d : Fin 1024) :
    stDlw (F := Ideal) x (ix2 r d)
      = Ideal.div (x (ix2 r d)) (Ideal.sqrt (∑ k : Fin 1024, x (ix2 r k) * x (ix2 r k)) + Cert.Spec.eps) := by
  unfold stDlw
  rw [hdivf_at, Cert.Lib.bcast_col_rows_apply, stRnorm_apply]

/-- The index of a 1024 x 1024 matrix that reduces along axis 0 to column d, at coordinate k, is (k, d). -/
theorem lift_col (h : S1024x1024.Reduces [0] S1024) (d k : Fin 1024) : h.lift (ix1 d) k = ix2 k d := by
  funext a; apply Fin.ext
  match a with | ⟨0, _⟩ => rfl | ⟨1, _⟩ => rfl

/-- The sum down a column, from zero. -/
theorem colSums_apply (x : FVec Ideal S1024x1024 .f32) (d : Fin 1024) :
    Host.reduceAdd x (constant (F := Ideal) S_ .f32 0x00000000#32) reducesTo_S1024x1024_S1024_d0 h_S_ (ix1 d)
      = ∑ r : Fin 1024, x (ix2 r d) := by
  have h : S1024x1024.Reduces [0] S1024 := by decide
  show Ideal.hostReduceAdd reducesTo_S1024x1024_S1024_d0 x (Ideal.ofBits .f32 0x00000000#32) (ix1 d) = _
  rw [Ideal.hostReduceAdd_single reducesTo_S1024x1024_S1024_d0 h, Ideal.ofBits_zero_f32, zero_add]
  exact Finset.sum_congr rfl fun k _ => congrArg x (lift_col h d k)

/-- The column sums of the normalised masked weights at column d. -/
theorem stDiag_apply (emb : Cert.Spec.A2 1024 1024) (temp : FVec Ideal S1x1 .f32) (W : FVec Ideal S1024x1024 .f32)
    (thr : FVec Ideal S1024 .f32) (hW : ∀ r d : Fin 1024, W (ix2 r d) = Cert.Spec.w emb r d) (d : Fin 1024) :
    stDiag (F := Ideal) W thr temp (ix1 d) = ∑ r : Fin 1024, Cert.Spec.dlwT emb temp (fun d' => thr (ix1 d')) r d := by
  unfold stDiag
  rw [colSums_apply]
  refine Finset.sum_congr rfl fun r _ => ?_
  rw [stDlw_apply]
  unfold Cert.Spec.dlwT Cert.Spec.rnormT
  simp only [stMw_apply emb temp W thr hW]

/-- The sum of the squares of a row of a 256 x 256 matrix. -/
theorem rowSq256_apply (S : FVec Ideal S256x256 .f32) (i : Fin 256) :
    Host.reduceAdd (mulf S S) (constant (F := Ideal) S_ .f32 0x00000000#32) reducesTo_S256x256_S256_d1 h_S_ (ix1 i)
      = ∑ k : Fin 256, S (ix2 i k) * S (ix2 i k) := by
  rw [Cert.Lib.host_rowSum_apply (by decide)]
  rfl

/-- The rows scaled to unit length, at (i, j). -/
theorem stNorm_apply (S : FVec Ideal S256x256 .f32) (i j : Fin 256) :
    stNorm (F := Ideal) S (ix2 i j) = Cert.Spec.normalize (fun a b => S (ix2 a b)) i j := by
  unfold stNorm
  rw [hdivf_at, Cert.Lib.bcast_col_rows_apply, addf_apply, hsqrt_at, Cert.Lib.bcast_col_apply, rowSq256_apply,
    Cert.Lib.bcast_scalar_apply]
  rfl

end Cert.RefRun

end
-- ==== Proof.RefReadThr.lean ====
/-
  The reference's thresholds, read at an index.

  From the 1024 × 1024 matrix W of weights and the row of 1024 multipliers, the reference forms for every row r of W its
  mean m r = (∑ k, W (r, k)) / 1024, its unbiased variance v r = (∑ k, (W (r, k) - m r)²) / 1023 — the divisor is spelt
  1024 minus the integer 1 made a float, which is the float 1023, and the variance is guarded by a test "divisor > 0"
  that is true — and the threshold m r + multiplier r · √(v r).  Each step is read at one entry: a row sum is the sum of
  the row's entries, a constant or a one-entry array repeated over a shape reads that entry, a column repeated along the
  rows reads the row's value.
-/
import proofs.«136278_j8443905704308_2_alg».proof.Proof.RefRunTerms
import proofs.«136278_j8443905704308_2_alg».proof.Proof.Spec
import proofs.«136278_j8443905704308_2_alg».proof.Proof.Consts
import proofs.«136278_j8443905704308_2_alg».proof.Proof.LibHostReads
import Idealize.ShloMosaic.Lib.ValueIdx
import Idealize.ShloMosaic.Lib.ValueLayout
import Idealize.ShloMosaic.Lib.Pipeline.Value
import Idealize.ShloMosaic.PureOps.Ideal.Laws

noncomputable section

namespace Cert.RefRead

open Cert.ReferenceIdeal Cert.ReferenceIdeal.Gen Idealize.ShloMosaic Idealize.ShloMosaic.ValueIdx Cert.RefRun

/-- The integer 1 as a real number. -/
theorem one_toInt : ((1#32 : BitVec 32).toInt : ℝ) = 1 := by
  have h : (1#32 : BitVec 32).toInt = 1 := by decide
  rw [h]; norm_num

/-- The float 1024 minus the integer 1 is the float 1023. -/
theorem c1024_sub_one : Cert.Spec.c1024 - (((1#32 : BitVec 32).toInt : ℝ) : EReal) = Cert.Spec.c1023 := by
  rw [Cert.Consts.c1024_eq, Cert.Consts.c1023_eq, one_toInt, ← EReal.coe_sub]
  norm_num

/-- The float 1023 is above zero. -/
theorem c1023_gt_zero : Ideal.cmp .ogt Cert.Spec.c1023 (Ideal.ofBits .f32 0x00000000#32) = 1#1 := by
  rw [Ideal.ofBits_zero_f32, Cert.Consts.c1023_eq]
  unfold Ideal.cmp
  have h : (0 : EReal) < ((1023 : ℝ) : EReal) := by exact_mod_cast (by norm_num : (0 : ℝ) < 1023)
  simp [h]

/-- A one-entry array repeated over a shape reads that entry everywhere. -/
theorem bcast_unit_apply {α : Type} {s : Shape} (h : (⟨0, ![]⟩ : Shape).BroadcastsInDim s ![]) (x : (⟨0, ![]⟩ : Shape).Idx → α)
    (i : s.Idx) : broadcastInDim s ![] h x i = x ix0 :=
  broadcastInDim_apply ![] h x i ix0 fun a => a.elim0

/-- The sum of row r. -/
theorem rowSums_apply (x : FVec Ideal S1024x1024 .f32) (r : Fin 1024) :
    rowSums (F := Ideal) x (ix1 r) = ∑ k : Fin 1024, x (ix2 r k) := by
  unfold rowSums
  exact Cert.Lib.host_rowSum_apply (by decide) x _ _ r

/-- The mean of row r. -/
theorem stMean_apply (W : FVec Ideal S1024x1024 .f32) (r : Fin 1024) :
    stMean (F := Ideal) W (ix1 r) = Ideal.div (∑ k : Fin 1024, W (ix2 r k)) Cert.Spec.c1024 := by
  unfold stMean
  show Ideal.div (rowSums W (ix1 r)) (broadcastInDim S1024 ![] _ (constant (F := Ideal) S_ .f32 0x44800000#32) (ix1 r)) = _
  rw [rowSums_apply, Cert.Lib.bcast_scalar_apply]
  rfl

/-- The mean of row r, repeated along the row. -/
theorem stMeanM_apply (W : FVec Ideal S1024x1024 .f32) (r k : Fin 1024) :
    stMeanM (F := Ideal) W (ix2 r k) = Ideal.div (∑ k' : Fin 1024, W (ix2 r k')) Cert.Spec.c1024 := by
  unfold stMeanM
  refine (Cert.Lib.bcast_col_rows_apply _ _ r k).trans ?_
  show Ideal.div (broadcastInDim S1024x1 ![0] _ (rowSums W) (ix2 r (0 : Fin 1)))
    (broadcastInDim S1024x1 ![] _ (constant (F := Ideal) S_ .f32 0x44800000#32) (ix2 r (0 : Fin 1))) = _
  rw [Cert.Lib.bcast_col_apply, rowSums_apply, Cert.Lib.bcast_scalar_apply]
  rfl

/-- The deviation of entry (r, k) from its row's mean. -/
theorem stDev_apply (W : FVec Ideal S1024x1024 .f32) (r k : Fin 1024) :
    stDev (F := Ideal) W (ix2 r k) = W (ix2 r k) - Ideal.div (∑ k' : Fin 1024, W (ix2 r k')) Cert.Spec.c1024 := by
  unfold stDev
  exact congrArg (W (ix2 r k) - ·) (stMeanM_apply W r k)

/-- The variance's divisor is the float 1023. -/
theorem stDivisor_apply : stDivisor (F := Ideal) ix0 = Cert.Spec.c1023 := c1024_sub_one

/-- The sum of row r's squared deviations over 1023. -/
theorem stVarQ_apply (W : FVec Ideal S1024x1024 .f32) (r : Fin 1024) :
    stVarQ (F := Ideal) W (ix1 r)
      = Ideal.div (∑ k : Fin 1024, (W (ix2 r k) - Ideal.div (∑ k' : Fin 1024, W (ix2 r k')) Cert.Spec.c1024)
          * (W (ix2 r k) - Ideal.div (∑ k' : Fin 1024, W (ix2 r k')) Cert.Spec.c1024)) Cert.Spec.c1023 := by
  unfold stVarQ
  show Ideal.div (rowSums (mulf (stDev W) (stDev W)) (ix1 r)) (broadcastInDim S1024 ![] _ (stDivisor (F := Ideal)) (ix1 r)) = _
  rw [rowSums_apply, bcast_unit_apply, stDivisor_apply]
  refine congrArg (Ideal.div · Cert.Spec.c1023) (Finset.sum_congr rfl fun k _ => ?_)
  show stDev W (ix2 r k) * stDev W (ix2 r k) = _
  rw [stDev_apply]

/-- The guard is true, so the variance of row r is that quotient. -/
theorem stVar_apply (W : FVec Ideal S1024x1024 .f32) (r : Fin 1024) :
    stVar (F := Ideal) W (ix1 r) = stVarQ (F := Ideal) W (ix1 r) := by
  unfold stVar
  rw [select_apply, bcast_unit_apply]
  show Scalar.select (Ideal.cmp .ogt (stDivisor (F := Ideal) ix0) (Ideal.ofBits .f32 0x00000000#32)) _ _ = _
  rw [stDivisor_apply, c1023_gt_zero, select_one]

/-- The threshold of row r: its mean plus its multiplier times its standard deviation. -/
theorem stThr_read (W : FVec Ideal S1024x1024 .f32) (sw : FVec Ideal S1x1024 .f32) (r : Fin 1024) :
    stThr (F := Ideal) W sw (ix1 r)
      = Ideal.div (∑ k : Fin 1024, W (ix2 r k)) Cert.Spec.c1024
        + sw (ix2 (0 : Fin 1) r) * Ideal.sqrt (Ideal.div
            (∑ k : Fin 1024, (W (ix2 r k) - Ideal.div (∑ k' : Fin 1024, W (ix2 r k')) Cert.Spec.c1024)
              * (W (ix2 r k) - Ideal.div (∑ k' : Fin 1024, W (ix2 r k')) Cert.Spec.c1024)) Cert.Spec.c1023) := by
  unfold stThr
  show stMean W (ix1 r) + shapeCast S1024 sw _ (ix1 r) * Ideal.sqrt (stVar W (ix1 r)) = _
  rw [stMean_apply, shapeCast_1a_a_apply, stVar_apply, stVarQ_apply]

end Cert.RefRead

namespace Cert.RefRun

open Cert.ReferenceIdeal Cert.ReferenceIdeal.Gen Idealize.ShloMosaic Idealize.ShloMosaic.ValueIdx

/-- With W the logistic weights of an embedding table, the reference's threshold of row d is the specification's. -/
theorem stThr_apply (emb : Cert.Spec.A2 1024 1024) (W : FVec Ideal S1024x1024 .f32) (sw : FVec Ideal S1x1024 .f32)
    (hW : ∀ r d : Fin 1024, W (ix2 r d) = Cert.Spec.w emb r d) (d : Fin 1024) :
    stThr (F := Ideal) W sw (ix1 d) = Cert.Spec.thres emb sw d := by
  rw [Cert.RefRead.stThr_read]
  simp only [hW]
  rfl

end Cert.RefRun

end
-- ==== Proof.LibOuterStack.lean ====
/-
  A stack of all pairs of rows, read at an index given by coordinates.

  A value computed for every pair (row `p` of one matrix, row `q` of another) against the `n` entries of those rows
  lives in an `[a, b, n]` array.  Three operands meet there.  The first matrix, `[a, n]`, is cast to `[a, 1, n]` and
  repeated along the middle axis; the second, `[b, n]`, is cast to `[1, b, n]` and repeated along the first axis; a
  table of `n` entries, `[1, n]`, is cast to `[1, 1, n]` and repeated along both.  Read at `(p, q, k)` they are the first
  matrix at `(p, k)`, the second at `(q, k)` and the table at `k`.  A sum over the last axis of the stack, read at
  `(p, q)`, is the sum over `k` of the stack at `(p, q, k)`.  Beside them, a one-entry matrix `[1, 1]` repeated to
  `[a, b]` reads that entry everywhere.
-/
import Idealize.ShloMosaic.Lib.ValueLayout
import Idealize.ShloMosaic.PureOps.Ideal.Laws

namespace Cert.Lib

open Idealize.ShloMosaic Idealize.ShloMosaic.ValueIdx

variable {α : Type}

/-- An `[a, n]` matrix cast to `[a, 1, n]` reads, at `(p, u, k)`, the matrix at `(p, k)`. -/
theorem shapeCast_an_a1n_apply {a n : ℕ} (x : (⟨2, ![a, n]⟩ : Shape).Idx → α)
    (h : (⟨2, ![a, n]⟩ : Shape).ShapeCasts ⟨3, ![a, 1, n]⟩) (p : Fin a) (u : Fin 1) (k : Fin n) :
    shapeCast ⟨3, ![a, 1, n]⟩ x h (ix3 p u k) = x (ix2 p k) :=
  shapeCast_apply x h _ _ (by
    have hu : u.val = 0 := by omega
    rw [Shape.rowMajor_val_two, Shape.rowMajor_val_three]
    show p.val * n + k.val = (p.val * 1 + u.val) * n + k.val
    rw [hu, Nat.mul_one, Nat.add_zero])

/-- An `[a, 1, n]` array repeated along its middle axis to `[a, b, n]` reads, at `(p, q, k)`, the operand at `(p, 0, k)`. -/
theorem broadcastTo_a1n_abn_apply {a b n : ℕ} (x : (⟨3, ![a, 1, n]⟩ : Shape).Idx → α)
    (h : (⟨3, ![a, 1, n]⟩ : Shape).Broadcasts ⟨3, ![a, b, n]⟩) (p : Fin a) (q : Fin b) (k : Fin n) :
    broadcastTo ⟨3, ![a, b, n]⟩ x h (ix3 p q k) = x (ix3 p (0 : Fin 1) k) := by
  refine broadcastTo_apply x h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if n = 1 then 0 else k.val
    split
    · have := k.isLt; omega
    · rfl

/-- A `[1, b, n]` array repeated along its first axis to `[a, b, n]` reads, at `(p, q, k)`, the operand at `(0, q, k)`. -/
theorem broadcastTo_1bn_abn_apply {a b n : ℕ} (x : (⟨3, ![1, b, n]⟩ : Shape).Idx → α)
    (h : (⟨3, ![1, b, n]⟩ : Shape).Broadcasts ⟨3, ![a, b, n]⟩) (p : Fin a) (q : Fin b) (k : Fin n) :
    broadcastTo ⟨3, ![a, b, n]⟩ x h (ix3 p q k) = x (ix3 (0 : Fin 1) q k) := by
  refine broadcastTo_apply x h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if n = 1 then 0 else k.val
    split
    · have := k.isLt; omega
    · rfl

/-- A `[1, 1, n]` array repeated along its first two axes to `[a, b, n]` reads, at `(p, q, k)`, the operand at `(0, 0, k)`. -/
theorem broadcastTo_11n_abn_apply {a b n : ℕ} (x : (⟨3, ![1, 1, n]⟩ : Shape).Idx → α)
    (h : (⟨3, ![1, 1, n]⟩ : Shape).Broadcasts ⟨3, ![a, b, n]⟩) (p : Fin a) (q : Fin b) (k : Fin n) :
    broadcastTo ⟨3, ![a, b, n]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- A one-entry matrix repeated to `[a, b]` reads that entry everywhere. -/
theorem broadcastTo_11_ab_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

/-- Over the stack's last axis, the index above `(p, q)` with coordinate `k` inserted is `(p, q, k)`. -/
theorem lift_last_ix2 {a b n : ℕ} (h : (⟨3, ![a, b, n]⟩ : Shape).Reduces [2] ⟨2, ![a, b]⟩) (p : Fin a) (q : Fin b) (k : Fin n) :
    h.lift (ix2 p q) k = ix3 p q k := by
  funext c
  apply Fin.ext
  match c with
  | ⟨0, _⟩ => rfl
  | ⟨1, _⟩ => rfl
  | ⟨2, _⟩ => rfl

/-- At the ideal values, a sum over the last axis of an `[a, b, n]` stack, read at `(p, q)`, is the sum over `k` of the
    stack at `(p, q, k)`. -/
theorem laneSum_apply {a b n : ℕ} {φ : FTy} (src : FVec Ideal ⟨3, ![a, b, n]⟩ φ) (acc : BitVec φ.bits)
    (h : (⟨3, ![a, b, n]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin n, src (ix3 p q k) := by
  refine (Ideal.multiReduction_add_single src acc h hφ hacc (ix2 p q)).trans ?_
  exact Finset.sum_congr rfl fun k _ => congrArg src (lift_last_ix2 h p q k)

end Cert.Lib
-- ==== Proof.RefReadSimDot.lean ====
/-
  Every row of a matrix against every frame of every video, and the sum over the frames, read at an index.

  A host contraction of axis 1 of an [A, K] matrix with axis 2 of a [B, C, K] array, with no batch axes, gives an
  [A, B, C] array: at (p, q, f) it is the sum over k < K of left (p, k) · right (q, f, k) — row p of the matrix against
  frame f of video q.  The host's float sum from zero over the last axis of an [A, B, C] array is, at (p, q), the sum
  over f < C of the array at (p, q, f).
-/
import Idealize.ShloMosaic.PureOps.Ideal.Laws
import Idealize.ShloMosaic.Lib.ValueIdx
import proofs.«136278_j8443905704308_2_alg».proof.Proof.LibOuterStack

noncomputable section

namespace Cert.RefRead

open Idealize.ShloMosaic Idealize.ShloMosaic.ValueIdx

variable {A K B C : ℕ} {φ₁ φ₂ : FTy}

/-- The dimension numbers of rows against frames: rows × contraction against videos × frames × contraction. -/
abbrev rowsFrames (wf : DotDims.WF ⟨2, ![A, K]⟩ ⟨3, ![B, C, K]⟩ ⟨3, ![A, B, C]⟩ [1] [2] [0] [0, 1] [] []) :
    DotDims ⟨2, ![A, K]⟩ ⟨3, ![B, C, K]⟩ ⟨3, ![A, B, C]⟩ := ⟨[1], [2], [0], [0, 1], [], [], wf⟩

/-- Its contraction shape has one axis, -/
theorem rowsFrames_rank (wf : DotDims.WF ⟨2, ![A, K]⟩ ⟨3, ![B, C, K]⟩ ⟨3, ![A, B, C]⟩ [1] [2] [0] [0, 1] [] []) :
    (rowsFrames wf).contr.rank = 1 := rfl

/-- of extent K. -/
theorem rowsFrames_size (wf : DotDims.WF ⟨2, ![A, K]⟩ ⟨3, ![B, C, K]⟩ ⟨3, ![A, B, C]⟩ [1] [2] [0] [0, 1] [] []) :
    (rowsFrames wf).contr.size ⟨0, by rw [rowsFrames_rank]; exact Nat.one_pos⟩ = K := rfl

/-- The host's contraction at (p, q, f) is ∑ k, l (p, k) * r (q, f, k). -/
theorem dotRowsFrames_apply (wf : DotDims.WF ⟨2, ![A, K]⟩ ⟨3, ![B, C, K]⟩ ⟨3, ![A, B, C]⟩ [1] [2] [0] [0, 1] [] [])
    (prec : Option ContractPrecision) (sched : HostSchedule)
    (l : FVec Ideal ⟨2, ![A, K]⟩ φ₁) (r : FVec Ideal ⟨3, ![B, C, K]⟩ φ₂) (p : Fin A) (q : Fin B) (f : Fin C) :
    FloatOps.dotGeneral (rowsFrames wf) prec sched l r (ix3 p q f) = ∑ k : Fin K, l (ix2 p k) * r (ix3 q f k) := by
  refine (Ideal.dotGeneral_apply (rowsFrames wf) prec sched l r (ix3 p q f)).trans ?_
  refine (Equiv.sum_comp (contrEquiv1 (rowsFrames wf) K (rowsFrames_rank wf) (rowsFrames_size wf)).symm _).symm.trans ?_
  refine Finset.sum_congr rfl fun k _ => ?_
  have hk := contrEquiv1_symm_val (rowsFrames wf) K (rowsFrames_rank wf) (rowsFrames_size wf) k
  have hl : (rowsFrames wf).lhsIdx (ix3 p q f) ((contrEquiv1 (rowsFrames wf) K (rowsFrames_rank wf) (rowsFrames_size wf)).symm k) = ix2 p k := by
    funext a; apply Fin.ext
    match a with
    | ⟨0, _⟩ => simp [DotDims.lhsIdx]; rfl
    | ⟨1, _⟩ => exact (DotDims.lhsIdx_val_of_single (rowsFrames wf) (cl := 1) rfl (ix3 p q f) _).trans hk
  have hr : (rowsFrames wf).rhsIdx (ix3 p q f) ((contrEquiv1 (rowsFrames wf) K (rowsFrames_rank wf) (rowsFrames_size wf)).symm k) = ix3 q f k := by
    funext a; apply Fin.ext
    match a with
    | ⟨0, _⟩ => simp [DotDims.rhsIdx]; rfl
    | ⟨1, _⟩ => simp [DotDims.rhsIdx]; rfl
    | ⟨2, _⟩ => exact (DotDims.rhsIdx_val_of_single (rowsFrames wf) (cr := 2) rfl (ix3 p q f) _).trans hk
  show l _ * r _ = _
  rw [hl, hr]

/-- The host's float sum along the last axis of an [A, B, C] array, from zero, at (p, q). -/
theorem host_lastSum_apply (h : (⟨3, ![A, B, C]⟩ : Shape).Reduces [2] ⟨2, ![A, B]⟩) (x : FVec Ideal ⟨3, ![A, B, C]⟩ .f32)
    (h' : (⟨3, ![A, B, C]⟩ : Shape).ReducesTo [2] ⟨2, ![A, B]⟩) (hu : 0 < (⟨0, ![]⟩ : Shape).numel) (p : Fin A) (q : Fin B) :
    Host.reduceAdd x (constant (⟨0, ![]⟩ : Shape) .f32 0x00000000#32) h' hu (ix2 p q) = ∑ f : Fin C, x (ix3 p q f) := by
  show Ideal.hostReduceAdd h' x (Ideal.ofBits .f32 0x00000000#32) (ix2 p q) = _
  rw [Ideal.hostReduceAdd_single h' h, Ideal.ofBits_zero_f32, zero_add]
  exact Finset.sum_congr rfl fun k _ => congrArg x (Cert.Lib.lift_last_ix2 h p q k)

end Cert.RefRead

end
-- ==== Proof.RefReadSim.lean ====
/-
  The reference's frame-averaged similarities, read at an index.

  From a vector D of 1024 scales, the text rows ([256, 1024]) and the video frames ([256, 64, 1024]) the reference scales
  every text row by D, multiplies every scaled row against every frame of every video — at (i, j, f) the sum over d of
  (text (i, d) · D d) · video (j, f, d) —, adds the 64 frames up and divides by the float 64.  Read at (i, j) that is the
  similarity with the frame mean taken last.
-/
import proofs.«136278_j8443905704308_2_alg».proof.Proof.RefRunTerms
import proofs.«136278_j8443905704308_2_alg».proof.Proof.Spec
import proofs.«136278_j8443905704308_2_alg».proof.Proof.LibHostReads
import proofs.«136278_j8443905704308_2_alg».proof.Proof.RefReadSimDot
import Idealize.ShloMosaic.Lib.ValueIdx
import Idealize.ShloMosaic.PureOps.Ideal.Laws

noncomputable section

namespace Cert.RefRead

open Cert.ReferenceIdeal Cert.ReferenceIdeal.Gen Idealize.ShloMosaic Idealize.ShloMosaic.ValueIdx Cert.RefRun

/-- The contraction's dimension numbers are those of rows against frames. -/
theorem simDims_eq : dot_S256x1024_S256x64x1024_S256x256x64_1_2_0_01_n_n
    = rowsFrames (A := 256) (K := 1024) (B := 256) (C := 64)
        Cert.ReferenceIdeal.Facts₀.dot_S256x1024_S256x64x1024_S256x256x64_1_2_0_01_n_n_wf := rfl

end Cert.RefRead

namespace Cert.RefRun

open Cert.ReferenceIdeal Cert.ReferenceIdeal.Gen Idealize.ShloMosaic Idealize.ShloMosaic.ValueIdx

/-- Entry (i, j) of the reference's similarities: the mean over the frames of the 64 contractions over the features. -/
theorem stSim_apply (D : FVec Ideal S1024 .f32) (txt : FVec Ideal S256x1024 .f32) (vid : FVec Ideal S256x64x1024 .f32) (i j : Fin 256) :
    stSim (F := Ideal) D txt vid (ix2 i j) = Cert.Spec.simR txt vid (fun d => D (ix1 d)) i j := by
  unfold stSim
  show Ideal.div (Host.reduceAdd _ (constant (F := Ideal) S_ .f32 0x00000000#32) _ _ (ix2 i j))
    (broadcastInDim S256x256 ![] _ (constant (F := Ideal) S_ .f32 0x42800000#32) (ix2 i j)) = _
  rw [Cert.Lib.bcast_scalar_apply]
  refine congrArg (Ideal.div · Cert.Spec.c64) ?_
  refine (Cert.RefRead.host_lastSum_apply (by decide) _ _ _ i j).trans ?_
  refine Finset.sum_congr rfl fun f _ => ?_
  simp only [Host.dotGeneral]
  rw [Cert.RefRead.simDims_eq]
  refine (Cert.RefRead.dotRowsFrames_apply _ _ _ _ _ i j f).trans ?_
  refine Finset.sum_congr rfl fun d _ => ?_
  refine congrArg (· * vid (ix3 j f d)) ?_
  exact congrArg (txt (ix2 i d) * ·) (Cert.Lib.bcast_vec_rows_apply D _ _ i d)

end Cert.RefRun

end
-- ==== Proof.RefRun.lean ====
import proofs.«136278_j8443905704308_2_alg».proof.Proof.RefRunMain
import proofs.«136278_j8443905704308_2_alg».proof.Proof.RefRunStages
import proofs.«136278_j8443905704308_2_alg».proof.Proof.RefReadParts
import proofs.«136278_j8443905704308_2_alg».proof.Proof.RefReadThr
import proofs.«136278_j8443905704308_2_alg».proof.Proof.RefReadSim
import proofs.«136278_j8443905704308_2_alg».proof.Proof.Spec

/-!
  The reference program's run with its result named: every weakly fair execution terminates with the result
  buffer at the specification's similarity matrix (frame mean taken last, rows scaled to unit length) of the five
  argument arrays, and with the arguments unchanged. The run leaves the five stage terms composed; read entry
  by entry, the composition is the specification.
-/

noncomputable section

open scoped BigOperators

namespace Cert.RefRun

open Idealize.ShloMosaic Idealize.ShloMosaic.TcCoe Idealize.SL.Sem Cert.ReferenceIdeal
open Idealize.ShloMosaic.ValueIdx Idealize.ShloMosaic.StableHlo

/-- The five stage terms composed over the arguments are the specification's result. -/
theorem composed_eq (emb : FVec Ideal S1024x1024 .f32) (simw : FVec Ideal S1x1024 .f32) (temp : FVec Ideal S1x1 .f32)
    (txt : FVec Ideal S256x1024 .f32) (vid : FVec Ideal S256x64x1024 .f32) :
    stNorm (F := Ideal) (stSim (stDiag (stW emb) (stThr (stW emb) simw) temp) txt vid)
      = Cert.Spec.outR emb simw temp txt vid := by
  funext y
  obtain ⟨i, j, rfl⟩ : ∃ (i : Fin 256) (j : Fin 256), y = ix2 i j := ⟨y 0, y 1, eq_ix2 y⟩
  have hW : ∀ r d : Fin 1024, stW (F := Ideal) emb (ix2 r d) = Cert.Spec.w emb r d := stW_apply emb
  have hthr : (fun d' : Fin 1024 => stThr (F := Ideal) (stW emb) simw (ix1 d')) = Cert.Spec.thres emb simw :=
    funext fun d' => stThr_apply emb (stW emb) simw hW d'
  have hdiag : (fun d : Fin 1024 => stDiag (F := Ideal) (stW emb) (stThr (stW emb) simw) temp (ix1 d))
      = Cert.Spec.diag emb simw temp := by
    funext d
    rw [stDiag_apply emb temp (stW emb) (stThr (stW emb) simw) hW d, hthr]
    rfl
  have hsim : (fun a b : Fin 256 => stSim (F := Ideal) (stDiag (stW emb) (stThr (stW emb) simw) temp) txt vid (ix2 a b))
      = Cert.Spec.simR txt vid (Cert.Spec.diag emb simw temp) := by
    funext a b
    rw [stSim_apply, hdiag]
  rw [stNorm_apply, hsim]
  rfl

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v40)
          = Cert.Spec.outR (m ((c.tc : Thread nD τ).loc main_arg2)) (m ((c.tc : Thread nD τ).loc main_arg3)) (m ((c.tc : Thread nD τ).loc main_arg4))
              (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono
    (fun _ h c =>
      ⟨(h c main_v40).trans ((out_eq (F := Ideal) (launchContents m c)).trans
          (composed_eq (m ((c.tc : Thread nD τ).loc main_arg2)) (m ((c.tc : Thread nD τ).loc main_arg3))
            (m ((c.tc : Thread nD τ).loc main_arg4)) (m ((c.tc : Thread nD τ).loc main_arg0))
            (m ((c.tc : Thread nD τ).loc main_arg1)))),
        (h c main_arg0).trans (keep_arg0 (F := Ideal) (launchContents m c)),
        (h c main_arg1).trans (keep_arg1 (F := Ideal) (launchContents m c)),
        (h c main_arg2).trans (keep_arg2 (F := Ideal) (launchContents m c)),
        (h c main_arg3).trans (keep_arg3 (F := Ideal) (launchContents m c)),
        (h c main_arg4).trans (keep_arg4 (F := Ideal) (launchContents m c))⟩)
    (run_main (F := Ideal) m ρ)

end Cert.RefRun

end
-- ==== Proof.lean ====
/-
  The proof of `Cert.Claim`: a four-stage kernel against a plain reference, equal as extended reals on finite inputs.

  Both programs compute, from a 1024 x 1024 embedding table, a per-column threshold (the mean of a row of logistic
  weights plus a multiple of its standard deviation), a masked and row-normalized copy of the weights, and its column
  sums diag; then the similarity of every text row (scaled by diag) with every video, averaged over the video's 64
  frames, each row of similarities scaled to unit length (Proof/Spec.lean states all of it).
  * The kernel does this in four stages (thresholds; partial column sums, one per band of 128 rows; frame means;
    similarities). What each stage leaves in its output array is read off the stage's run (Proof/KThres, KDiag,
    KVmeanArr, KSimArr), the stages are chained through the buffers they hand on (Proof/KChain over Proof/KRun), and
    the eight partial sums add up to the column sums (Proof/Regroup): the result is `Cert.Spec.outK`, the frame
    mean taken BEFORE the contraction over features.
  * The reference's run ends at `Cert.Spec.outR`, the frame mean taken AFTER the contraction (Proof/RefRun).
  * `outK = outR` when every input is finite (Proof/Bridge): the one law used, that a sum over frames and a scaling
    by 1/64 commute with a contraction, holds on the reals, and every number that enters it is real because each
    stage keeps real numbers real. The precondition gives the finite inputs (Proof/Finite).
  The three frames: the two kernels' are their generated frame certificates, the reference's is its run with the
  result dropped. Nothing was rewritten by the idealization, so `preserves` asks nothing.
-/
import proofs.«136278_j8443905704308_2_alg».proof.Defs
import proofs.«136278_j8443905704308_2_alg».proof.Proof.Gen.Kernel
import proofs.«136278_j8443905704308_2_alg».proof.Proof.Gen.Kernel.Frame
import proofs.«136278_j8443905704308_2_alg».proof.Proof.Gen.KernelIdeal
import proofs.«136278_j8443905704308_2_alg».proof.Proof.Gen.KernelIdeal.Frame
import proofs.«136278_j8443905704308_2_alg».proof.Proof.Gen.ReferenceIdeal
import proofs.«136278_j8443905704308_2_alg».proof.Proof.Gen.Pre_finite_inputs
import proofs.«136278_j8443905704308_2_alg».proof.Proof.KRun
import proofs.«136278_j8443905704308_2_alg».proof.Proof.KChain
import proofs.«136278_j8443905704308_2_alg».proof.Proof.Regroup
import proofs.«136278_j8443905704308_2_alg».proof.Proof.Bridge
import proofs.«136278_j8443905704308_2_alg».proof.Proof.Finite
import proofs.«136278_j8443905704308_2_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.RefRun.run m ρ)

/-- Both runs end at one array: the kernel's at the result with the frame mean taken first, the reference's at the
    result with it taken last, and on the finite inputs the precondition grants these are one function. -/
theorem algebraic : Cert.algebraic_KernelIdeal_ReferenceIdeal := by
  intro m ρ m' ρ' hpre hagree
  refine ⟨fun c => Cert.Spec.outK (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩) (Cert.KRun.run (F := Ideal) m ρ)
    exact (Cert.KChain.W4_v3 m ρ c).trans (Cert.Regroup.simArr_eq _ _ _ _ _)
  · refine (θ_run Cert.ReferenceIdeal.defs _ _).mono (fun r h c => ⟨(h c).1.trans ?_, (h c).2⟩) (Cert.RefRun.run m' ρ')
    rw [(hagree c).1, (hagree c).2.1, (hagree c).2.2.1, (hagree c).2.2.2.1, (hagree c).2.2.2.2]
    obtain ⟨h0, h1, h2, h3, h4⟩ := Cert.Finite.isR_of_pre _ _ _ _ _ (hpre c)
    exact (Cert.Bridge.out_eq h2 h3 h4 h0 h1).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
